-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x12 : Shape := ⟨2, ![100000, 12]⟩
abbrev S2x3200000 : Shape := ⟨2, ![2, 3200000]⟩
abbrev S100000 : Shape := ⟨1, ![100000]⟩
abbrev S12x64 : Shape := ⟨2, ![12, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x12 : S_.BroadcastsInDim S100000x12 (![] : Fin 0 → Fin S100000x12.rank)
  reducesTo_S100000x12_S_d0_1 : S100000x12.ReducesTo [0, 1] S_
  h_S_ : 0 < S_.numel
  bcast_S_S12x64 : S_.BroadcastsInDim S12x64 (![] : Fin 0 → Fin S12x64.rank)
  reducesTo_S12x64_S_d0_1 : S12x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x64 .f32) (main_arg10 : FVec F S64 .f32) (main_arg11 : FVec F S64x1 .f32) (main_arg12 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x12 .f32) (main_arg1 : IVec S2x3200000 32) (main_arg2 : IVec S100000 32) (main_arg3 : FVec F S12x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x1 .f32) (main_arg12 : FVec F S1 .f32) : IVec S_ 1 :=
  let main_v0 : FVec F S100000x12 .f32 := Host.absf main_arg0
  let main_cst : FVec F S_ .f32 := constant S_ .f32 0x7F800000#32
  let main_v1 : FVec F S100000x12 .f32 := broadcastInDim S100000x12 ![] bcast_S_S100000x12 main_cst
  let main_v2 : IVec S100000x12 1 := cmpf .olt main_v0 main_v1
  let main_c : IVec S_ 1 := constantI S_ 1 1#1
  let main_v3 : IVec S_ 1 := (fun x v => Host.reduce IntOp.andi x v reducesTo_S100000x12_S_d0_1 h_S_) main_v2 main_c
  let main_v4 : FVec F S12x64 .f32 := Host.absf main_arg3
  let main_cst_0 : FVec F S_ .f32 := constant S_ .f32 0x7F800000#32
  let main_v5 : FVec F S12x64 .f32 := broadcastInDim S12x64 ![] bcast_S_S12x64 main_cst_0
  let main_v6 : IVec S12x64 1 := cmpf .olt main_v4 main_v5
  let main_c_1 : IVec S_ 1 := constantI S_ 1 1#1
  let main_v7 : IVec S_ 1 := (fun x v => Host.reduce IntOp.andi x v reducesTo_S12x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x12 : Shape := ⟨2, ![100000, 12]⟩
abbrev S2x3200000 : Shape := ⟨2, ![2, 3200000]⟩
abbrev S100000 : Shape := ⟨1, ![100000]⟩
abbrev S12x64 : Shape := ⟨2, ![12, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S512 : Shape := ⟨1, ![512]⟩
abbrev S100000x1 : Shape := ⟨2, ![100000, 1]⟩
abbrev S512x1 : Shape := ⟨2, ![512, 1]⟩
abbrev S100000x64 : Shape := ⟨2, ![100000, 64]⟩
abbrev S10000x12 : Shape := ⟨2, ![10000, 12]⟩
abbrev S10000x64 : Shape := ⟨2, ![10000, 64]⟩
abbrev S3300000x64 : Shape := ⟨2, ![3300000, 64]⟩
abbrev S5000x64 : Shape := ⟨2, ![5000, 64]⟩
abbrev S5000x1 : Shape := ⟨2, ![5000, 1]⟩
abbrev S1x64 : Shape := ⟨2, ![1, 64]⟩
abbrev S512x64 : Shape := ⟨2, ![512, 64]⟩
abbrev S1x1 : Shape := ⟨2, ![1, 1]⟩

abbrev nBuf : Space → Nat
  | .hbm => 135
  | .vmem => 69
  | .smem => 0
  | _ => 0

abbrev hbmTy0_0 (i : Nat) : BufTy := match i % 128 with
  | 0 => ⟨S100000x12, .f32⟩
  | 1 => ⟨S2x3200000, .i32⟩
  | 2 => ⟨S100000, .i32⟩
  | 3 => ⟨S12x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x1, .f32⟩
  | 12 => ⟨S1, .f32⟩
  | 13 => ⟨S1x3200000, .i32⟩
  | 14 => ⟨S3200000, .i32⟩
  | 15 => ⟨S1x3200000, .i32⟩
  | 16 => ⟨S3200000, .i32⟩
  | 17 => ⟨S100000, .i32⟩
  | 18 => ⟨S3300000, .i32⟩
  | 19 => ⟨S3300000, .i32⟩
  | 20 => ⟨S_, .f32⟩
  | 21 => ⟨S3300000, .f32⟩
  | 22 => ⟨S_, .f32⟩
  | 23 => ⟨S100000, .f32⟩
  | 24 => ⟨S3300000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S3300000x1, .f32⟩
  | 54 => ⟨S_, .f32⟩
  | 55 => ⟨S100000, .f32⟩
  | 56 => ⟨S_, .f32⟩
  | 57 => ⟨S512, .f32⟩
  | 58 => ⟨S100000x1, .i32⟩
  | 59 => ⟨S512, .f32⟩
  | 60 => ⟨S512x1, .f32⟩
  | 61 => ⟨S100000x64, .f32⟩
  | 62 => ⟨S_, .i32⟩
  | 63 => ⟨S3300000, .i32⟩
  | 64 => ⟨S3300000, .i1⟩
  | 65 => ⟨S_, .i32⟩
  | 66 => ⟨S3300000, .i32⟩
  | 67 => ⟨S3300000, .i32⟩
  | 68 => ⟨S3300000, .i32⟩
  | 69 => ⟨S3300000x1, .i32⟩
  | 70 => ⟨S3300000x64, .f32⟩
  | 71 => ⟨S3300000x64, .f32⟩
  | 72 => ⟨S_, .f32⟩
  | 73 => ⟨S100000x64, .f32⟩
  | 74 => ⟨S3300000x1, .i32⟩
  | 75 => ⟨S100000x64, .f32⟩
  | 76 => ⟨S1x64, .f32⟩
  | 77 => ⟨S100000x64, .f32⟩
  | 78 => ⟨S100000x64, .f32⟩
  | 79 => ⟨S_, .i32⟩
  | 80 => ⟨S3300000, .i32⟩
  | 81 => ⟨S3300000, .i1⟩
  | 82 => ⟨S_, .i32⟩
  | 83 => ⟨S3300000, .i32⟩
  | 84 => ⟨S3300000, .i32⟩
  | 85 => ⟨S3300000, .i32⟩
  | 86 => ⟨S3300000x1, .i32⟩
  | 87 => ⟨S3300000x64, .f32⟩
  | 88 => ⟨S3300000x64, .f32⟩
  | 89 => ⟨S_, .f32⟩
  | 90 => ⟨S100000x64, .f32⟩
  | 91 => ⟨S3300000x1, .i32⟩
  | 92 => ⟨S100000x64, .f32⟩
  | 93 => ⟨S1x64, .f32⟩
  | 94 => ⟨S100000x64, .f32⟩
  | 95 => ⟨S100000x64, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000x64, .f32⟩
  | 105 => ⟨S3300000x64, .f32⟩
  | 106 => ⟨S_, .f32⟩
  | 107 => ⟨S100000x64, .f32⟩
  | 108 => ⟨S3300000x1, .i32⟩
  | 109 => ⟨S100000x64, .f32⟩
  | 110 => ⟨S1x64, .f32⟩
  | 111 => ⟨S100000x64, .f32⟩
  | 112 => ⟨S100000x64, .f32⟩
  | 113 => ⟨S_, .i32⟩
  | 114 => ⟨S3300000, .i32⟩
  | 115 => ⟨S3300000, .i1⟩
  | 116 => ⟨S_, .i32⟩
  | 117 => ⟨S3300000, .i32⟩
  | 118 => ⟨S3300000, .i32⟩
  | 119 => ⟨S3300000, .i32⟩
  | 120 => ⟨S3300000x1, .i32⟩
  | 121 => ⟨S3300000x64, .f32⟩
  | 122 => ⟨S3300000x64, .f32⟩
  | 123 => ⟨S_, .f32⟩
  | 124 => ⟨S100000x64, .f32⟩
  | 125 => ⟨S3300000x1, .i32⟩
  | 126 => ⟨S100000x64, .f32⟩
  | 127 => ⟨S1x64, .f32⟩
  | _ => ⟨S100000x12, .f32⟩

abbrev hbmTy0_1 (i : Nat) : BufTy := match i % 128 with
  | 0 => ⟨S100000x64, .f32⟩
  | 1 => ⟨S_, .f32⟩
  | 2 => ⟨S512x64, .f32⟩
  | 3 => ⟨S100000x1, .i32⟩
  | 4 => ⟨S512x64, .f32⟩
  | 5 => ⟨S1x1, .f32⟩
  | 6 => ⟨S512x1, .f32⟩
  | _ => ⟨S100000x12, .f32⟩

abbrev hbmTy (i : Nat) : BufTy := match i / 128 with
  | 0 => hbmTy0_0 i
  | 1 => hbmTy0_1 i
  | _ => ⟨S100000x12, .f32⟩

abbrev bufTy : (tb : Table) → Fin (tcTables nBuf tb) → BufTy
  | .hbm, ⟨i, _⟩ => hbmTy i
  | .local _ .vmem, ⟨0, _⟩ => ⟨S10000x12, .f32⟩
  | .local _ .vmem, ⟨1, _⟩ => ⟨S10000x12, .f32⟩
  | .local _ .vmem, ⟨2, _⟩ => ⟨S12x64, .f32⟩
  | .local _ .vmem, ⟨3, _⟩ => ⟨S10000x64, .f32⟩
  | .local _ .vmem, ⟨4, _⟩ => ⟨S10000x64, .f32⟩
  | .local _ .vmem, ⟨5, _⟩ => ⟨S5000x64, .f32⟩
  | .local _ .vmem, ⟨6, _⟩ => ⟨S5000x64, .f32⟩
  | .local _ .vmem, ⟨7, _⟩ => ⟨S5000x1, .f32⟩
  | .local _ .vmem, ⟨8, _⟩ => ⟨S5000x1, .f32⟩
  | .local _ .vmem, ⟨9, _⟩ => ⟨S5000x64, .f32⟩
  | .local _ .vmem, ⟨10, _⟩ => ⟨S5000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S10000x64, .f32⟩
  | .local _ .vmem, ⟨20, _⟩ => ⟨S10000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S5000x64, .f32⟩
  | .local _ .vmem, ⟨26, _⟩ => ⟨S5000x64, .f32⟩
  | .local _ .vmem, ⟨27, _⟩ => ⟨S10000x64, .f32⟩
  | .local _ .vmem, ⟨28, _⟩ => ⟨S10000x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S64x64, .f32⟩
  | .local _ .vmem, ⟨35, _⟩ => ⟨S10000x64, .f32⟩
  | .local _ .vmem, ⟨36, _⟩ => ⟨S10000x64, .f32⟩
  | .local _ .vmem, ⟨37, _⟩ => ⟨S5000x64, .f32⟩
  | .local _ .vmem, ⟨38, _⟩ => ⟨S5000x64, .f32⟩
  | .local _ .vmem, ⟨39, _⟩ => ⟨S5000x1, .f32⟩
  | .local _ .vmem, ⟨40, _⟩ => ⟨S5000x1, .f32⟩
  | .local _ .vmem, ⟨41, _⟩ => ⟨S5000x64, .f32⟩
  | .local _ .vmem, ⟨42, _⟩ => ⟨S5000x64, .f32⟩
  | .local _ .vmem, ⟨43, _⟩ => ⟨S10000x64, .f32⟩
  | .local _ .vmem, ⟨44, _⟩ => ⟨S10000x64, .f32⟩
  | .local _ .vmem, ⟨45, _⟩ => ⟨S1x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S64x64, .f32⟩
  | .local _ .vmem, ⟨51, _⟩ => ⟨S10000x64, .f32⟩
  | .local _ .vmem, ⟨52, _⟩ => ⟨S10000x64, .f32⟩
  | .local _ .vmem, ⟨53, _⟩ => ⟨S5000x64, .f32⟩
  | .local _ .vmem, ⟨54, _⟩ => ⟨S5000x64, .f32⟩
  | .local _ .vmem, ⟨55, _⟩ => ⟨S5000x1, .f32⟩
  | .local _ .vmem, ⟨56, _⟩ => ⟨S5000x1, .f32⟩
  | .local _ .vmem, ⟨57, _⟩ => ⟨S5000x64, .f32⟩
  | .local _ .vmem, ⟨58, _⟩ => ⟨S5000x64, .f32⟩
  | .local _ .vmem, ⟨59, _⟩ => ⟨S10000x64, .f32⟩
  | .local _ .vmem, ⟨60, _⟩ => ⟨S10000x64, .f32⟩
  | .local _ .vmem, ⟨61, _⟩ => ⟨S1x64, .f32⟩
  | .local _ .vmem, ⟨62, _⟩ => ⟨S10000x64, .f32⟩
  | .local _ .vmem, ⟨63, _⟩ => ⟨S10000x64, .f32⟩
  | .local _ .vmem, ⟨64, _⟩ => ⟨S512x64, .f32⟩
  | .local _ .vmem, ⟨65, _⟩ => ⟨S512x1, .f32⟩
  | .local _ .vmem, ⟨66, _⟩ => ⟨S64x1, .f32⟩
  | .local _ .vmem, ⟨67, _⟩ => ⟨S1x1, .f32⟩
  | .local _ .vmem, ⟨68, _⟩ => ⟨S512x1, .f32⟩
  | _, _ => ⟨S100000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_cst_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_11 : Ref sig .tc := ⟨.hbm, 79, rfl⟩
abbrev main_v51 : Ref sig .tc := ⟨.hbm, 80, rfl⟩
abbrev main_v52 : Ref sig .tc := ⟨.hbm, 81, rfl⟩
abbrev main_c_12 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_13 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_14 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_16 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_17 : Ref sig .tc := ⟨.hbm, 113, rfl⟩
abbrev main_v79 : Ref sig .tc := ⟨.hbm, 114, rfl⟩
abbrev main_v80 : Ref sig .tc := ⟨.hbm, 115, rfl⟩
abbrev main_c_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_19 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_20 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg1_1 : Ref sig .tc := ⟨.vmem, 40, rfl⟩
abbrev cc7_stg2_0 : Ref sig .tc := ⟨.vmem, 41, rfl⟩
abbrev cc7_stg2_1 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg2_1 : Ref sig .tc := ⟨.vmem, 47, rfl⟩
abbrev cc9_stg0_0 : Ref sig .tc := ⟨.vmem, 48, rfl⟩
abbrev cc9_stg0_1 : Ref sig .tc := ⟨.vmem, 49, rfl⟩
abbrev cc9_stg1_0 : Ref sig .tc := ⟨.vmem, 50, rfl⟩
abbrev cc9_stg2_0 : Ref sig .tc := ⟨.vmem, 51, rfl⟩
abbrev cc9_stg2_1 : Ref sig .tc := ⟨.vmem, 52, rfl⟩
abbrev cc10_stg0_0 : Ref sig .tc := ⟨.vmem, 53, rfl⟩
abbrev cc10_stg0_1 : Ref sig .tc := ⟨.vmem, 54, rfl⟩
abbrev cc10_stg1_0 : Ref sig .tc := ⟨.vmem, 55, rfl⟩
abbrev cc10_stg1_1 : Ref sig .tc := ⟨.vmem, 56, rfl⟩
abbrev cc10_stg2_0 : Ref sig .tc := ⟨.vmem, 57, rfl⟩
abbrev cc10_stg2_1 : Ref sig .tc := ⟨.vmem, 58, rfl⟩
abbrev cc11_stg0_0 : Ref sig .tc := ⟨.vmem, 59, rfl⟩
abbrev cc11_stg0_1 : Ref sig .tc := ⟨.vmem, 60, rfl⟩
abbrev cc11_stg1_0 : Ref sig .tc := ⟨.vmem, 61, rfl⟩
abbrev cc11_stg2_0 : Ref sig .tc := ⟨.vmem, 62, rfl⟩
abbrev cc11_stg2_1 : Ref sig .tc := ⟨.vmem, 63, rfl⟩
abbrev cc12_stg0_0 : Ref sig .tc := ⟨.vmem, 64, rfl⟩
abbrev cc12_stg1_0 : Ref sig .tc := ⟨.vmem, 65, rfl⟩
abbrev cc12_stg2_0 : Ref sig .tc := ⟨.vmem, 66, rfl⟩
abbrev cc12_stg3_0 : Ref sig .tc := ⟨.vmem, 67, rfl⟩
abbrev cc12_stg4_0 : Ref sig .tc := ⟨.vmem, 68, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem1_1 : DmaSem sig := 40
abbrev cc7_sem2_0 : DmaSem sig := 41
abbrev cc7_sem2_1 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem2_1 : DmaSem sig := 47
abbrev cc9_sem0_0 : DmaSem sig := 48
abbrev cc9_sem0_1 : DmaSem sig := 49
abbrev cc9_sem1_0 : DmaSem sig := 50
abbrev cc9_sem2_0 : DmaSem sig := 51
abbrev cc9_sem2_1 : DmaSem sig := 52
abbrev cc10_sem0_0 : DmaSem sig := 53
abbrev cc10_sem0_1 : DmaSem sig := 54
abbrev cc10_sem1_0 : DmaSem sig := 55
abbrev cc10_sem1_1 : DmaSem sig := 56
abbrev cc10_sem2_0 : DmaSem sig := 57
abbrev cc10_sem2_1 : DmaSem sig := 58
abbrev cc11_sem0_0 : DmaSem sig := 59
abbrev cc11_sem0_1 : DmaSem sig := 60
abbrev cc11_sem1_0 : DmaSem sig := 61
abbrev cc11_sem2_0 : DmaSem sig := 62
abbrev cc11_sem2_1 : DmaSem sig := 63
abbrev cc12_sem0_0 : DmaSem sig := 64
abbrev cc12_sem1_0 : DmaSem sig := 65
abbrev cc12_sem2_0 : DmaSem sig := 66
abbrev cc12_sem3_0 : DmaSem sig := 67
abbrev cc12_sem4_0 : DmaSem sig := 68

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![660], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![660], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![660], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S10000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![660], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S10000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 1 → Memref sig .tc .vmem S512x64 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![false]

abbrev stage12_1 : Fin 1 → Memref sig .tc .vmem S512x1 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S64x1 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x1 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S512x1 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S3300000_S3300000x1 : S3300000.ShapeCasts S3300000x1
  bcast_S_S512 : S_.BroadcastsInDim S512 (![] : Fin 0 → Fin S512.rank)
  bcast_S100000_S100000x1_0 : S100000.BroadcastsInDim S100000x1 (![0] : Fin 1 → Fin S100000x1.rank)
  shapeCasts_S512_S512x1 : S512.ShapeCasts S512x1
  inb_S10000x12_S10000x12_0_0 : ∀ a, (![0, 0] : Fin 2 → Nat) a + S10000x12.size a ≤ S10000x12.size a
  h_S10000x12 : 0 < S10000x12.numel
  bitsLt_bf16_f32 : FTy.bits .bf16 < FTy.bits .f32
  inb_S12x64_S12x64_0_0 : ∀ a, (![0, 0] : Fin 2 → Nat) a + S12x64.size a ≤ S12x64.size a
  h_S12x64 : 0 < S12x64.numel
  inb_S10000x64_S10000x64_0_0 : ∀ a, (![0, 0] : Fin 2 → Nat) a + S10000x64.size a ≤ S10000x64.size a
  h_S10000x64 : 0 < S10000x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S512x64 : S_.BroadcastsInDim S512x64 (![] : Fin 0 → Fin S512x64.rank)
  shapeCasts_S1_S1x1 : S1.ShapeCasts S1x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x64 : S512x1.Broadcasts S512x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  scatter_S512_S100000x1_S100000_n_0_0_1_wf : ScatterDims.WF S512 S100000x1 S100000 [] [0] [0] 1
  dot_S10000x12_S12x64_S10000x64_1_0_0_1_n_n_wf : DotDims.WF S10000x12 S12x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  scatter_S512x64_S100000x1_S100000x64_1_0_0_1_wf : ScatterDims.WF S512x64 S100000x1 S100000x64 [1] [0] [0] 1
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x12.size a ≤ S100000x12.size a
  hwx0_0 : ∀ i : grid0.Coords, EltTy.bits .f32 = 32 ∨ (Rect.block (s := S100000x12) S10000x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x64.size a ≤ S12x64.size a
  hwx0_1 : ∀ i : grid0.Coords, EltTy.bits .f32 = 32 ∨ (Rect.block (s := S12x64) S12x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S3300000x64.size a
  hwx1_0 : ∀ i : grid1.Coords, EltTy.bits .f32 = 32 ∨ (Rect.block (s := S3300000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S3300000x1.size a
  hwx1_1 : ∀ i : grid1.Coords, EltTy.bits .f32 = 32 ∨ (Rect.block (s := S3300000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S3300000x64.size a
  hwx1_2 : ∀ i : grid1.Coords, EltTy.bits .f32 = 32 ∨ (Rect.block (s := S3300000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S3300000x64.size a
  hwx4_0 : ∀ i : grid4.Coords, EltTy.bits .f32 = 32 ∨ (Rect.block (s := S3300000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S3300000x1.size a
  hwx4_1 : ∀ i : grid4.Coords, EltTy.bits .f32 = 32 ∨ (Rect.block (s := S3300000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S3300000x64.size a
  hwx4_2 : ∀ i : grid4.Coords, EltTy.bits .f32 = 32 ∨ (Rect.block (s := S3300000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S3300000x64.size a
  hwx7_0 : ∀ i : grid7.Coords, EltTy.bits .f32 = 32 ∨ (Rect.block (s := S3300000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S3300000x1.size a
  hwx7_1 : ∀ i : grid7.Coords, EltTy.bits .f32 = 32 ∨ (Rect.block (s := S3300000x1) S5000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S3300000x64.size a
  hwx7_2 : ∀ i : grid7.Coords, EltTy.bits .f32 = 32 ∨ (Rect.block (s := S3300000x64) S5000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x64.size a ≤ S100000x64.size a
  hwx8_2 : ∀ i : grid8.Coords, EltTy.bits .f32 = 32 ∨ (Rect.block (s := S100000x64) S10000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x64.size a ≤ S100000x64.size a
  hwx9_2 : ∀ i : grid9.Coords, EltTy.bits .f32 = 32 ∨ (Rect.block (s := S100000x64) S10000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S3300000x64.size a
  hwx10_0 : ∀ i : grid10.Coords, EltTy.bits .f32 = 32 ∨ (Rect.block (s := S3300000x64) S5000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x1.size a ≤ S3300000x1.size a
  hwx10_1 : ∀ i : grid10.Coords, EltTy.bits .f32 = 32 ∨ (Rect.block (s := S3300000x1) S5000x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x64.size a ≤ S3300000x64.size a
  hwx10_2 : ∀ i : grid10.Coords, EltTy.bits .f32 = 32 ∨ (Rect.block (s := S3300000x64) S5000x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S100000x64.size a
  hwx11_0 : ∀ i : grid11.Coords, EltTy.bits .f32 = 32 ∨ (Rect.block (s := S100000x64) S10000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S10000x64.size a ≤ S100000x64.size a
  hwx11_2 : ∀ i : grid11.Coords, EltTy.bits .f32 = 32 ∨ (Rect.block (s := S100000x64) S10000x64.size (cc11_transform_2 i) (hinb11_2 i)).WholeWords (EltTy.packing .f32)
  hrank12 : 0 < grid12.rank
  hstage12_0 : ∀ j, (stage12_0 j).IsWhole
  nbuf12_0 : grid12.bufCount reads12_0 true = 1
  hreads12_0 : ∀ i i' : grid12.Coords, (∀ a, reads12_0 a = true → i a = i' a) → cc12_transform_0 i = cc12_transform_0 i'
  hinb12_0 : ∀ (i : grid12.Coords) a, (cc12_transform_0 i a + 1) * S512x64.size a ≤ S512x64.size a
  hwx12_0 : ∀ i : grid12.Coords, EltTy.bits .f32 = 32 ∨ (Rect.block (s := S512x64) S512x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S512x1.size a ≤ S512x1.size a
  hwx12_1 : ∀ i : grid12.Coords, EltTy.bits .f32 = 32 ∨ (Rect.block (s := S512x1) S512x1.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S64x1.size a ≤ S64x1.size a
  hwx12_2 : ∀ i : grid12.Coords, EltTy.bits .f32 = 32 ∨ (Rect.block (s := S64x1) S64x1.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x1.size a ≤ S1x1.size a
  hwx12_3 : ∀ i : grid12.Coords, EltTy.bits .f32 = 32 ∨ (Rect.block (s := S1x1) S1x1.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S512x1.size a ≤ S512x1.size a
  hwx12_4 : ∀ i : grid12.Coords, EltTy.bits .f32 = 32 ∨ (Rect.block (s := S512x1) S512x1.size (cc12_transform_4 i) (hinb12_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S10000x12_S12x64_S10000x64_1_0_0_1_n_n : DotDims S10000x12 S12x64 S10000x64 where
  lhsContracting := [1]
  rhsContracting := [0]
  lhsNonContracting := [0]
  rhsNonContracting := [1]
  lhsBatch := []
  rhsBatch := []
  wf := dot_S10000x12_S12x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_arg0) S10000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S12x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v57) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v58) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v61) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v63) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v63) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v64) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v71) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v30) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v72) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v75) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v76) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v77) S10000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v77) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg9) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v78) S10000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v85) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v30) S5000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v86) S5000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v89) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v90) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v91) S10000x64.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v94) S512x64.size cc12_transform_0 reads12_0 false true 1 stage12_0 sem12_0
    hrank12 hreads12_0 hinb12_0 nbuf12_0 (Memref.isWhole_whole _) hwx12_0 hstage12_0

abbrev win12_1 : Pipeline.Window sig grid12 :=
  Pipeline.Window.ofSpec (Memref.whole main_v35) S512x1.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_arg11) S64x1.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v95) S1x1.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v96) S512x1.size cc12_transform_4 reads12_4 true true 1 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

class Facts : Prop extends Facts₀ where

variable [Facts]
-- ==== ReferenceIdeal.lean ====
abbrev S100000x12 : Shape := ⟨2, ![100000, 12]⟩
abbrev S2x3200000 : Shape := ⟨2, ![2, 3200000]⟩
abbrev S100000 : Shape := ⟨1, ![100000]⟩
abbrev S12x64 : Shape := ⟨2, ![12, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S1x1 : Shape := ⟨2, ![1, 1]⟩

abbrev nBuf : Space → Nat
  | .hbm => 188
  | .vmem => 0
  | .smem => 0
  | _ => 0

abbrev hbmTy0_0 (i : Nat) : BufTy := match i % 128 with
  | 0 => ⟨S100000x12, .f32⟩
  | 1 => ⟨S2x3200000, .i32⟩
  | 2 => ⟨S100000, .i32⟩
  | 3 => ⟨S12x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x1, .f32⟩
  | 12 => ⟨S1, .f32⟩
  | 13 => ⟨S100000, .i32⟩
  | 14 => ⟨S1x3200000, .i32⟩
  | 15 => ⟨S3200000, .i32⟩
  | 16 => ⟨S3300000, .i32⟩
  | 17 => ⟨S1x3200000, .i32⟩
  | 18 => ⟨S3200000, .i32⟩
  | 19 => ⟨S3300000, .i32⟩
  | 20 => ⟨S_, .f32⟩
  | 21 => ⟨S3300000, .f32⟩
  | 22 => ⟨S_, .f32⟩
  | 23 => ⟨S100000, .f32⟩
  | 24 => ⟨S3300000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S100000x64, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x64, .f32⟩
  | 63 => ⟨S3300000x1, .f32⟩
  | 64 => ⟨S3300000x64, .f32⟩
  | 65 => ⟨S3300000x64, .f32⟩
  | 66 => ⟨S_, .f32⟩
  | 67 => ⟨S100000x64, .f32⟩
  | 68 => ⟨S3300000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S_, .f32⟩
  | 75 => ⟨S100000x64, .f32⟩
  | 76 => ⟨S100000x64, .i1⟩
  | 77 => ⟨S_, .f32⟩
  | 78 => ⟨S100000x64, .f32⟩
  | 79 => ⟨S100000x64, .f32⟩
  | 80 => ⟨S100000x64, .f32⟩
  | 81 => ⟨S100000x64, .f32⟩
  | 82 => ⟨S_, .i32⟩
  | 83 => ⟨S3300000, .i32⟩
  | 84 => ⟨S3300000, .i1⟩
  | 85 => ⟨S_, .i32⟩
  | 86 => ⟨S3300000, .i32⟩
  | 87 => ⟨S3300000, .i32⟩
  | 88 => ⟨S3300000, .i32⟩
  | 89 => ⟨S3300000x1, .i32⟩
  | 90 => ⟨S3300000x64, .f32⟩
  | 91 => ⟨S3300000x1, .f32⟩
  | 92 => ⟨S3300000x64, .f32⟩
  | 93 => ⟨S3300000x64, .f32⟩
  | 94 => ⟨S_, .f32⟩
  | 95 => ⟨S100000x64, .f32⟩
  | 96 => ⟨S3300000x1, .i32⟩
  | 97 => ⟨S100000x64, .f32⟩
  | 98 => ⟨S1x64, .f32⟩
  | 99 => ⟨S100000x64, .f32⟩
  | 100 => ⟨S100000x64, .f32⟩
  | 101 => ⟨S_, .f32⟩
  | 102 => ⟨S_, .f32⟩
  | 103 => ⟨S100000x64, .f32⟩
  | 104 => ⟨S100000x64, .i1⟩
  | 105 => ⟨S_, .f32⟩
  | 106 => ⟨S100000x64, .f32⟩
  | 107 => ⟨S100000x64, .f32⟩
  | 108 => ⟨S100000x64, .f32⟩
  | 109 => ⟨S100000x64, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x64, .f32⟩
  | 119 => ⟨S3300000x1, .f32⟩
  | 120 => ⟨S3300000x64, .f32⟩
  | 121 => ⟨S3300000x64, .f32⟩
  | 122 => ⟨S_, .f32⟩
  | 123 => ⟨S100000x64, .f32⟩
  | 124 => ⟨S3300000x1, .i32⟩
  | 125 => ⟨S100000x64, .f32⟩
  | 126 => ⟨S1x64, .f32⟩
  | 127 => ⟨S100000x64, .f32⟩
  | _ => ⟨S100000x12, .f32⟩

abbrev hbmTy0_1 (i : Nat) : BufTy := match i % 128 with
  | 0 => ⟨S100000x64, .f32⟩
  | 1 => ⟨S_, .f32⟩
  | 2 => ⟨S_, .f32⟩
  | 3 => ⟨S100000x64, .f32⟩
  | 4 => ⟨S100000x64, .i1⟩
  | 5 => ⟨S_, .f32⟩
  | 6 => ⟨S100000x64, .f32⟩
  | 7 => ⟨S100000x64, .f32⟩
  | 8 => ⟨S100000x64, .f32⟩
  | 9 => ⟨S100000x64, .f32⟩
  | 10 => ⟨S_, .i32⟩
  | 11 => ⟨S3300000, .i32⟩
  | 12 => ⟨S3300000, .i1⟩
  | 13 => ⟨S_, .i32⟩
  | 14 => ⟨S3300000, .i32⟩
  | 15 => ⟨S3300000, .i32⟩
  | 16 => ⟨S3300000, .i32⟩
  | 17 => ⟨S3300000x1, .i32⟩
  | 18 => ⟨S3300000x64, .f32⟩
  | 19 => ⟨S3300000x1, .f32⟩
  | 20 => ⟨S3300000x64, .f32⟩
  | 21 => ⟨S3300000x64, .f32⟩
  | 22 => ⟨S_, .f32⟩
  | 23 => ⟨S100000x64, .f32⟩
  | 24 => ⟨S3300000x1, .i32⟩
  | 25 => ⟨S100000x64, .f32⟩
  | 26 => ⟨S1x64, .f32⟩
  | 27 => ⟨S100000x64, .f32⟩
  | 28 => ⟨S100000x64, .f32⟩
  | 29 => ⟨S_, .f32⟩
  | 30 => ⟨S100000x64, .f32⟩
  | 31 => ⟨S100000x64, .f32⟩
  | 32 => ⟨S_, .f32⟩
  | 33 => ⟨S512x64, .f32⟩
  | 34 => ⟨S100000x1, .i32⟩
  | 35 => ⟨S512x64, .f32⟩
  | 36 => ⟨S_, .f32⟩
  | 37 => ⟨S100000, .f32⟩
  | 38 => ⟨S_, .f32⟩
  | 39 => ⟨S512, .f32⟩
  | 40 => ⟨S100000x1, .i32⟩
  | 41 => ⟨S512, .f32⟩
  | 42 => ⟨S_, .f32⟩
  | 43 => ⟨S512, .f32⟩
  | 44 => ⟨S512, .f32⟩
  | 45 => ⟨S512x1, .f32⟩
  | 46 => ⟨S512x64, .f32⟩
  | 47 => ⟨S512x64, .f32⟩
  | 48 => ⟨S512x1, .f32⟩
  | 49 => ⟨S1x1, .f32⟩
  | 50 => ⟨S512x1, .f32⟩
  | 51 => ⟨S512x1, .f32⟩
  | 52 => ⟨S512x1, .f32⟩
  | 53 => ⟨S512x1, .f32⟩
  | 54 => ⟨S_, .f32⟩
  | 55 => ⟨S512x1, .f32⟩
  | 56 => ⟨S512x1, .f32⟩
  | 57 => ⟨S_, .f32⟩
  | 58 => ⟨S512x1, .f32⟩
  | 59 => ⟨S512x1, .f32⟩
  | _ => ⟨S100000x12, .f32⟩

abbrev hbmTy (i : Nat) : BufTy := match i / 128 with
  | 0 => hbmTy0_0 i
  | 1 => hbmTy0_1 i
  | _ => ⟨S100000x12, .f32⟩

abbrev bufTy : (tb : Table) → Fin (tcTables nBuf tb) → BufTy
  | .hbm, ⟨i, _⟩ => hbmTy i
  | _, _ => ⟨S100000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_9 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_v47 : Ref sig .tc := ⟨.hbm, 80, rfl⟩
abbrev main_v48 : Ref sig .tc := ⟨.hbm, 81, rfl⟩
abbrev main_c_10 : Ref sig .tc := ⟨.hbm, 82, rfl⟩
abbrev main_v49 : Ref sig .tc := ⟨.hbm, 83, rfl⟩
abbrev main_v50 : Ref sig .tc := ⟨.hbm, 84, rfl⟩
abbrev main_c_11 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_12 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_13 : Ref sig .tc := ⟨.hbm, 101, rfl⟩
abbrev main_call2_cst : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_v65 : Ref sig .tc := ⟨.hbm, 108, rfl⟩
abbrev main_v66 : Ref sig .tc := ⟨.hbm, 109, rfl⟩
abbrev main_c_14 : Ref sig .tc := ⟨.hbm, 110, rfl⟩
abbrev main_v67 : Ref sig .tc := ⟨.hbm, 111, rfl⟩
abbrev main_v68 : Ref sig .tc := ⟨.hbm, 112, rfl⟩
abbrev main_c_15 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_16 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_17 : Ref sig .tc := ⟨.hbm, 129, rfl⟩
abbrev main_call3_cst : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_v83 : Ref sig .tc := ⟨.hbm, 136, rfl⟩
abbrev main_v84 : Ref sig .tc := ⟨.hbm, 137, rfl⟩
abbrev main_c_18 : Ref sig .tc := ⟨.hbm, 138, rfl⟩
abbrev main_v85 : Ref sig .tc := ⟨.hbm, 139, rfl⟩
abbrev main_v86 : Ref sig .tc := ⟨.hbm, 140, rfl⟩
abbrev main_c_19 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_20 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_call4_cst : Ref sig .tc := ⟨.hbm, 157, rfl⟩
abbrev main_call4_v0 : Ref sig .tc := ⟨.hbm, 158, rfl⟩
abbrev main_v101 : Ref sig .tc := ⟨.hbm, 159, rfl⟩
abbrev main_cst_21 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_cst_22 : Ref sig .tc := ⟨.hbm, 164, rfl⟩
abbrev main_v105 : Ref sig .tc := ⟨.hbm, 165, rfl⟩
abbrev main_cst_23 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_cst_24 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_cst_25 : Ref sig .tc := ⟨.hbm, 182, rfl⟩
abbrev main_v120 : Ref sig .tc := ⟨.hbm, 183, rfl⟩
abbrev main_v121 : Ref sig .tc := ⟨.hbm, 184, rfl⟩
abbrev main_cst_26 : Ref sig .tc := ⟨.hbm, 185, rfl⟩
abbrev main_v122 : Ref sig .tc := ⟨.hbm, 186, rfl⟩
abbrev main_v123 : Ref sig .tc := ⟨.hbm, 187, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x12_S12x64_S100000x64_1_0_0_1_n_n_wf : DotDims.WF S100000x12 S12x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x1_S512x1_1_0_0_1_n_n_wf : DotDims.WF S512x64 S64x1 S512x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x12_S12x64_S100000x64_1_0_0_1_n_n : DotDims S100000x12 S12x64 S100000x64 where
  lhsContracting := [1]
  rhsContracting := [0]
  lhsNonContracting := [0]
  rhsNonContracting := [1]
  lhsBatch := []
  rhsBatch := []
  wf := dot_S100000x12_S12x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.KRun.lean ====
/-
  The idealized kernel program's run with its result array named.  @main is thirteen kernel regions among stretches of
  host operations; the contents of every unscoped buffer at each boundary form a fold from the launch memory, and the
  last boundary's contents are what any final state holds.  Here that fact is stated for the result array as well as
  for the thirteen argument arrays: after every weakly fair execution the result array holds the last boundary's
  contents at its reference, and the arguments are as launched.
-/
import proofs.«143214_j32667521254002_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array then holds the contents of the
    last segment boundary at its reference, and every argument array what it held at launch. -/
theorem run_named : θ_run defs (onTc (τ := τ) (main (F := F))) ⟨m, fun _ => 0, ρ⟩ (fun r => ∀ c : Dev nD,
      r.2.mem ((c.tc : Thread nD τ).loc main_v96) = W25 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v96 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c),
       (h c _ (mem_uc main_arg9 (by decide))).trans (W25_main_arg9 m ρ c),
       (h c _ (mem_uc main_arg10 (by decide))).trans (W25_main_arg10 m ρ c),
       (h c _ (mem_uc main_arg11 (by decide))).trans (W25_main_arg11 m ρ c),
       (h c _ (mem_uc main_arg12 (by decide))).trans (W25_main_arg12 m ρ c)⟩)

end Cert.KernelIdeal.KRun

end
-- ==== Proof.KCarry.lean ====
/-
  Buffers that a stretch of the program leaves alone.  Between the kernel regions the host operations write only
  their own results, and a region writes only its output array; so the index vectors, the normalisation column, the
  per-graph counts and the weight and bias arguments hold, at the boundary where they are read, what they held where
  they were produced (for an argument: at launch).  Each statement walks the boundaries back one segment at a time:
  through a host stretch because none of its operations writes the buffer, through a region because the buffer is
  not one of its arrays — or is one of its INPUT arrays, which the region's write-backs leave as entered.
-/
import proofs.«143214_j32667521254002_2_alg».proof.Proof.Gen.KernelIdeal.Frame
import Idealize.ShloMosaic.PureOps.Ideal

set_option maxRecDepth 16384

noncomputable section

namespace Cert.KernelIdeal.KFold

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-- No operation of the stretch writes the buffer, so the stretch leaves it as it was. -/
macro "host_keep " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem keep_main_arg0_3_0 : W3 m ρ c (Proc.devRef .tc main_arg0) = W0 m ρ c (Proc.devRef .tc main_arg0) :=
  calc W3 m ρ c (Proc.devRef .tc main_arg0)
    _ = W2 m ρ c (Proc.devRef .tc main_arg0) := by host_keep hostOps0_2
    _ = W1 m ρ c (Proc.devRef .tc main_arg0) := by host_keep hostOps0_1
    _ = W0 m ρ c (Proc.devRef .tc main_arg0) := by host_keep hostOps0

theorem keep_main_arg3_3_0 : W3 m ρ c (Proc.devRef .tc main_arg3) = W0 m ρ c (Proc.devRef .tc main_arg3) :=
  calc W3 m ρ c (Proc.devRef .tc main_arg3)
    _ = W2 m ρ c (Proc.devRef .tc main_arg3) := by host_keep hostOps0_2
    _ = W1 m ρ c (Proc.devRef .tc main_arg3) := by host_keep hostOps0_1
    _ = W0 m ρ c (Proc.devRef .tc main_arg3) := by host_keep hostOps0

theorem keep_main_v5_4_3 : W4 m ρ c (Proc.devRef .tc main_v5) = W3 m ρ c (Proc.devRef .tc main_v5) :=
  calc W4 m ρ c (Proc.devRef .tc main_v5)
    _ = W3 m ρ c (Proc.devRef .tc main_v5) := W4_of_ne m ρ c main_v5 (by decide)

theorem keep_main_v30_5_3 : W5 m ρ c (Proc.devRef .tc main_v30) = W3 m ρ c (Proc.devRef .tc main_v30) :=
  calc W5 m ρ c (Proc.devRef .tc main_v30)
    _ = W4 m ρ c (Proc.devRef .tc main_v30) := by host_keep hostOps1
    _ = W3 m ρ c (Proc.devRef .tc main_v30) := W4_of_ne m ρ c main_v30 (by decide)

theorem keep_main_v6_6_3 : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by host_keep hostOps1
    _ = W3 m ρ c (Proc.devRef .tc main_v6) := W4_of_ne m ρ c main_v6 (by decide)

theorem keep_main_arg4_6_0 : W6 m ρ c (Proc.devRef .tc main_arg4) = W0 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_keep hostOps1
    _ = W3 m ρ c (Proc.devRef .tc main_arg4) := W4_of_ne m ρ c main_arg4 (by decide)
    _ = W2 m ρ c (Proc.devRef .tc main_arg4) := by host_keep hostOps0_2
    _ = W1 m ρ c (Proc.devRef .tc main_arg4) := by host_keep hostOps0_1
    _ = W0 m ρ c (Proc.devRef .tc main_arg4) := by host_keep hostOps0

theorem keep_main_arg5_8_0 : W8 m ρ c (Proc.devRef .tc main_arg5) = W0 m ρ c (Proc.devRef .tc main_arg5) :=
  calc W8 m ρ c (Proc.devRef .tc main_arg5)
    _ = W7 m ρ c (Proc.devRef .tc main_arg5) := W8_of_ne m ρ c main_arg5 (by decide)
    _ = W6 m ρ c (Proc.devRef .tc main_arg5) := by host_keep hostOps2
    _ = W5 m ρ c (Proc.devRef .tc main_arg5) := W6_of_ne m ρ c main_arg5 (by decide)
    _ = W4 m ρ c (Proc.devRef .tc main_arg5) := by host_keep hostOps1
    _ = W3 m ρ c (Proc.devRef .tc main_arg5) := W4_of_ne m ρ c main_arg5 (by decide)
    _ = W2 m ρ c (Proc.devRef .tc main_arg5) := by host_keep hostOps0_2
    _ = W1 m ρ c (Proc.devRef .tc main_arg5) := by host_keep hostOps0_1
    _ = W0 m ρ c (Proc.devRef .tc main_arg5) := by host_keep hostOps0

theorem keep_main_v5_9_4 : W9 m ρ c (Proc.devRef .tc main_v5) = W4 m ρ c (Proc.devRef .tc main_v5) :=
  calc W9 m ρ c (Proc.devRef .tc main_v5)
    _ = W8 m ρ c (Proc.devRef .tc main_v5) := W9_of_ne m ρ c main_v5 (by decide)
    _ = W7 m ρ c (Proc.devRef .tc main_v5) := W8_of_ne m ρ c main_v5 (by decide)
    _ = W6 m ρ c (Proc.devRef .tc main_v5) := by host_keep hostOps2
    _ = W5 m ρ c (Proc.devRef .tc main_v5) := W6_of_ne m ρ c main_v5 (by decide)
    _ = W4 m ρ c (Proc.devRef .tc main_v5) := by host_keep hostOps1

theorem keep_main_v30_10_5 : W10 m ρ c (Proc.devRef .tc main_v30) = W5 m ρ c (Proc.devRef .tc main_v30) :=
  calc W10 m ρ c (Proc.devRef .tc main_v30)
    _ = W9 m ρ c (Proc.devRef .tc main_v30) := by host_keep hostOps4
    _ = W8 m ρ c (Proc.devRef .tc main_v30) := W9_of_ne m ρ c main_v30 (by decide)
    _ = W7 m ρ c (Proc.devRef .tc main_v30) := W8_of_ne m ρ c main_v30 (by decide)
    _ = W6 m ρ c (Proc.devRef .tc main_v30) := by host_keep hostOps2
    _ = W5 m ρ c (Proc.devRef .tc main_v30) := (W6_arr m ρ c 1).trans (((dat1 (V5 m ρ) c).arrAt_in 1 rfl _).trans (A_eq1 (V5 m ρ) c 1))

theorem keep_main_v6_11_6 : W11 m ρ c (Proc.devRef .tc main_v6) = W6 m ρ c (Proc.devRef .tc main_v6) :=
  calc W11 m ρ c (Proc.devRef .tc main_v6)
    _ = W10 m ρ c (Proc.devRef .tc main_v6) := W11_of_ne m ρ c main_v6 (by decide)
    _ = W9 m ρ c (Proc.devRef .tc main_v6) := by host_keep hostOps4
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := by host_keep hostOps2

theorem keep_main_arg6_11_0 : W11 m ρ c (Proc.devRef .tc main_arg6) = W0 m ρ c (Proc.devRef .tc main_arg6) :=
  calc W11 m ρ c (Proc.devRef .tc main_arg6)
    _ = W10 m ρ c (Proc.devRef .tc main_arg6) := W11_of_ne m ρ c main_arg6 (by decide)
    _ = W9 m ρ c (Proc.devRef .tc main_arg6) := by host_keep hostOps4
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := by host_keep hostOps2
    _ = W5 m ρ c (Proc.devRef .tc main_arg6) := W6_of_ne m ρ c main_arg6 (by decide)
    _ = W4 m ρ c (Proc.devRef .tc main_arg6) := by host_keep hostOps1
    _ = W3 m ρ c (Proc.devRef .tc main_arg6) := W4_of_ne m ρ c main_arg6 (by decide)
    _ = W2 m ρ c (Proc.devRef .tc main_arg6) := by host_keep hostOps0_2
    _ = W1 m ρ c (Proc.devRef .tc main_arg6) := by host_keep hostOps0_1
    _ = W0 m ρ c (Proc.devRef .tc main_arg6) := by host_keep hostOps0

theorem keep_main_arg7_13_0 : W13 m ρ c (Proc.devRef .tc main_arg7) = W0 m ρ c (Proc.devRef .tc main_arg7) :=
  calc W13 m ρ c (Proc.devRef .tc main_arg7)
    _ = W12 m ρ c (Proc.devRef .tc main_arg7) := W13_of_ne m ρ c main_arg7 (by decide)
    _ = W11 m ρ c (Proc.devRef .tc main_arg7) := by host_keep hostOps5
    _ = W10 m ρ c (Proc.devRef .tc main_arg7) := W11_of_ne m ρ c main_arg7 (by decide)
    _ = W9 m ρ c (Proc.devRef .tc main_arg7) := by host_keep hostOps4
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := by host_keep hostOps2
    _ = W5 m ρ c (Proc.devRef .tc main_arg7) := W6_of_ne m ρ c main_arg7 (by decide)
    _ = W4 m ρ c (Proc.devRef .tc main_arg7) := by host_keep hostOps1
    _ = W3 m ρ c (Proc.devRef .tc main_arg7) := W4_of_ne m ρ c main_arg7 (by decide)
    _ = W2 m ρ c (Proc.devRef .tc main_arg7) := by host_keep hostOps0_2
    _ = W1 m ρ c (Proc.devRef .tc main_arg7) := by host_keep hostOps0_1
    _ = W0 m ρ c (Proc.devRef .tc main_arg7) := by host_keep hostOps0

theorem keep_main_v5_14_9 : W14 m ρ c (Proc.devRef .tc main_v5) = W9 m ρ c (Proc.devRef .tc main_v5) :=
  calc W14 m ρ c (Proc.devRef .tc main_v5)
    _ = W13 m ρ c (Proc.devRef .tc main_v5) := W14_of_ne m ρ c main_v5 (by decide)
    _ = W12 m ρ c (Proc.devRef .tc main_v5) := W13_of_ne m ρ c main_v5 (by decide)
    _ = W11 m ρ c (Proc.devRef .tc main_v5) := by host_keep hostOps5
    _ = W10 m ρ c (Proc.devRef .tc main_v5) := W11_of_ne m ρ c main_v5 (by decide)
    _ = W9 m ρ c (Proc.devRef .tc main_v5) := by host_keep hostOps4

theorem keep_main_v30_15_10 : W15 m ρ c (Proc.devRef .tc main_v30) = W10 m ρ c (Proc.devRef .tc main_v30) :=
  calc W15 m ρ c (Proc.devRef .tc main_v30)
    _ = W14 m ρ c (Proc.devRef .tc main_v30) := by host_keep hostOps7
    _ = W13 m ρ c (Proc.devRef .tc main_v30) := W14_of_ne m ρ c main_v30 (by decide)
    _ = W12 m ρ c (Proc.devRef .tc main_v30) := W13_of_ne m ρ c main_v30 (by decide)
    _ = W11 m ρ c (Proc.devRef .tc main_v30) := by host_keep hostOps5
    _ = W10 m ρ c (Proc.devRef .tc main_v30) := (W11_arr m ρ c 1).trans (((dat4 (V10 m ρ) c).arrAt_in 1 rfl _).trans (A_eq4 (V10 m ρ) c 1))

theorem keep_main_v6_16_11 : W16 m ρ c (Proc.devRef .tc main_v6) = W11 m ρ c (Proc.devRef .tc main_v6) :=
  calc W16 m ρ c (Proc.devRef .tc main_v6)
    _ = W15 m ρ c (Proc.devRef .tc main_v6) := W16_of_ne m ρ c main_v6 (by decide)
    _ = W14 m ρ c (Proc.devRef .tc main_v6) := by host_keep hostOps7
    _ = W13 m ρ c (Proc.devRef .tc main_v6) := W14_of_ne m ρ c main_v6 (by decide)
    _ = W12 m ρ c (Proc.devRef .tc main_v6) := W13_of_ne m ρ c main_v6 (by decide)
    _ = W11 m ρ c (Proc.devRef .tc main_v6) := by host_keep hostOps5

theorem keep_main_arg8_16_0 : W16 m ρ c (Proc.devRef .tc main_arg8) = W0 m ρ c (Proc.devRef .tc main_arg8) :=
  calc W16 m ρ c (Proc.devRef .tc main_arg8)
    _ = W15 m ρ c (Proc.devRef .tc main_arg8) := W16_of_ne m ρ c main_arg8 (by decide)
    _ = W14 m ρ c (Proc.devRef .tc main_arg8) := by host_keep hostOps7
    _ = W13 m ρ c (Proc.devRef .tc main_arg8) := W14_of_ne m ρ c main_arg8 (by decide)
    _ = W12 m ρ c (Proc.devRef .tc main_arg8) := W13_of_ne m ρ c main_arg8 (by decide)
    _ = W11 m ρ c (Proc.devRef .tc main_arg8) := by host_keep hostOps5
    _ = W10 m ρ c (Proc.devRef .tc main_arg8) := W11_of_ne m ρ c main_arg8 (by decide)
    _ = W9 m ρ c (Proc.devRef .tc main_arg8) := by host_keep hostOps4
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := by host_keep hostOps2
    _ = W5 m ρ c (Proc.devRef .tc main_arg8) := W6_of_ne m ρ c main_arg8 (by decide)
    _ = W4 m ρ c (Proc.devRef .tc main_arg8) := by host_keep hostOps1
    _ = W3 m ρ c (Proc.devRef .tc main_arg8) := W4_of_ne m ρ c main_arg8 (by decide)
    _ = W2 m ρ c (Proc.devRef .tc main_arg8) := by host_keep hostOps0_2
    _ = W1 m ρ c (Proc.devRef .tc main_arg8) := by host_keep hostOps0_1
    _ = W0 m ρ c (Proc.devRef .tc main_arg8) := by host_keep hostOps0

theorem keep_main_arg9_18_0 : W18 m ρ c (Proc.devRef .tc main_arg9) = W0 m ρ c (Proc.devRef .tc main_arg9) :=
  calc W18 m ρ c (Proc.devRef .tc main_arg9)
    _ = W17 m ρ c (Proc.devRef .tc main_arg9) := W18_of_ne m ρ c main_arg9 (by decide)
    _ = W16 m ρ c (Proc.devRef .tc main_arg9) := by host_keep hostOps8
    _ = W15 m ρ c (Proc.devRef .tc main_arg9) := W16_of_ne m ρ c main_arg9 (by decide)
    _ = W14 m ρ c (Proc.devRef .tc main_arg9) := by host_keep hostOps7
    _ = W13 m ρ c (Proc.devRef .tc main_arg9) := W14_of_ne m ρ c main_arg9 (by decide)
    _ = W12 m ρ c (Proc.devRef .tc main_arg9) := W13_of_ne m ρ c main_arg9 (by decide)
    _ = W11 m ρ c (Proc.devRef .tc main_arg9) := by host_keep hostOps5
    _ = W10 m ρ c (Proc.devRef .tc main_arg9) := W11_of_ne m ρ c main_arg9 (by decide)
    _ = W9 m ρ c (Proc.devRef .tc main_arg9) := by host_keep hostOps4
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := by host_keep hostOps2
    _ = W5 m ρ c (Proc.devRef .tc main_arg9) := W6_of_ne m ρ c main_arg9 (by decide)
    _ = W4 m ρ c (Proc.devRef .tc main_arg9) := by host_keep hostOps1
    _ = W3 m ρ c (Proc.devRef .tc main_arg9) := W4_of_ne m ρ c main_arg9 (by decide)
    _ = W2 m ρ c (Proc.devRef .tc main_arg9) := by host_keep hostOps0_2
    _ = W1 m ρ c (Proc.devRef .tc main_arg9) := by host_keep hostOps0_1
    _ = W0 m ρ c (Proc.devRef .tc main_arg9) := by host_keep hostOps0

theorem keep_main_v5_19_14 : W19 m ρ c (Proc.devRef .tc main_v5) = W14 m ρ c (Proc.devRef .tc main_v5) :=
  calc W19 m ρ c (Proc.devRef .tc main_v5)
    _ = W18 m ρ c (Proc.devRef .tc main_v5) := W19_of_ne m ρ c main_v5 (by decide)
    _ = W17 m ρ c (Proc.devRef .tc main_v5) := W18_of_ne m ρ c main_v5 (by decide)
    _ = W16 m ρ c (Proc.devRef .tc main_v5) := by host_keep hostOps8
    _ = W15 m ρ c (Proc.devRef .tc main_v5) := W16_of_ne m ρ c main_v5 (by decide)
    _ = W14 m ρ c (Proc.devRef .tc main_v5) := by host_keep hostOps7

theorem keep_main_v30_20_15 : W20 m ρ c (Proc.devRef .tc main_v30) = W15 m ρ c (Proc.devRef .tc main_v30) :=
  calc W20 m ρ c (Proc.devRef .tc main_v30)
    _ = W19 m ρ c (Proc.devRef .tc main_v30) := by host_keep hostOps10
    _ = W18 m ρ c (Proc.devRef .tc main_v30) := W19_of_ne m ρ c main_v30 (by decide)
    _ = W17 m ρ c (Proc.devRef .tc main_v30) := W18_of_ne m ρ c main_v30 (by decide)
    _ = W16 m ρ c (Proc.devRef .tc main_v30) := by host_keep hostOps8
    _ = W15 m ρ c (Proc.devRef .tc main_v30) := (W16_arr m ρ c 1).trans (((dat7 (V15 m ρ) c).arrAt_in 1 rfl _).trans (A_eq7 (V15 m ρ) c 1))

theorem keep_main_v6_21_16 : W21 m ρ c (Proc.devRef .tc main_v6) = W16 m ρ c (Proc.devRef .tc main_v6) :=
  calc W21 m ρ c (Proc.devRef .tc main_v6)
    _ = W20 m ρ c (Proc.devRef .tc main_v6) := W21_of_ne m ρ c main_v6 (by decide)
    _ = W19 m ρ c (Proc.devRef .tc main_v6) := by host_keep hostOps10
    _ = W18 m ρ c (Proc.devRef .tc main_v6) := W19_of_ne m ρ c main_v6 (by decide)
    _ = W17 m ρ c (Proc.devRef .tc main_v6) := W18_of_ne m ρ c main_v6 (by decide)
    _ = W16 m ρ c (Proc.devRef .tc main_v6) := by host_keep hostOps8

theorem keep_main_arg10_21_0 : W21 m ρ c (Proc.devRef .tc main_arg10) = W0 m ρ c (Proc.devRef .tc main_arg10) :=
  calc W21 m ρ c (Proc.devRef .tc main_arg10)
    _ = W20 m ρ c (Proc.devRef .tc main_arg10) := W21_of_ne m ρ c main_arg10 (by decide)
    _ = W19 m ρ c (Proc.devRef .tc main_arg10) := by host_keep hostOps10
    _ = W18 m ρ c (Proc.devRef .tc main_arg10) := W19_of_ne m ρ c main_arg10 (by decide)
    _ = W17 m ρ c (Proc.devRef .tc main_arg10) := W18_of_ne m ρ c main_arg10 (by decide)
    _ = W16 m ρ c (Proc.devRef .tc main_arg10) := by host_keep hostOps8
    _ = W15 m ρ c (Proc.devRef .tc main_arg10) := W16_of_ne m ρ c main_arg10 (by decide)
    _ = W14 m ρ c (Proc.devRef .tc main_arg10) := by host_keep hostOps7
    _ = W13 m ρ c (Proc.devRef .tc main_arg10) := W14_of_ne m ρ c main_arg10 (by decide)
    _ = W12 m ρ c (Proc.devRef .tc main_arg10) := W13_of_ne m ρ c main_arg10 (by decide)
    _ = W11 m ρ c (Proc.devRef .tc main_arg10) := by host_keep hostOps5
    _ = W10 m ρ c (Proc.devRef .tc main_arg10) := W11_of_ne m ρ c main_arg10 (by decide)
    _ = W9 m ρ c (Proc.devRef .tc main_arg10) := by host_keep hostOps4
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := by host_keep hostOps2
    _ = W5 m ρ c (Proc.devRef .tc main_arg10) := W6_of_ne m ρ c main_arg10 (by decide)
    _ = W4 m ρ c (Proc.devRef .tc main_arg10) := by host_keep hostOps1
    _ = W3 m ρ c (Proc.devRef .tc main_arg10) := W4_of_ne m ρ c main_arg10 (by decide)
    _ = W2 m ρ c (Proc.devRef .tc main_arg10) := by host_keep hostOps0_2
    _ = W1 m ρ c (Proc.devRef .tc main_arg10) := by host_keep hostOps0_1
    _ = W0 m ρ c (Proc.devRef .tc main_arg10) := by host_keep hostOps0

theorem keep_main_arg2_23_0 : W23 m ρ c (Proc.devRef .tc main_arg2) = W0 m ρ c (Proc.devRef .tc main_arg2) :=
  calc W23 m ρ c (Proc.devRef .tc main_arg2)
    _ = W22 m ρ c (Proc.devRef .tc main_arg2) := W23_of_ne m ρ c main_arg2 (by decide)
    _ = W21 m ρ c (Proc.devRef .tc main_arg2) := by host_keep hostOps11
    _ = W20 m ρ c (Proc.devRef .tc main_arg2) := W21_of_ne m ρ c main_arg2 (by decide)
    _ = W19 m ρ c (Proc.devRef .tc main_arg2) := by host_keep hostOps10
    _ = W18 m ρ c (Proc.devRef .tc main_arg2) := W19_of_ne m ρ c main_arg2 (by decide)
    _ = W17 m ρ c (Proc.devRef .tc main_arg2) := W18_of_ne m ρ c main_arg2 (by decide)
    _ = W16 m ρ c (Proc.devRef .tc main_arg2) := by host_keep hostOps8
    _ = W15 m ρ c (Proc.devRef .tc main_arg2) := W16_of_ne m ρ c main_arg2 (by decide)
    _ = W14 m ρ c (Proc.devRef .tc main_arg2) := by host_keep hostOps7
    _ = W13 m ρ c (Proc.devRef .tc main_arg2) := W14_of_ne m ρ c main_arg2 (by decide)
    _ = W12 m ρ c (Proc.devRef .tc main_arg2) := W13_of_ne m ρ c main_arg2 (by decide)
    _ = W11 m ρ c (Proc.devRef .tc main_arg2) := by host_keep hostOps5
    _ = W10 m ρ c (Proc.devRef .tc main_arg2) := W11_of_ne m ρ c main_arg2 (by decide)
    _ = W9 m ρ c (Proc.devRef .tc main_arg2) := by host_keep hostOps4
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := by host_keep hostOps2
    _ = W5 m ρ c (Proc.devRef .tc main_arg2) := W6_of_ne m ρ c main_arg2 (by decide)
    _ = W4 m ρ c (Proc.devRef .tc main_arg2) := by host_keep hostOps1
    _ = W3 m ρ c (Proc.devRef .tc main_arg2) := W4_of_ne m ρ c main_arg2 (by decide)
    _ = W2 m ρ c (Proc.devRef .tc main_arg2) := by host_keep hostOps0_2
    _ = W1 m ρ c (Proc.devRef .tc main_arg2) := by host_keep hostOps0_1
    _ = W0 m ρ c (Proc.devRef .tc main_arg2) := by host_keep hostOps0

theorem keep_main_arg12_23_0 : W23 m ρ c (Proc.devRef .tc main_arg12) = W0 m ρ c (Proc.devRef .tc main_arg12) :=
  calc W23 m ρ c (Proc.devRef .tc main_arg12)
    _ = W22 m ρ c (Proc.devRef .tc main_arg12) := W23_of_ne m ρ c main_arg12 (by decide)
    _ = W21 m ρ c (Proc.devRef .tc main_arg12) := by host_keep hostOps11
    _ = W20 m ρ c (Proc.devRef .tc main_arg12) := W21_of_ne m ρ c main_arg12 (by decide)
    _ = W19 m ρ c (Proc.devRef .tc main_arg12) := by host_keep hostOps10
    _ = W18 m ρ c (Proc.devRef .tc main_arg12) := W19_of_ne m ρ c main_arg12 (by decide)
    _ = W17 m ρ c (Proc.devRef .tc main_arg12) := W18_of_ne m ρ c main_arg12 (by decide)
    _ = W16 m ρ c (Proc.devRef .tc main_arg12) := by host_keep hostOps8
    _ = W15 m ρ c (Proc.devRef .tc main_arg12) := W16_of_ne m ρ c main_arg12 (by decide)
    _ = W14 m ρ c (Proc.devRef .tc main_arg12) := by host_keep hostOps7
    _ = W13 m ρ c (Proc.devRef .tc main_arg12) := W14_of_ne m ρ c main_arg12 (by decide)
    _ = W12 m ρ c (Proc.devRef .tc main_arg12) := W13_of_ne m ρ c main_arg12 (by decide)
    _ = W11 m ρ c (Proc.devRef .tc main_arg12) := by host_keep hostOps5
    _ = W10 m ρ c (Proc.devRef .tc main_arg12) := W11_of_ne m ρ c main_arg12 (by decide)
    _ = W9 m ρ c (Proc.devRef .tc main_arg12) := by host_keep hostOps4
    _ = W8 m ρ c (Proc.devRef .tc main_arg12) := W9_of_ne m ρ c main_arg12 (by decide)
    _ = W7 m ρ c (Proc.devRef .tc main_arg12) := W8_of_ne m ρ c main_arg12 (by decide)
    _ = W6 m ρ c (Proc.devRef .tc main_arg12) := by host_keep hostOps2
    _ = W5 m ρ c (Proc.devRef .tc main_arg12) := W6_of_ne m ρ c main_arg12 (by decide)
    _ = W4 m ρ c (Proc.devRef .tc main_arg12) := by host_keep hostOps1
    _ = W3 m ρ c (Proc.devRef .tc main_arg12) := W4_of_ne m ρ c main_arg12 (by decide)
    _ = W2 m ρ c (Proc.devRef .tc main_arg12) := by host_keep hostOps0_2
    _ = W1 m ρ c (Proc.devRef .tc main_arg12) := by host_keep hostOps0_1
    _ = W0 m ρ c (Proc.devRef .tc main_arg12) := by host_keep hostOps0

theorem keep_main_v35_24_3 : W24 m ρ c (Proc.devRef .tc main_v35) = W3 m ρ c (Proc.devRef .tc main_v35) :=
  calc W24 m ρ c (Proc.devRef .tc main_v35)
    _ = W23 m ρ c (Proc.devRef .tc main_v35) := by host_keep hostOps12
    _ = W22 m ρ c (Proc.devRef .tc main_v35) := W23_of_ne m ρ c main_v35 (by decide)
    _ = W21 m ρ c (Proc.devRef .tc main_v35) := by host_keep hostOps11
    _ = W20 m ρ c (Proc.devRef .tc main_v35) := W21_of_ne m ρ c main_v35 (by decide)
    _ = W19 m ρ c (Proc.devRef .tc main_v35) := by host_keep hostOps10
    _ = W18 m ρ c (Proc.devRef .tc main_v35) := W19_of_ne m ρ c main_v35 (by decide)
    _ = W17 m ρ c (Proc.devRef .tc main_v35) := W18_of_ne m ρ c main_v35 (by decide)
    _ = W16 m ρ c (Proc.devRef .tc main_v35) := by host_keep hostOps8
    _ = W15 m ρ c (Proc.devRef .tc main_v35) := W16_of_ne m ρ c main_v35 (by decide)
    _ = W14 m ρ c (Proc.devRef .tc main_v35) := by host_keep hostOps7
    _ = W13 m ρ c (Proc.devRef .tc main_v35) := W14_of_ne m ρ c main_v35 (by decide)
    _ = W12 m ρ c (Proc.devRef .tc main_v35) := W13_of_ne m ρ c main_v35 (by decide)
    _ = W11 m ρ c (Proc.devRef .tc main_v35) := by host_keep hostOps5
    _ = W10 m ρ c (Proc.devRef .tc main_v35) := W11_of_ne m ρ c main_v35 (by decide)
    _ = W9 m ρ c (Proc.devRef .tc main_v35) := by host_keep hostOps4
    _ = W8 m ρ c (Proc.devRef .tc main_v35) := W9_of_ne m ρ c main_v35 (by decide)
    _ = W7 m ρ c (Proc.devRef .tc main_v35) := W8_of_ne m ρ c main_v35 (by decide)
    _ = W6 m ρ c (Proc.devRef .tc main_v35) := by host_keep hostOps2
    _ = W5 m ρ c (Proc.devRef .tc main_v35) := W6_of_ne m ρ c main_v35 (by decide)
    _ = W4 m ρ c (Proc.devRef .tc main_v35) := by host_keep hostOps1
    _ = W3 m ρ c (Proc.devRef .tc main_v35) := W4_of_ne m ρ c main_v35 (by decide)

theorem keep_main_arg11_24_0 : W24 m ρ c (Proc.devRef .tc main_arg11) = W0 m ρ c (Proc.devRef .tc main_arg11) :=
  calc W24 m ρ c (Proc.devRef .tc main_arg11)
    _ = W23 m ρ c (Proc.devRef .tc main_arg11) := by host_keep hostOps12
    _ = W22 m ρ c (Proc.devRef .tc main_arg11) := W23_of_ne m ρ c main_arg11 (by decide)
    _ = W21 m ρ c (Proc.devRef .tc main_arg11) := by host_keep hostOps11
    _ = W20 m ρ c (Proc.devRef .tc main_arg11) := W21_of_ne m ρ c main_arg11 (by decide)
    _ = W19 m ρ c (Proc.devRef .tc main_arg11) := by host_keep hostOps10
    _ = W18 m ρ c (Proc.devRef .tc main_arg11) := W19_of_ne m ρ c main_arg11 (by decide)
    _ = W17 m ρ c (Proc.devRef .tc main_arg11) := W18_of_ne m ρ c main_arg11 (by decide)
    _ = W16 m ρ c (Proc.devRef .tc main_arg11) := by host_keep hostOps8
    _ = W15 m ρ c (Proc.devRef .tc main_arg11) := W16_of_ne m ρ c main_arg11 (by decide)
    _ = W14 m ρ c (Proc.devRef .tc main_arg11) := by host_keep hostOps7
    _ = W13 m ρ c (Proc.devRef .tc main_arg11) := W14_of_ne m ρ c main_arg11 (by decide)
    _ = W12 m ρ c (Proc.devRef .tc main_arg11) := W13_of_ne m ρ c main_arg11 (by decide)
    _ = W11 m ρ c (Proc.devRef .tc main_arg11) := by host_keep hostOps5
    _ = W10 m ρ c (Proc.devRef .tc main_arg11) := W11_of_ne m ρ c main_arg11 (by decide)
    _ = W9 m ρ c (Proc.devRef .tc main_arg11) := by host_keep hostOps4
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := by host_keep hostOps2
    _ = W5 m ρ c (Proc.devRef .tc main_arg11) := W6_of_ne m ρ c main_arg11 (by decide)
    _ = W4 m ρ c (Proc.devRef .tc main_arg11) := by host_keep hostOps1
    _ = W3 m ρ c (Proc.devRef .tc main_arg11) := W4_of_ne m ρ c main_arg11 (by decide)
    _ = W2 m ρ c (Proc.devRef .tc main_arg11) := by host_keep hostOps0_2
    _ = W1 m ρ c (Proc.devRef .tc main_arg11) := by host_keep hostOps0_1
    _ = W0 m ρ c (Proc.devRef .tc main_arg11) := by host_keep hostOps0

end Cert.KernelIdeal.KFold

end
-- ==== Proof.RefRun.lean ====
/- The run of the reference program's @main: its operations as a list with the outlined
   functions' bodies listed at their calls, the equation of @main with the run of that list, and what every
   weakly fair execution ends with. -/
import proofs.«143214_j32667521254002_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option quotPrecheck false in
/-- The contents of a buffer of shape `s` and element type `t`. -/
local notation "𝔸[" s ", " t "]" => (⟨s, t⟩ : BufTy).Contents (Elt F)

/-- A vector of 3,200,000 followed by one of 100,000, as one vector. -/
def cat (a : 𝔸[S3200000, .i32]) (b : 𝔸[S100000, .i32]) : 𝔸[S3300000, .i32] :=
  concatenate S3300000 0 [⟨S3200000, a⟩, ⟨S100000, b⟩] concatenates_S3200000_S100000_S3300000_d0

/-- The two index vectors: each row of the edge array followed by the node numbers (the self loops). -/
abbrev W0 : List (HloOp τ sig (Elt F)) :=
  [ nullary main_v0 (iotaInDim S100000 32 0),
    unary main_arg1 main_v1 ((extractStridedSlice S1x3200000 ![0, 0] · slices_S2x3200000_S1x3200000_0_0) : 𝔸[S2x3200000, .i32] → 𝔸[S1x3200000, .i32]),
    reshape main_v1 main_v2 rfl shapeCasts_S1x3200000_S3200000,
    binary main_v2 main_v0 main_v3 (cat (F := F)),
    unary main_arg1 main_v4 ((extractStridedSlice S1x3200000 ![1, 0] · slices_S2x3200000_S1x3200000_1_0) : 𝔸[S2x3200000, .i32] → 𝔸[S1x3200000, .i32]),
    reshape main_v4 main_v5 rfl shapeCasts_S1x3200000_S3200000,
    binary main_v5 main_v0 main_v6 (cat (F := F)) ]

/-- The degrees by destination, their inverse square roots where positive, and the edge normalisation. -/
abbrev W1 : List (HloOp τ sig (Elt F)) :=
  [ nullary main_cst (constant S_ .f32 0x3F800000#32),
    unary main_cst main_v7 (broadcastInDim S3300000 ![] bcast_S_S3300000 : 𝔸[S_, .f32] → 𝔸[S3300000, .f32]),
    nullary main_cst_0 (constant S_ .f32 0x00000000#32),
    unary main_cst_0 main_v8 (broadcastInDim S100000 ![] bcast_S_S100000 : 𝔸[S_, .f32] → 𝔸[S100000, .f32]),
    unary main_v6 main_v9 (broadcastInDim S3300000x1 ![0] bcast_S3300000_S3300000x1_0 : 𝔸[S3300000, .i32] → 𝔸[S3300000x1, .i32]),
    ternary main_v8 main_v9 main_v7 main_v10 ((fun x i u => Host.scatterAdd scatter_S100000_S3300000x1_S3300000_n_0_0_1 x i u) : 𝔸[S100000, .f32] → 𝔸[S3300000x1, .i32] → 𝔸[S3300000, .f32] → 𝔸[S100000, .f32]),
    nullary main_cst_1 (constant S_ .f32 0x00000000#32),
    unary main_cst_1 main_v11 (broadcastInDim S100000 ![] bcast_S_S100000 : 𝔸[S_, .f32] → 𝔸[S100000, .f32]),
    binary main_v10 main_v11 main_v12 (cmpf .ogt : 𝔸[S100000, .f32] → 𝔸[S100000, .f32] → 𝔸[S100000, .i1]),
    unary main_v10 main_v13 (Host.rsqrt : 𝔸[S100000, .f32] → 𝔸[S100000, .f32]),
    nullary main_cst_2 (constant S_ .f32 0x00000000#32),
    unary main_cst_2 main_call0_v0 (id : 𝔸[S_, .f32] → 𝔸[S_, .f32]),
    unary main_call0_v0 main_call0_v1 (broadcastInDim S100000 ![] bcast_S_S100000 : 𝔸[S_, .f32] → 𝔸[S100000, .f32]),
    ternary main_v12 main_v13 main_call0_v1 main_v14 (select : 𝔸[S100000, .i1] → 𝔸[S100000, .f32] → 𝔸[S100000, .f32] → 𝔸[S100000, .f32]),
    nullary main_c (constantI S_ 32 0#32),
    unary main_c main_v15 (broadcastInDim S3300000 ![] bcast_S_S3300000 : 𝔸[S_, .i32] → 𝔸[S3300000, .i32]),
    binary main_v3 main_v15 main_v16 (cmpi .slt : 𝔸[S3300000, .i32] → 𝔸[S3300000, .i32] → 𝔸[S3300000, .i1]),
    nullary main_c_3 (constantI S_ 32 100000#32),
    unary main_c_3 main_v17 (broadcastInDim S3300000 ![] bcast_S_S3300000 : 𝔸[S_, .i32] → 𝔸[S3300000, .i32]),
    binary main_v3 main_v17 main_v18 (addi : 𝔸[S3300000, .i32] → 𝔸[S3300000, .i32] → 𝔸[S3300000, .i32]),
    ternary main_v16 main_v18 main_v3 main_v19 (select : 𝔸[S3300000, .i1] → 𝔸[S3300000, .i32] → 𝔸[S3300000, .i32] → 𝔸[S3300000, .i32]),
    unary main_v19 main_v20 (broadcastInDim S3300000x1 ![0] bcast_S3300000_S3300000x1_0 : 𝔸[S3300000, .i32] → 𝔸[S3300000x1, .i32]),
    binary main_v14 main_v20 main_v21 ((fun x i => Host.gather gather_S100000_S3300000x1_S3300000_n_0_n_n_0_1_1 x i) : 𝔸[S100000, .f32] → 𝔸[S3300000x1, .i32] → 𝔸[S3300000, .f32]),
    nullary main_c_4 (constantI S_ 32 0#32),
    unary main_c_4 main_v22 (broadcastInDim S3300000 ![] bcast_S_S3300000 : 𝔸[S_, .i32] → 𝔸[S3300000, .i32]),
    binary main_v6 main_v22 main_v23 (cmpi .slt : 𝔸[S3300000, .i32] → 𝔸[S3300000, .i32] → 𝔸[S3300000, .i1]),
    nullary main_c_5 (constantI S_ 32 100000#32),
    unary main_c_5 main_v24 (broadcastInDim S3300000 ![] bcast_S_S3300000 : 𝔸[S_, .i32] → 𝔸[S3300000, .i32]),
    binary main_v6 main_v24 main_v25 (addi : 𝔸[S3300000, .i32] → 𝔸[S3300000, .i32] → 𝔸[S3300000, .i32]),
    ternary main_v23 main_v25 main_v6 main_v26 (select : 𝔸[S3300000, .i1] → 𝔸[S3300000, .i32] → 𝔸[S3300000, .i32] → 𝔸[S3300000, .i32]),
    unary main_v26 main_v27 (broadcastInDim S3300000x1 ![0] bcast_S3300000_S3300000x1_0 : 𝔸[S3300000, .i32] → 𝔸[S3300000x1, .i32]),
    binary main_v14 main_v27 main_v28 ((fun x i => Host.gather gather_S100000_S3300000x1_S3300000_n_0_n_n_0_1_1 x i) : 𝔸[S100000, .f32] → 𝔸[S3300000x1, .i32] → 𝔸[S3300000, .f32]),
    binary main_v21 main_v28 main_v29 (mulf : 𝔸[S3300000, .f32] → 𝔸[S3300000, .f32] → 𝔸[S3300000, .f32]) ]

/-- Layer 1 before its activation: the features times the weights, gathered by source, scaled, summed by destination, plus the bias. -/
abbrev W2 : List (HloOp τ sig (Elt F)) :=
  [ binary main_arg0 main_arg3 main_v30 ((fun l r => Host.dotGeneral dot_S100000x12_S12x64_S100000x64_1_0_0_1_n_n none l r) : 𝔸[S100000x12, .f32] → 𝔸[S12x64, .f32] → 𝔸[S100000x64, .f32]),
    nullary main_c_6 (constantI S_ 32 0#32),
    unary main_c_6 main_v31 (broadcastInDim S3300000 ![] bcast_S_S3300000 : 𝔸[S_, .i32] → 𝔸[S3300000, .i32]),
    binary main_v3 main_v31 main_v32 (cmpi .slt : 𝔸[S3300000, .i32] → 𝔸[S3300000, .i32] → 𝔸[S3300000, .i1]),
    nullary main_c_7 (constantI S_ 32 100000#32),
    unary main_c_7 main_v33 (broadcastInDim S3300000 ![] bcast_S_S3300000 : 𝔸[S_, .i32] → 𝔸[S3300000, .i32]),
    binary main_v3 main_v33 main_v34 (addi : 𝔸[S3300000, .i32] → 𝔸[S3300000, .i32] → 𝔸[S3300000, .i32]),
    ternary main_v32 main_v34 main_v3 main_v35 (select : 𝔸[S3300000, .i1] → 𝔸[S3300000, .i32] → 𝔸[S3300000, .i32] → 𝔸[S3300000, .i32]),
    unary main_v35 main_v36 (broadcastInDim S3300000x1 ![0] bcast_S3300000_S3300000x1_0 : 𝔸[S3300000, .i32] → 𝔸[S3300000x1, .i32]),
    binary main_v30 main_v36 main_v37 ((fun x i => Host.gather gather_S100000x64_S3300000x1_S3300000x64_1_0_n_n_0_1_164 x i) : 𝔸[S100000x64, .f32] → 𝔸[S3300000x1, .i32] → 𝔸[S3300000x64, .f32]),
    unary main_v29 main_v38 (broadcastInDim S3300000x1 ![0] bcast_S3300000_S3300000x1_0 : 𝔸[S3300000, .f32] → 𝔸[S3300000x1, .f32]),
    unary main_v38 main_v39 (broadcastInDim S3300000x64 ![0, 1] bcast_S3300000x1_S3300000x64_0_1 : 𝔸[S3300000x1, .f32] → 𝔸[S3300000x64, .f32]),
    binary main_v37 main_v39 main_v40 (mulf : 𝔸[S3300000x64, .f32] → 𝔸[S3300000x64, .f32] → 𝔸[S3300000x64, .f32]),
    nullary main_cst_8 (constant S_ .f32 0x00000000#32),
    unary main_cst_8 main_v41 (broadcastInDim S100000x64 ![] bcast_S_S100000x64 : 𝔸[S_, .f32] → 𝔸[S100000x64, .f32]),
    unary main_v6 main_v42 (broadcastInDim S3300000x1 ![0] bcast_S3300000_S3300000x1_0 : 𝔸[S3300000, .i32] → 𝔸[S3300000x1, .i32]),
    ternary main_v41 main_v42 main_v40 main_v43 ((fun x i u => Host.scatterAdd scatter_S100000x64_S3300000x1_S3300000x64_1_0_0_1 x i u) : 𝔸[S100000x64, .f32] → 𝔸[S3300000x1, .i32] → 𝔸[S3300000x64, .f32] → 𝔸[S100000x64, .f32]),
    unary main_arg4 main_v44 (broadcastInDim S1x64 ![1] bcast_S64_S1x64_1 : 𝔸[S64, .f32] → 𝔸[S1x64, .f32]),
    unary main_v44 main_v45 (broadcastInDim S100000x64 ![0, 1] bcast_S1x64_S100000x64_0_1 : 𝔸[S1x64, .f32] → 𝔸[S100000x64, .f32]),
    binary main_v43 main_v45 main_v46 (addf : 𝔸[S100000x64, .f32] → 𝔸[S100000x64, .f32] → 𝔸[S100000x64, .f32]) ]

/-- Layer 1's leaky rectifier. -/
abbrev W3 : List (HloOp τ sig (Elt F)) :=
  [ nullary main_cst_9 (constant S_ .f32 0x3C23D70A#32),
    nullary main_call1_cst (constant S_ .f32 0x00000000#32),
    unary main_call1_cst main_call1_v0 (broadcastInDim S100000x64 ![] bcast_S_S100000x64 : 𝔸[S_, .f32] → 𝔸[S100000x64, .f32]),
    binary main_v46 main_call1_v0 main_call1_v1 (cmpf .oge : 𝔸[S100000x64, .f32] → 𝔸[S100000x64, .f32] → 𝔸[S100000x64, .i1]),
    unary main_cst_9 main_call1_v2 (id : 𝔸[S_, .f32] → 𝔸[S_, .f32]),
    unary main_call1_v2 main_call1_v3 (broadcastInDim S100000x64 ![] bcast_S_S100000x64 : 𝔸[S_, .f32] → 𝔸[S100000x64, .f32]),
    binary main_call1_v3 main_v46 main_call1_v4 (mulf : 𝔸[S100000x64, .f32] → 𝔸[S100000x64, .f32] → 𝔸[S100000x64, .f32]),
    ternary main_call1_v1 main_v46 main_call1_v4 main_v47 (select : 𝔸[S100000x64, .i1] → 𝔸[S100000x64, .f32] → 𝔸[S100000x64, .f32] → 𝔸[S100000x64, .f32]) ]

/-- Layer 2 before its activation. -/
abbrev W4 : List (HloOp τ sig (Elt F)) :=
  [ binary main_v47 main_arg5 main_v48 ((fun l r => Host.dotGeneral dot_S100000x64_S64x64_S100000x64_1_0_0_1_n_n none l r) : 𝔸[S100000x64, .f32] → 𝔸[S64x64, .f32] → 𝔸[S100000x64, .f32]),
    nullary main_c_10 (constantI S_ 32 0#32),
    unary main_c_10 main_v49 (broadcastInDim S3300000 ![] bcast_S_S3300000 : 𝔸[S_, .i32] → 𝔸[S3300000, .i32]),
    binary main_v3 main_v49 main_v50 (cmpi .slt : 𝔸[S3300000, .i32] → 𝔸[S3300000, .i32] → 𝔸[S3300000, .i1]),
    nullary main_c_11 (constantI S_ 32 100000#32),
    unary main_c_11 main_v51 (broadcastInDim S3300000 ![] bcast_S_S3300000 : 𝔸[S_, .i32] → 𝔸[S3300000, .i32]),
    binary main_v3 main_v51 main_v52 (addi : 𝔸[S3300000, .i32] → 𝔸[S3300000, .i32] → 𝔸[S3300000, .i32]),
    ternary main_v50 main_v52 main_v3 main_v53 (select : 𝔸[S3300000, .i1] → 𝔸[S3300000, .i32] → 𝔸[S3300000, .i32] → 𝔸[S3300000, .i32]),
    unary main_v53 main_v54 (broadcastInDim S3300000x1 ![0] bcast_S3300000_S3300000x1_0 : 𝔸[S3300000, .i32] → 𝔸[S3300000x1, .i32]),
    binary main_v48 main_v54 main_v55 ((fun x i => Host.gather gather_S100000x64_S3300000x1_S3300000x64_1_0_n_n_0_1_164 x i) : 𝔸[S100000x64, .f32] → 𝔸[S3300000x1, .i32] → 𝔸[S3300000x64, .f32]),
    unary main_v29 main_v56 (broadcastInDim S3300000x1 ![0] bcast_S3300000_S3300000x1_0 : 𝔸[S3300000, .f32] → 𝔸[S3300000x1, .f32]),
    unary main_v56 main_v57 (broadcastInDim S3300000x64 ![0, 1] bcast_S3300000x1_S3300000x64_0_1 : 𝔸[S3300000x1, .f32] → 𝔸[S3300000x64, .f32]),
    binary main_v55 main_v57 main_v58 (mulf : 𝔸[S3300000x64, .f32] → 𝔸[S3300000x64, .f32] → 𝔸[S3300000x64, .f32]),
    nullary main_cst_12 (constant S_ .f32 0x00000000#32),
    unary main_cst_12 main_v59 (broadcastInDim S100000x64 ![] bcast_S_S100000x64 : 𝔸[S_, .f32] → 𝔸[S100000x64, .f32]),
    unary main_v6 main_v60 (broadcastInDim S3300000x1 ![0] bcast_S3300000_S3300000x1_0 : 𝔸[S3300000, .i32] → 𝔸[S3300000x1, .i32]),
    ternary main_v59 main_v60 main_v58 main_v61 ((fun x i u => Host.scatterAdd scatter_S100000x64_S3300000x1_S3300000x64_1_0_0_1 x i u) : 𝔸[S100000x64, .f32] → 𝔸[S3300000x1, .i32] → 𝔸[S3300000x64, .f32] → 𝔸[S100000x64, .f32]),
    unary main_arg6 main_v62 (broadcastInDim S1x64 ![1] bcast_S64_S1x64_1 : 𝔸[S64, .f32] → 𝔸[S1x64, .f32]),
    unary main_v62 main_v63 (broadcastInDim S100000x64 ![0, 1] bcast_S1x64_S100000x64_0_1 : 𝔸[S1x64, .f32] → 𝔸[S100000x64, .f32]),
    binary main_v61 main_v63 main_v64 (addf : 𝔸[S100000x64, .f32] → 𝔸[S100000x64, .f32] → 𝔸[S100000x64, .f32]) ]

/-- Layer 2's leaky rectifier. -/
abbrev W5 : List (HloOp τ sig (Elt F)) :=
  [ nullary main_cst_13 (constant S_ .f32 0x3C23D70A#32),
    nullary main_call2_cst (constant S_ .f32 0x00000000#32),
    unary main_call2_cst main_call2_v0 (broadcastInDim S100000x64 ![] bcast_S_S100000x64 : 𝔸[S_, .f32] → 𝔸[S100000x64, .f32]),
    binary main_v64 main_call2_v0 main_call2_v1 (cmpf .oge : 𝔸[S100000x64, .f32] → 𝔸[S100000x64, .f32] → 𝔸[S100000x64, .i1]),
    unary main_cst_13 main_call2_v2 (id : 𝔸[S_, .f32] → 𝔸[S_, .f32]),
    unary main_call2_v2 main_call2_v3 (broadcastInDim S100000x64 ![] bcast_S_S100000x64 : 𝔸[S_, .f32] → 𝔸[S100000x64, .f32]),
    binary main_call2_v3 main_v64 main_call2_v4 (mulf : 𝔸[S100000x64, .f32] → 𝔸[S100000x64, .f32] → 𝔸[S100000x64, .f32]),
    ternary main_call2_v1 main_v64 main_call2_v4 main_v65 (select : 𝔸[S100000x64, .i1] → 𝔸[S100000x64, .f32] → 𝔸[S100000x64, .f32] → 𝔸[S100000x64, .f32]) ]

/-- Layer 3 before its activation. -/
abbrev W6 : List (HloOp τ sig (Elt F)) :=
  [ binary main_v65 main_arg7 main_v66 ((fun l r => Host.dotGeneral dot_S100000x64_S64x64_S100000x64_1_0_0_1_n_n none l r) : 𝔸[S100000x64, .f32] → 𝔸[S64x64, .f32] → 𝔸[S100000x64, .f32]),
    nullary main_c_14 (constantI S_ 32 0#32),
    unary main_c_14 main_v67 (broadcastInDim S3300000 ![] bcast_S_S3300000 : 𝔸[S_, .i32] → 𝔸[S3300000, .i32]),
    binary main_v3 main_v67 main_v68 (cmpi .slt : 𝔸[S3300000, .i32] → 𝔸[S3300000, .i32] → 𝔸[S3300000, .i1]),
    nullary main_c_15 (constantI S_ 32 100000#32),
    unary main_c_15 main_v69 (broadcastInDim S3300000 ![] bcast_S_S3300000 : 𝔸[S_, .i32] → 𝔸[S3300000, .i32]),
    binary main_v3 main_v69 main_v70 (addi : 𝔸[S3300000, .i32] → 𝔸[S3300000, .i32] → 𝔸[S3300000, .i32]),
    ternary main_v68 main_v70 main_v3 main_v71 (select : 𝔸[S3300000, .i1] → 𝔸[S3300000, .i32] → 𝔸[S3300000, .i32] → 𝔸[S3300000, .i32]),
    unary main_v71 main_v72 (broadcastInDim S3300000x1 ![0] bcast_S3300000_S3300000x1_0 : 𝔸[S3300000, .i32] → 𝔸[S3300000x1, .i32]),
    binary main_v66 main_v72 main_v73 ((fun x i => Host.gather gather_S100000x64_S3300000x1_S3300000x64_1_0_n_n_0_1_164 x i) : 𝔸[S100000x64, .f32] → 𝔸[S3300000x1, .i32] → 𝔸[S3300000x64, .f32]),
    unary main_v29 main_v74 (broadcastInDim S3300000x1 ![0] bcast_S3300000_S3300000x1_0 : 𝔸[S3300000, .f32] → 𝔸[S3300000x1, .f32]),
    unary main_v74 main_v75 (broadcastInDim S3300000x64 ![0, 1] bcast_S3300000x1_S3300000x64_0_1 : 𝔸[S3300000x1, .f32] → 𝔸[S3300000x64, .f32]),
    binary main_v73 main_v75 main_v76 (mulf : 𝔸[S3300000x64, .f32] → 𝔸[S3300000x64, .f32] → 𝔸[S3300000x64, .f32]),
    nullary main_cst_16 (constant S_ .f32 0x00000000#32),
    unary main_cst_16 main_v77 (broadcastInDim S100000x64 ![] bcast_S_S100000x64 : 𝔸[S_, .f32] → 𝔸[S100000x64, .f32]),
    unary main_v6 main_v78 (broadcastInDim S3300000x1 ![0] bcast_S3300000_S3300000x1_0 : 𝔸[S3300000, .i32] → 𝔸[S3300000x1, .i32]),
    ternary main_v77 main_v78 main_v76 main_v79 ((fun x i u => Host.scatterAdd scatter_S100000x64_S3300000x1_S3300000x64_1_0_0_1 x i u) : 𝔸[S100000x64, .f32] → 𝔸[S3300000x1, .i32] → 𝔸[S3300000x64, .f32] → 𝔸[S100000x64, .f32]),
    unary main_arg8 main_v80 (broadcastInDim S1x64 ![1] bcast_S64_S1x64_1 : 𝔸[S64, .f32] → 𝔸[S1x64, .f32]),
    unary main_v80 main_v81 (broadcastInDim S100000x64 ![0, 1] bcast_S1x64_S100000x64_0_1 : 𝔸[S1x64, .f32] → 𝔸[S100000x64, .f32]),
    binary main_v79 main_v81 main_v82 (addf : 𝔸[S100000x64, .f32] → 𝔸[S100000x64, .f32] → 𝔸[S100000x64, .f32]) ]

/-- Layer 3's leaky rectifier. -/
abbrev W7 : List (HloOp τ sig (Elt F)) :=
  [ nullary main_cst_17 (constant S_ .f32 0x3C23D70A#32),
    nullary main_call3_cst (constant S_ .f32 0x00000000#32),
    unary main_call3_cst main_call3_v0 (broadcastInDim S100000x64 ![] bcast_S_S100000x64 : 𝔸[S_, .f32] → 𝔸[S100000x64, .f32]),
    binary main_v82 main_call3_v0 main_call3_v1 (cmpf .oge : 𝔸[S100000x64, .f32] → 𝔸[S100000x64, .f32] → 𝔸[S100000x64, .i1]),
    unary main_cst_17 main_call3_v2 (id : 𝔸[S_, .f32] → 𝔸[S_, .f32]),
    unary main_call3_v2 main_call3_v3 (broadcastInDim S100000x64 ![] bcast_S_S100000x64 : 𝔸[S_, .f32] → 𝔸[S100000x64, .f32]),
    binary main_call3_v3 main_v82 main_call3_v4 (mulf : 𝔸[S100000x64, .f32] → 𝔸[S100000x64, .f32] → 𝔸[S100000x64, .f32]),
    ternary main_call3_v1 main_v82 main_call3_v4 main_v83 (select : 𝔸[S100000x64, .i1] → 𝔸[S100000x64, .f32] → 𝔸[S100000x64, .f32] → 𝔸[S100000x64, .f32]) ]

/-- Layer 4 up to the scaled messages, the zero accumulator and the destination indices. -/
abbrev W8 : List (HloOp τ sig (Elt F)) :=
  [ binary main_v83 main_arg9 main_v84 ((fun l r => Host.dotGeneral dot_S100000x64_S64x64_S100000x64_1_0_0_1_n_n none l r) : 𝔸[S100000x64, .f32] → 𝔸[S64x64, .f32] → 𝔸[S100000x64, .f32]),
    nullary main_c_18 (constantI S_ 32 0#32),
    unary main_c_18 main_v85 (broadcastInDim S3300000 ![] bcast_S_S3300000 : 𝔸[S_, .i32] → 𝔸[S3300000, .i32]),
    binary main_v3 main_v85 main_v86 (cmpi .slt : 𝔸[S3300000, .i32] → 𝔸[S3300000, .i32] → 𝔸[S3300000, .i1]),
    nullary main_c_19 (constantI S_ 32 100000#32),
    unary main_c_19 main_v87 (broadcastInDim S3300000 ![] bcast_S_S3300000 : 𝔸[S_, .i32] → 𝔸[S3300000, .i32]),
    binary main_v3 main_v87 main_v88 (addi : 𝔸[S3300000, .i32] → 𝔸[S3300000, .i32] → 𝔸[S3300000, .i32]),
    ternary main_v86 main_v88 main_v3 main_v89 (select : 𝔸[S3300000, .i1] → 𝔸[S3300000, .i32] → 𝔸[S3300000, .i32] → 𝔸[S3300000, .i32]),
    unary main_v89 main_v90 (broadcastInDim S3300000x1 ![0] bcast_S3300000_S3300000x1_0 : 𝔸[S3300000, .i32] → 𝔸[S3300000x1, .i32]),
    binary main_v84 main_v90 main_v91 ((fun x i => Host.gather gather_S100000x64_S3300000x1_S3300000x64_1_0_n_n_0_1_164 x i) : 𝔸[S100000x64, .f32] → 𝔸[S3300000x1, .i32] → 𝔸[S3300000x64, .f32]),
    unary main_v29 main_v92 (broadcastInDim S3300000x1 ![0] bcast_S3300000_S3300000x1_0 : 𝔸[S3300000, .f32] → 𝔸[S3300000x1, .f32]),
    unary main_v92 main_v93 (broadcastInDim S3300000x64 ![0, 1] bcast_S3300000x1_S3300000x64_0_1 : 𝔸[S3300000x1, .f32] → 𝔸[S3300000x64, .f32]),
    binary main_v91 main_v93 main_v94 (mulf : 𝔸[S3300000x64, .f32] → 𝔸[S3300000x64, .f32] → 𝔸[S3300000x64, .f32]),
    nullary main_cst_20 (constant S_ .f32 0x00000000#32),
    unary main_cst_20 main_v95 (broadcastInDim S100000x64 ![] bcast_S_S100000x64 : 𝔸[S_, .f32] → 𝔸[S100000x64, .f32]),
    unary main_v6 main_v96 (broadcastInDim S3300000x1 ![0] bcast_S3300000_S3300000x1_0 : 𝔸[S3300000, .i32] → 𝔸[S3300000x1, .i32]) ]

/-- Layer 4's sum by destination plus the bias. -/
abbrev W9 : List (HloOp τ sig (Elt F)) :=
  [ ternary main_v95 main_v96 main_v94 main_v97 ((fun x i u => Host.scatterAdd scatter_S100000x64_S3300000x1_S3300000x64_1_0_0_1 x i u) : 𝔸[S100000x64, .f32] → 𝔸[S3300000x1, .i32] → 𝔸[S3300000x64, .f32] → 𝔸[S100000x64, .f32]),
    unary main_arg10 main_v98 (broadcastInDim S1x64 ![1] bcast_S64_S1x64_1 : 𝔸[S64, .f32] → 𝔸[S1x64, .f32]),
    unary main_v98 main_v99 (broadcastInDim S100000x64 ![0, 1] bcast_S1x64_S100000x64_0_1 : 𝔸[S1x64, .f32] → 𝔸[S100000x64, .f32]),
    binary main_v97 main_v99 main_v100 (addf : 𝔸[S100000x64, .f32] → 𝔸[S100000x64, .f32] → 𝔸[S100000x64, .f32]) ]

/-- Layer 4's rectifier. -/
abbrev W10 : List (HloOp τ sig (Elt F)) :=
  [ nullary main_call4_cst (constant S_ .f32 0x00000000#32),
    unary main_call4_cst main_call4_v0 (broadcastInDim S100000x64 ![] bcast_S_S100000x64 : 𝔸[S_, .f32] → 𝔸[S100000x64, .f32]),
    binary main_v100 main_call4_v0 main_v101 (maximumf : 𝔸[S100000x64, .f32] → 𝔸[S100000x64, .f32] → 𝔸[S100000x64, .f32]) ]

/-- The mean over each graph's nodes, the final affine map and the logistic function. -/
abbrev W11 : List (HloOp τ sig (Elt F)) :=
  [ nullary main_cst_21 (constant S_ .f32 0x00000000#32),
    unary main_cst_21 main_v102 (broadcastInDim S512x64 ![] bcast_S_S512x64 : 𝔸[S_, .f32] → 𝔸[S512x64, .f32]),
    unary main_arg2 main_v103 (broadcastInDim S100000x1 ![0] bcast_S100000_S100000x1_0 : 𝔸[S100000, .i32] → 𝔸[S100000x1, .i32]),
    ternary main_v102 main_v103 main_v101 main_v104 ((fun x i u => Host.scatterAdd scatter_S512x64_S100000x1_S100000x64_1_0_0_1 x i u) : 𝔸[S512x64, .f32] → 𝔸[S100000x1, .i32] → 𝔸[S100000x64, .f32] → 𝔸[S512x64, .f32]),
    nullary main_cst_22 (constant S_ .f32 0x3F800000#32),
    unary main_cst_22 main_v105 (broadcastInDim S100000 ![] bcast_S_S100000 : 𝔸[S_, .f32] → 𝔸[S100000, .f32]),
    nullary main_cst_23 (constant S_ .f32 0x00000000#32),
    unary main_cst_23 main_v106 (broadcastInDim S512 ![] bcast_S_S512 : 𝔸[S_, .f32] → 𝔸[S512, .f32]),
    unary main_arg2 main_v107 (broadcastInDim S100000x1 ![0] bcast_S100000_S100000x1_0 : 𝔸[S100000, .i32] → 𝔸[S100000x1, .i32]),
    ternary main_v106 main_v107 main_v105 main_v108 ((fun x i u => Host.scatterAdd scatter_S512_S100000x1_S100000_n_0_0_1 x i u) : 𝔸[S512, .f32] → 𝔸[S100000x1, .i32] → 𝔸[S100000, .f32] → 𝔸[S512, .f32]),
    nullary main_cst_24 (constant S_ .f32 0x3F800000#32),
    unary main_cst_24 main_v109 (broadcastInDim S512 ![] bcast_S_S512 : 𝔸[S_, .f32] → 𝔸[S512, .f32]),
    binary main_v108 main_v109 main_v110 (maximumf : 𝔸[S512, .f32] → 𝔸[S512, .f32] → 𝔸[S512, .f32]),
    unary main_v110 main_v111 (broadcastInDim S512x1 ![0] bcast_S512_S512x1_0 : 𝔸[S512, .f32] → 𝔸[S512x1, .f32]),
    unary main_v111 main_v112 (broadcastInDim S512x64 ![0, 1] bcast_S512x1_S512x64_0_1 : 𝔸[S512x1, .f32] → 𝔸[S512x64, .f32]),
    binary main_v104 main_v112 main_v113 (Host.divf : 𝔸[S512x64, .f32] → 𝔸[S512x64, .f32] → 𝔸[S512x64, .f32]),
    binary main_v113 main_arg11 main_v114 ((fun l r => Host.dotGeneral dot_S512x64_S64x1_S512x1_1_0_0_1_n_n none l r) : 𝔸[S512x64, .f32] → 𝔸[S64x1, .f32] → 𝔸[S512x1, .f32]),
    unary main_arg12 main_v115 (broadcastInDim S1x1 ![1] bcast_S1_S1x1_1 : 𝔸[S1, .f32] → 𝔸[S1x1, .f32]),
    unary main_v115 main_v116 (broadcastInDim S512x1 ![0, 1] bcast_S1x1_S512x1_0_1 : 𝔸[S1x1, .f32] → 𝔸[S512x1, .f32]),
    binary main_v114 main_v116 main_v117 (addf : 𝔸[S512x1, .f32] → 𝔸[S512x1, .f32] → 𝔸[S512x1, .f32]),
    unary main_v117 main_v118 (Host.negf : 𝔸[S512x1, .f32] → 𝔸[S512x1, .f32]),
    unary main_v118 main_v119 (Host.exp : 𝔸[S512x1, .f32] → 𝔸[S512x1, .f32]),
    nullary main_cst_25 (constant S_ .f32 0x3F800000#32),
    unary main_cst_25 main_v120 (broadcastInDim S512x1 ![] bcast_S_S512x1 : 𝔸[S_, .f32] → 𝔸[S512x1, .f32]),
    binary main_v120 main_v119 main_v121 (addf : 𝔸[S512x1, .f32] → 𝔸[S512x1, .f32] → 𝔸[S512x1, .f32]),
    nullary main_cst_26 (constant S_ .f32 0x3F800000#32),
    unary main_cst_26 main_v122 (broadcastInDim S512x1 ![] bcast_S_S512x1 : 𝔸[S_, .f32] → 𝔸[S512x1, .f32]),
    binary main_v122 main_v121 main_v123 (Host.divf : 𝔸[S512x1, .f32] → 𝔸[S512x1, .f32] → 𝔸[S512x1, .f32]) ]

/-- The operations of @main's first window of statements, the called functions' operations at their calls. -/
abbrev ops0 : List (HloOp τ sig (Elt F)) := W0 ++ (W1 ++ (W2 ++ W3))
/-- The operations of @main's second window. -/
abbrev ops1 : List (HloOp τ sig (Elt F)) := W4 ++ (W5 ++ (W6 ++ (W7 ++ W8)))
/-- The operations of @main's third window. -/
abbrev ops2 : List (HloOp τ sig (Elt F)) := W9 ++ (W10 ++ W11)
/-- @main's 175 operations, in order. -/
abbrev ops : List (HloOp τ sig (Elt F)) := ops0 ++ (ops1 ++ ops2)

/-! ## The stages

The pure functions the operations compose to, cut where the program's own structure cuts them. -/

/-- The zero vector or array every sum starts from, and the other splats. -/
abbrev splat (s : Shape) (h : S_.BroadcastsInDim s (![] : Fin 0 → Fin s.rank)) (b : BitVec 32) : 𝔸[s, .f32] :=
  broadcastInDim s ![] h (constant S_ .f32 b : 𝔸[S_, .f32])

/-- The edges' sources: row 0 of the edge array, then every node once (its self loop). -/
def srcIdx (e : 𝔸[S2x3200000, .i32]) : 𝔸[S3300000, .i32] :=
  cat (fun i => shapeCast S3200000 (extractStridedSlice S1x3200000 ![0, 0] e slices_S2x3200000_S1x3200000_0_0) shapeCasts_S1x3200000_S3200000 i)
    (iotaInDim S100000 32 0 : 𝔸[S100000, .i32])

/-- The edges' destinations: row 1 of the edge array, then every node once. -/
def dstIdx (e : 𝔸[S2x3200000, .i32]) : 𝔸[S3300000, .i32] :=
  cat (fun i => shapeCast S3200000 (extractStridedSlice S1x3200000 ![1, 0] e slices_S2x3200000_S1x3200000_1_0) shapeCasts_S1x3200000_S3200000 i)
    (iotaInDim S100000 32 0 : 𝔸[S100000, .i32])

/-- A gather's index read from the end when negative: `i + 100000` where `i < 0`, else `i`. -/
def wrapIdx (i : 𝔸[S3300000, .i32]) : 𝔸[S3300000, .i32] :=
  select (cmpi .slt i (broadcastInDim S3300000 ![] bcast_S_S3300000 (constantI S_ 32 0#32 : 𝔸[S_, .i32])))
    (addi i (broadcastInDim S3300000 ![] bcast_S_S3300000 (constantI S_ 32 100000#32 : 𝔸[S_, .i32]))) i

/-- An index vector as the one-column index array a gather or scatter takes. -/
abbrev col (i : 𝔸[S3300000, .i32]) : 𝔸[S3300000x1, .i32] :=
  broadcastInDim S3300000x1 ![0] bcast_S3300000_S3300000x1_0 i

/-- Each node's degree: the number of edges (self loops included) it is the destination of. -/
def deg (e : 𝔸[S2x3200000, .i32]) : 𝔸[S100000, .f32] :=
  Host.scatterAdd scatter_S100000_S3300000x1_S3300000_n_0_0_1
    (broadcastInDim S100000 ![] bcast_S_S100000 (constant S_ .f32 0x00000000#32 : 𝔸[S_, .f32]))
    (col (dstIdx e))
    (broadcastInDim S3300000 ![] bcast_S_S3300000 (constant S_ .f32 0x3F800000#32 : 𝔸[S_, .f32]))

/-- The degree's inverse square root where the degree is positive, zero elsewhere. -/
def dinv (e : 𝔸[S2x3200000, .i32]) : 𝔸[S100000, .f32] :=
  select (cmpf .ogt (deg e) (broadcastInDim S100000 ![] bcast_S_S100000 (constant S_ .f32 0x00000000#32 : 𝔸[S_, .f32])))
    (Host.rsqrt (deg e))
    (broadcastInDim S100000 ![] bcast_S_S100000 (constant S_ .f32 0x00000000#32 : 𝔸[S_, .f32]))

/-- The symmetric normalisation of each edge: the product of its two ends' inverse square-root degrees. -/
def normE (e : 𝔸[S2x3200000, .i32]) : 𝔸[S3300000, .f32] :=
  mulf (Host.gather gather_S100000_S3300000x1_S3300000_n_0_n_n_0_1_1 (dinv e) (col (wrapIdx (srcIdx e))))
    (Host.gather gather_S100000_S3300000x1_S3300000_n_0_n_n_0_1_1 (dinv e) (col (wrapIdx (dstIdx e))))

/-- The messages along the edges: the source's row of `xw`, scaled by the edge's normalisation. -/
def messages (e : 𝔸[S2x3200000, .i32]) (xw : 𝔸[S100000x64, .f32]) : 𝔸[S3300000x64, .f32] :=
  mulf (Host.gather gather_S100000x64_S3300000x1_S3300000x64_1_0_n_n_0_1_164 xw (col (wrapIdx (srcIdx e))))
    (broadcastInDim S3300000x64 ![0, 1] bcast_S3300000x1_S3300000x64_0_1
      (broadcastInDim S3300000x1 ![0] bcast_S3300000_S3300000x1_0 (normE e)))

/-- The messages summed at their destinations, plus the bias on every row. -/
def propagate (e : 𝔸[S2x3200000, .i32]) (xw : 𝔸[S100000x64, .f32]) (b : 𝔸[S64, .f32]) : 𝔸[S100000x64, .f32] :=
  addf
    (Host.scatterAdd scatter_S100000x64_S3300000x1_S3300000x64_1_0_0_1
      (broadcastInDim S100000x64 ![] bcast_S_S100000x64 (constant S_ .f32 0x00000000#32 : 𝔸[S_, .f32]))
      (col (dstIdx e)) (messages e xw))
    (broadcastInDim S100000x64 ![0, 1] bcast_S1x64_S100000x64_0_1 (broadcastInDim S1x64 ![1] bcast_S64_S1x64_1 b))

/-- The first graph convolution before its activation, on the twelve input features. -/
def conv12 (e : 𝔸[S2x3200000, .i32]) (h : 𝔸[S100000x12, .f32]) (W : 𝔸[S12x64, .f32]) (b : 𝔸[S64, .f32]) : 𝔸[S100000x64, .f32] :=
  propagate e (Host.dotGeneral dot_S100000x12_S12x64_S100000x64_1_0_0_1_n_n none h W) b

/-- A later graph convolution before its activation, on sixty-four features. -/
def conv64 (e : 𝔸[S2x3200000, .i32]) (h : 𝔸[S100000x64, .f32]) (W : 𝔸[S64x64, .f32]) (b : 𝔸[S64, .f32]) : 𝔸[S100000x64, .f32] :=
  propagate e (Host.dotGeneral dot_S100000x64_S64x64_S100000x64_1_0_0_1_n_n none h W) b

/-- The leaky rectifier of slope 0.01: `x` where `x ≥ 0`, else `0.01 · x`. -/
def leaky (x : 𝔸[S100000x64, .f32]) : 𝔸[S100000x64, .f32] :=
  select (cmpf .oge x (broadcastInDim S100000x64 ![] bcast_S_S100000x64 (constant S_ .f32 0x00000000#32 : 𝔸[S_, .f32])))
    x (mulf (broadcastInDim S100000x64 ![] bcast_S_S100000x64 (constant S_ .f32 0x3C23D70A#32 : 𝔸[S_, .f32])) x)

/-- The rectifier: the maximum with zero. -/
def relu (x : 𝔸[S100000x64, .f32]) : 𝔸[S100000x64, .f32] :=
  maximumf x (broadcastInDim S100000x64 ![] bcast_S_S100000x64 (constant S_ .f32 0x00000000#32 : 𝔸[S_, .f32]))

/-- A node's graph number as the one-column index array a scatter takes. -/
abbrev colB (bidx : 𝔸[S100000, .i32]) : 𝔸[S100000x1, .i32] :=
  broadcastInDim S100000x1 ![0] bcast_S100000_S100000x1_0 bidx

/-- The number of nodes of each graph. -/
def cnt (bidx : 𝔸[S100000, .i32]) : 𝔸[S512, .f32] :=
  Host.scatterAdd scatter_S512_S100000x1_S100000_n_0_0_1
    (broadcastInDim S512 ![] bcast_S_S512 (constant S_ .f32 0x00000000#32 : 𝔸[S_, .f32]))
    (colB bidx)
    (broadcastInDim S100000 ![] bcast_S_S100000 (constant S_ .f32 0x3F800000#32 : 𝔸[S_, .f32]))

/-- The mean of the rows of `h` over each graph's nodes (an empty graph divides by one). -/
def meanPool (bidx : 𝔸[S100000, .i32]) (h : 𝔸[S100000x64, .f32]) : 𝔸[S512x64, .f32] :=
  Host.divf
    (Host.scatterAdd scatter_S512x64_S100000x1_S100000x64_1_0_0_1
      (broadcastInDim S512x64 ![] bcast_S_S512x64 (constant S_ .f32 0x00000000#32 : 𝔸[S_, .f32])) (colB bidx) h)
    (broadcastInDim S512x64 ![0, 1] bcast_S512x1_S512x64_0_1
      (broadcastInDim S512x1 ![0] bcast_S512_S512x1_0
        (maximumf (cnt bidx) (broadcastInDim S512 ![] bcast_S_S512 (constant S_ .f32 0x3F800000#32 : 𝔸[S_, .f32])))))

/-- The logistic function `1 / (1 + exp (-z))`. -/
def sigmoid (z : 𝔸[S512x1, .f32]) : 𝔸[S512x1, .f32] :=
  Host.divf (broadcastInDim S512x1 ![] bcast_S_S512x1 (constant S_ .f32 0x3F800000#32 : 𝔸[S_, .f32]))
    (addf (broadcastInDim S512x1 ![] bcast_S_S512x1 (constant S_ .f32 0x3F800000#32 : 𝔸[S_, .f32])) (Host.exp (Host.negf z)))

/-- The read-out: the graphs' mean features through the final affine map and the logistic function. -/
def pool (bidx : 𝔸[S100000, .i32]) (h : 𝔸[S100000x64, .f32]) (Wfc : 𝔸[S64x1, .f32]) (bfc : 𝔸[S1, .f32]) : 𝔸[S512x1, .f32] :=
  sigmoid (addf (Host.dotGeneral dot_S512x64_S64x1_S512x1_1_0_0_1_n_n none (meanPool bidx h) Wfc)
    (broadcastInDim S512x1 ![0, 1] bcast_S1x1_S512x1_0_1 (broadcastInDim S1x1 ![1] bcast_S1_S1x1_1 bfc)))

/-- The whole network: four graph convolutions (three leaky rectifiers, one rectifier), then the read-out. -/
def out (x : 𝔸[S100000x12, .f32]) (e : 𝔸[S2x3200000, .i32]) (bidx : 𝔸[S100000, .i32])
    (W0 : 𝔸[S12x64, .f32]) (b0 : 𝔸[S64, .f32]) (W1 : 𝔸[S64x64, .f32]) (b1 : 𝔸[S64, .f32])
    (W2 : 𝔸[S64x64, .f32]) (b2 : 𝔸[S64, .f32]) (W3 : 𝔸[S64x64, .f32]) (b3 : 𝔸[S64, .f32])
    (Wfc : 𝔸[S64x1, .f32]) (bfc : 𝔸[S1, .f32]) : 𝔸[S512x1, .f32] :=
  pool bidx (relu (conv64 e (leaky (conv64 e (leaky (conv64 e (leaky (conv12 e x W0 b0)) W1 b1)) W2 b2)) W3 b3)) Wfc bfc

set_option maxRecDepth 8192 in
set_option maxHeartbeats 4000000 in
theorem main_part0_eq (c : Dev nD) : main_part0 (F := F) c = seq ops0 := rfl
set_option maxRecDepth 8192 in
set_option maxHeartbeats 4000000 in
theorem main_part1_eq (c : Dev nD) : main_part1 (F := F) c = seq ops1 := rfl
set_option maxRecDepth 8192 in
set_option maxHeartbeats 4000000 in
theorem main_part2_eq (c : Dev nD) : main_part2 (F := F) c = seq ops2 := rfl

/-- @main is the run of its operations in order. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem W0_sub : (W0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub ..⟩
theorem W1_sub : (W1 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem W2_sub : (W2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem W3_sub : (W3 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub ..⟩
theorem W4_sub : (W4 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem W5_sub : (W5 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub ..⟩
theorem W6_sub : (W6 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem W7_sub : (W7 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub ..⟩
theorem W8_sub : (W8 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub ..⟩
theorem W9_sub : (W9 : List (HloOp τ sig (Elt F))).Forall fun op => op.bufs ⊆ tcRefs τ sig :=
  ⟨ternary_bufs_sub .., unary_bufs_sub .., unary_bufs_sub .., binary_bufs_sub ..⟩
theorem W10_sub : (W10 : List (HloOp τ sig (Elt F))).Forall fun op => op.bufs ⊆ tcRefs τ sig :=
  ⟨nullary_bufs_sub .., unary_bufs_sub .., binary_bufs_sub ..⟩
theorem W11_sub : (W11 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, ops0, ops1, ops2, List.mem_append] at h
    rcases h with (h | h | h | h) | (h | h | h | h | h) | (h | h | h)
    exacts [List.forall_iff_forall_mem.mp W0_sub op h, List.forall_iff_forall_mem.mp W1_sub op h, List.forall_iff_forall_mem.mp W2_sub op h, List.forall_iff_forall_mem.mp W3_sub op h, List.forall_iff_forall_mem.mp W4_sub op h, List.forall_iff_forall_mem.mp W5_sub op h, List.forall_iff_forall_mem.mp W6_sub op h, List.forall_iff_forall_mem.mp W7_sub op h, List.forall_iff_forall_mem.mp W8_sub op h, List.forall_iff_forall_mem.mp W9_sub op h, List.forall_iff_forall_mem.mp W10_sub op h, List.forall_iff_forall_mem.mp W11_sub op h]

theorem ops_fresh : ∀ op ∈ (ops : List (HloOp τ sig (Elt F))), op.fresh = ∅ := by
  intro op h
  simp only [ops, ops0, ops1, ops2, List.mem_append] at h
  rcases h with (h | h | h | h) | (h | h | h | h | h) | (h | h | h) <;>
    ((repeat (cases h with | head => rfl | tail _ h => ?_)); exact nomatch h)

/-- On every device, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## The run, window by window

`val k V0`: the buffers' contents after the first `k` windows from contents `V0`; each window's results are the
stage functions of the launch contents of the arguments. -/

/-- @main's arguments: no operation writes them. -/
abbrev argRefs : List (Ref sig .tc) := [main_arg0, main_arg1, main_arg2, main_arg3, main_arg4, main_arg5, main_arg6, main_arg7, main_arg8, main_arg9, main_arg10, main_arg11, main_arg12]

/-- The contents before the first window. -/
def val0 (V0 : Valuation τ sig (Elt F)) : Valuation τ sig (Elt F) := V0
theorem val0_args (V0 : Valuation τ sig (Elt F)) : ∀ r ∈ argRefs, val0 V0 (Proc.devRef .tc r) = V0 (Proc.devRef .tc r) := fun _ _ => rfl
theorem val0_main_arg1 (V0 : Valuation τ sig (Elt F)) : val0 V0 (no_index (Proc.devRef .tc main_arg1)) = V0 (Proc.devRef .tc main_arg1) :=
  val0_args V0 main_arg1 (by decide)

/-- The contents after the first 1 window. -/
def val1 (V0 : Valuation τ sig (Elt F)) : Valuation τ sig (Elt F) := after W0 (val0 V0)
/-- The buffers window 0's operations write. -/
abbrev W0_W : List (Ref sig .tc) := [main_v0, main_v1, main_v2, main_v3, main_v4, main_v5, main_v6]
theorem W0_writes : (W0 : List (HloOp τ sig (Elt F))).Forall fun op => op.writes ⊆ (W0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer window 0 does not write keeps its contents through it. -/
theorem val1_keep (V0 : Valuation τ sig (Elt F)) (r : Ref sig .tc) (h : r ∉ W0_W) :
    val1 V0 (Proc.devRef .tc r) = val0 V0 (Proc.devRef .tc r) :=
  after_of_writes_sub W0 _ W0_writes h
theorem val1_args (V0 : Valuation τ sig (Elt F)) : ∀ r ∈ argRefs, val1 V0 (Proc.devRef .tc r) = V0 (Proc.devRef .tc r) := fun r hr =>
  (val1_keep V0 r ((by decide : ∀ r ∈ argRefs, r ∉ W0_W) r hr)).trans (val0_args V0 r hr)
set_option maxRecDepth 8192 in
set_option maxHeartbeats 2000000 in
theorem val1_main_v3 (V0 : Valuation τ sig (Elt F)) : val1 V0 (no_index (Proc.devRef .tc main_v3)) = srcIdx (V0 (Proc.devRef .tc main_arg1)) := by
  unfold val1
  simp only [W0]
  after_results_simp
  simp only [val0_main_arg1] <;> rfl
set_option maxRecDepth 8192 in
set_option maxHeartbeats 2000000 in
theorem val1_main_v6 (V0 : Valuation τ sig (Elt F)) : val1 V0 (no_index (Proc.devRef .tc main_v6)) = dstIdx (V0 (Proc.devRef .tc main_arg1)) := by
  unfold val1
  simp only [W0]
  after_results_simp
  simp only [val0_main_arg1] <;> rfl

/-- The contents after the first 2 windows. -/
def val2 (V0 : Valuation τ sig (Elt F)) : Valuation τ sig (Elt F) := after W1 (val1 V0)
/-- The buffers window 1's operations write. -/
abbrev W1_W : List (Ref sig .tc) := [main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29]
theorem W1_writes : (W1 : List (HloOp τ sig (Elt F))).Forall fun op => op.writes ⊆ (W1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer window 1 does not write keeps its contents through it. -/
theorem val2_keep (V0 : Valuation τ sig (Elt F)) (r : Ref sig .tc) (h : r ∉ W1_W) :
    val2 V0 (Proc.devRef .tc r) = val1 V0 (Proc.devRef .tc r) :=
  after_of_writes_sub W1 _ W1_writes h
theorem val2_args (V0 : Valuation τ sig (Elt F)) : ∀ r ∈ argRefs, val2 V0 (Proc.devRef .tc r) = V0 (Proc.devRef .tc r) := fun r hr =>
  (val2_keep V0 r ((by decide : ∀ r ∈ argRefs, r ∉ W1_W) r hr)).trans (val1_args V0 r hr)
theorem val2_main_arg4 (V0 : Valuation τ sig (Elt F)) : val2 V0 (no_index (Proc.devRef .tc main_arg4)) = V0 (Proc.devRef .tc main_arg4) :=
  val2_args V0 main_arg4 (by decide)
theorem val2_main_arg3 (V0 : Valuation τ sig (Elt F)) : val2 V0 (no_index (Proc.devRef .tc main_arg3)) = V0 (Proc.devRef .tc main_arg3) :=
  val2_args V0 main_arg3 (by decide)
theorem val2_main_arg0 (V0 : Valuation τ sig (Elt F)) : val2 V0 (no_index (Proc.devRef .tc main_arg0)) = V0 (Proc.devRef .tc main_arg0) :=
  val2_args V0 main_arg0 (by decide)
theorem val2_main_v3 (V0 : Valuation τ sig (Elt F)) : val2 V0 (no_index (Proc.devRef .tc main_v3)) = srcIdx (V0 (Proc.devRef .tc main_arg1)) :=
  (val2_keep V0 main_v3 (by decide)).trans (val1_main_v3 V0)
theorem val2_main_v6 (V0 : Valuation τ sig (Elt F)) : val2 V0 (no_index (Proc.devRef .tc main_v6)) = dstIdx (V0 (Proc.devRef .tc main_arg1)) :=
  (val2_keep V0 main_v6 (by decide)).trans (val1_main_v6 V0)
set_option maxRecDepth 8192 in
set_option maxHeartbeats 2000000 in
theorem val2_main_v29 (V0 : Valuation τ sig (Elt F)) : val2 V0 (no_index (Proc.devRef .tc main_v29)) = normE (V0 (Proc.devRef .tc main_arg1)) := by
  unfold val2
  simp only [W1]
  after_results_simp
  simp only [val1_main_v6, val1_main_v3] <;> rfl

/-- The contents after the first 3 windows. -/
def val3 (V0 : Valuation τ sig (Elt F)) : Valuation τ sig (Elt F) := after W2 (val2 V0)
/-- The buffers window 2's operations write. -/
abbrev W2_W : List (Ref sig .tc) := [main_v30, main_c_6, main_v31, main_v32, main_c_7, main_v33, main_v34, main_v35, main_v36, main_v37, main_v38, main_v39, main_v40, main_cst_8, main_v41, main_v42, main_v43, main_v44, main_v45, main_v46]
theorem W2_writes : (W2 : List (HloOp τ sig (Elt F))).Forall fun op => op.writes ⊆ (W2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer window 2 does not write keeps its contents through it. -/
theorem val3_keep (V0 : Valuation τ sig (Elt F)) (r : Ref sig .tc) (h : r ∉ W2_W) :
    val3 V0 (Proc.devRef .tc r) = val2 V0 (Proc.devRef .tc r) :=
  after_of_writes_sub W2 _ W2_writes h
theorem val3_args (V0 : Valuation τ sig (Elt F)) : ∀ r ∈ argRefs, val3 V0 (Proc.devRef .tc r) = V0 (Proc.devRef .tc r) := fun r hr =>
  (val3_keep V0 r ((by decide : ∀ r ∈ argRefs, r ∉ W2_W) r hr)).trans (val2_args V0 r hr)
theorem val3_main_v3 (V0 : Valuation τ sig (Elt F)) : val3 V0 (no_index (Proc.devRef .tc main_v3)) = srcIdx (V0 (Proc.devRef .tc main_arg1)) :=
  (val3_keep V0 main_v3 (by decide)).trans (val2_main_v3 V0)
theorem val3_main_v6 (V0 : Valuation τ sig (Elt F)) : val3 V0 (no_index (Proc.devRef .tc main_v6)) = dstIdx (V0 (Proc.devRef .tc main_arg1)) :=
  (val3_keep V0 main_v6 (by decide)).trans (val2_main_v6 V0)
theorem val3_main_v29 (V0 : Valuation τ sig (Elt F)) : val3 V0 (no_index (Proc.devRef .tc main_v29)) = normE (V0 (Proc.devRef .tc main_arg1)) :=
  (val3_keep V0 main_v29 (by decide)).trans (val2_main_v29 V0)
set_option maxRecDepth 8192 in
set_option maxHeartbeats 2000000 in
theorem val3_main_v46 (V0 : Valuation τ sig (Elt F)) : val3 V0 (no_index (Proc.devRef .tc main_v46)) = (conv12 (V0 (Proc.devRef .tc main_arg1)) (V0 (Proc.devRef .tc main_arg0)) (V0 (Proc.devRef .tc main_arg3)) (V0 (Proc.devRef .tc main_arg4))) := by
  unfold val3
  simp only [W2]
  after_results_simp
  simp only [val2_main_arg4, val2_main_v29, val2_main_v3, val2_main_arg3, val2_main_arg0, val2_main_v6] <;> rfl

/-- The contents after the first 4 windows. -/
def val4 (V0 : Valuation τ sig (Elt F)) : Valuation τ sig (Elt F) := after W3 (val3 V0)
/-- The buffers window 3's operations write. -/
abbrev W3_W : List (Ref sig .tc) := [main_cst_9, main_call1_cst, main_call1_v0, main_call1_v1, main_call1_v2, main_call1_v3, main_call1_v4, main_v47]
theorem W3_writes : (W3 : List (HloOp τ sig (Elt F))).Forall fun op => op.writes ⊆ (W3_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer window 3 does not write keeps its contents through it. -/
theorem val4_keep (V0 : Valuation τ sig (Elt F)) (r : Ref sig .tc) (h : r ∉ W3_W) :
    val4 V0 (Proc.devRef .tc r) = val3 V0 (Proc.devRef .tc r) :=
  after_of_writes_sub W3 _ W3_writes h
theorem val4_args (V0 : Valuation τ sig (Elt F)) : ∀ r ∈ argRefs, val4 V0 (Proc.devRef .tc r) = V0 (Proc.devRef .tc r) := fun r hr =>
  (val4_keep V0 r ((by decide : ∀ r ∈ argRefs, r ∉ W3_W) r hr)).trans (val3_args V0 r hr)
theorem val4_main_arg6 (V0 : Valuation τ sig (Elt F)) : val4 V0 (no_index (Proc.devRef .tc main_arg6)) = V0 (Proc.devRef .tc main_arg6) :=
  val4_args V0 main_arg6 (by decide)
theorem val4_main_arg5 (V0 : Valuation τ sig (Elt F)) : val4 V0 (no_index (Proc.devRef .tc main_arg5)) = V0 (Proc.devRef .tc main_arg5) :=
  val4_args V0 main_arg5 (by decide)
theorem val4_main_v3 (V0 : Valuation τ sig (Elt F)) : val4 V0 (no_index (Proc.devRef .tc main_v3)) = srcIdx (V0 (Proc.devRef .tc main_arg1)) :=
  (val4_keep V0 main_v3 (by decide)).trans (val3_main_v3 V0)
theorem val4_main_v6 (V0 : Valuation τ sig (Elt F)) : val4 V0 (no_index (Proc.devRef .tc main_v6)) = dstIdx (V0 (Proc.devRef .tc main_arg1)) :=
  (val4_keep V0 main_v6 (by decide)).trans (val3_main_v6 V0)
theorem val4_main_v29 (V0 : Valuation τ sig (Elt F)) : val4 V0 (no_index (Proc.devRef .tc main_v29)) = normE (V0 (Proc.devRef .tc main_arg1)) :=
  (val4_keep V0 main_v29 (by decide)).trans (val3_main_v29 V0)
set_option maxRecDepth 8192 in
set_option maxHeartbeats 2000000 in
theorem val4_main_v47 (V0 : Valuation τ sig (Elt F)) : val4 V0 (no_index (Proc.devRef .tc main_v47)) = (leaky (conv12 (V0 (Proc.devRef .tc main_arg1)) (V0 (Proc.devRef .tc main_arg0)) (V0 (Proc.devRef .tc main_arg3)) (V0 (Proc.devRef .tc main_arg4)))) := by
  unfold val4
  simp only [W3]
  after_results_simp
  simp only [val3_main_v46] <;> rfl

/-- The contents after the first 5 windows. -/
def val5 (V0 : Valuation τ sig (Elt F)) : Valuation τ sig (Elt F) := after W4 (val4 V0)
/-- The buffers window 4's operations write. -/
abbrev W4_W : List (Ref sig .tc) := [main_v48, main_c_10, main_v49, main_v50, main_c_11, main_v51, main_v52, main_v53, main_v54, main_v55, main_v56, main_v57, main_v58, main_cst_12, main_v59, main_v60, main_v61, main_v62, main_v63, main_v64]
theorem W4_writes : (W4 : List (HloOp τ sig (Elt F))).Forall fun op => op.writes ⊆ (W4_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer window 4 does not write keeps its contents through it. -/
theorem val5_keep (V0 : Valuation τ sig (Elt F)) (r : Ref sig .tc) (h : r ∉ W4_W) :
    val5 V0 (Proc.devRef .tc r) = val4 V0 (Proc.devRef .tc r) :=
  after_of_writes_sub W4 _ W4_writes h
theorem val5_args (V0 : Valuation τ sig (Elt F)) : ∀ r ∈ argRefs, val5 V0 (Proc.devRef .tc r) = V0 (Proc.devRef .tc r) := fun r hr =>
  (val5_keep V0 r ((by decide : ∀ r ∈ argRefs, r ∉ W4_W) r hr)).trans (val4_args V0 r hr)
theorem val5_main_v3 (V0 : Valuation τ sig (Elt F)) : val5 V0 (no_index (Proc.devRef .tc main_v3)) = srcIdx (V0 (Proc.devRef .tc main_arg1)) :=
  (val5_keep V0 main_v3 (by decide)).trans (val4_main_v3 V0)
theorem val5_main_v6 (V0 : Valuation τ sig (Elt F)) : val5 V0 (no_index (Proc.devRef .tc main_v6)) = dstIdx (V0 (Proc.devRef .tc main_arg1)) :=
  (val5_keep V0 main_v6 (by decide)).trans (val4_main_v6 V0)
theorem val5_main_v29 (V0 : Valuation τ sig (Elt F)) : val5 V0 (no_index (Proc.devRef .tc main_v29)) = normE (V0 (Proc.devRef .tc main_arg1)) :=
  (val5_keep V0 main_v29 (by decide)).trans (val4_main_v29 V0)
set_option maxRecDepth 8192 in
set_option maxHeartbeats 2000000 in
theorem val5_main_v64 (V0 : Valuation τ sig (Elt F)) : val5 V0 (no_index (Proc.devRef .tc main_v64)) = (conv64 (V0 (Proc.devRef .tc main_arg1)) (leaky (conv12 (V0 (Proc.devRef .tc main_arg1)) (V0 (Proc.devRef .tc main_arg0)) (V0 (Proc.devRef .tc main_arg3)) (V0 (Proc.devRef .tc main_arg4)))) (V0 (Proc.devRef .tc main_arg5)) (V0 (Proc.devRef .tc main_arg6))) := by
  unfold val5
  simp only [W4]
  after_results_simp
  simp only [val4_main_arg6, val4_main_v29, val4_main_v3, val4_main_arg5, val4_main_v47, val4_main_v6] <;> rfl

/-- The contents after the first 6 windows. -/
def val6 (V0 : Valuation τ sig (Elt F)) : Valuation τ sig (Elt F) := after W5 (val5 V0)
/-- The buffers window 5's operations write. -/
abbrev W5_W : List (Ref sig .tc) := [main_cst_13, main_call2_cst, main_call2_v0, main_call2_v1, main_call2_v2, main_call2_v3, main_call2_v4, main_v65]
theorem W5_writes : (W5 : List (HloOp τ sig (Elt F))).Forall fun op => op.writes ⊆ (W5_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer window 5 does not write keeps its contents through it. -/
theorem val6_keep (V0 : Valuation τ sig (Elt F)) (r : Ref sig .tc) (h : r ∉ W5_W) :
    val6 V0 (Proc.devRef .tc r) = val5 V0 (Proc.devRef .tc r) :=
  after_of_writes_sub W5 _ W5_writes h
theorem val6_args (V0 : Valuation τ sig (Elt F)) : ∀ r ∈ argRefs, val6 V0 (Proc.devRef .tc r) = V0 (Proc.devRef .tc r) := fun r hr =>
  (val6_keep V0 r ((by decide : ∀ r ∈ argRefs, r ∉ W5_W) r hr)).trans (val5_args V0 r hr)
theorem val6_main_arg8 (V0 : Valuation τ sig (Elt F)) : val6 V0 (no_index (Proc.devRef .tc main_arg8)) = V0 (Proc.devRef .tc main_arg8) :=
  val6_args V0 main_arg8 (by decide)
theorem val6_main_arg7 (V0 : Valuation τ sig (Elt F)) : val6 V0 (no_index (Proc.devRef .tc main_arg7)) = V0 (Proc.devRef .tc main_arg7) :=
  val6_args V0 main_arg7 (by decide)
theorem val6_main_v3 (V0 : Valuation τ sig (Elt F)) : val6 V0 (no_index (Proc.devRef .tc main_v3)) = srcIdx (V0 (Proc.devRef .tc main_arg1)) :=
  (val6_keep V0 main_v3 (by decide)).trans (val5_main_v3 V0)
theorem val6_main_v6 (V0 : Valuation τ sig (Elt F)) : val6 V0 (no_index (Proc.devRef .tc main_v6)) = dstIdx (V0 (Proc.devRef .tc main_arg1)) :=
  (val6_keep V0 main_v6 (by decide)).trans (val5_main_v6 V0)
theorem val6_main_v29 (V0 : Valuation τ sig (Elt F)) : val6 V0 (no_index (Proc.devRef .tc main_v29)) = normE (V0 (Proc.devRef .tc main_arg1)) :=
  (val6_keep V0 main_v29 (by decide)).trans (val5_main_v29 V0)
set_option maxRecDepth 8192 in
set_option maxHeartbeats 2000000 in
theorem val6_main_v65 (V0 : Valuation τ sig (Elt F)) : val6 V0 (no_index (Proc.devRef .tc main_v65)) = (leaky (conv64 (V0 (Proc.devRef .tc main_arg1)) (leaky (conv12 (V0 (Proc.devRef .tc main_arg1)) (V0 (Proc.devRef .tc main_arg0)) (V0 (Proc.devRef .tc main_arg3)) (V0 (Proc.devRef .tc main_arg4)))) (V0 (Proc.devRef .tc main_arg5)) (V0 (Proc.devRef .tc main_arg6)))) := by
  unfold val6
  simp only [W5]
  after_results_simp
  simp only [val5_main_v64] <;> rfl

/-- The contents after the first 7 windows. -/
def val7 (V0 : Valuation τ sig (Elt F)) : Valuation τ sig (Elt F) := after W6 (val6 V0)
/-- The buffers window 6's operations write. -/
abbrev W6_W : List (Ref sig .tc) := [main_v66, main_c_14, main_v67, main_v68, main_c_15, main_v69, main_v70, main_v71, main_v72, main_v73, main_v74, main_v75, main_v76, main_cst_16, main_v77, main_v78, main_v79, main_v80, main_v81, main_v82]
theorem W6_writes : (W6 : List (HloOp τ sig (Elt F))).Forall fun op => op.writes ⊆ (W6_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer window 6 does not write keeps its contents through it. -/
theorem val7_keep (V0 : Valuation τ sig (Elt F)) (r : Ref sig .tc) (h : r ∉ W6_W) :
    val7 V0 (Proc.devRef .tc r) = val6 V0 (Proc.devRef .tc r) :=
  after_of_writes_sub W6 _ W6_writes h
theorem val7_args (V0 : Valuation τ sig (Elt F)) : ∀ r ∈ argRefs, val7 V0 (Proc.devRef .tc r) = V0 (Proc.devRef .tc r) := fun r hr =>
  (val7_keep V0 r ((by decide : ∀ r ∈ argRefs, r ∉ W6_W) r hr)).trans (val6_args V0 r hr)
theorem val7_main_v3 (V0 : Valuation τ sig (Elt F)) : val7 V0 (no_index (Proc.devRef .tc main_v3)) = srcIdx (V0 (Proc.devRef .tc main_arg1)) :=
  (val7_keep V0 main_v3 (by decide)).trans (val6_main_v3 V0)
theorem val7_main_v6 (V0 : Valuation τ sig (Elt F)) : val7 V0 (no_index (Proc.devRef .tc main_v6)) = dstIdx (V0 (Proc.devRef .tc main_arg1)) :=
  (val7_keep V0 main_v6 (by decide)).trans (val6_main_v6 V0)
theorem val7_main_v29 (V0 : Valuation τ sig (Elt F)) : val7 V0 (no_index (Proc.devRef .tc main_v29)) = normE (V0 (Proc.devRef .tc main_arg1)) :=
  (val7_keep V0 main_v29 (by decide)).trans (val6_main_v29 V0)
set_option maxRecDepth 8192 in
set_option maxHeartbeats 2000000 in
theorem val7_main_v82 (V0 : Valuation τ sig (Elt F)) : val7 V0 (no_index (Proc.devRef .tc main_v82)) = (conv64 (V0 (Proc.devRef .tc main_arg1)) (leaky (conv64 (V0 (Proc.devRef .tc main_arg1)) (leaky (conv12 (V0 (Proc.devRef .tc main_arg1)) (V0 (Proc.devRef .tc main_arg0)) (V0 (Proc.devRef .tc main_arg3)) (V0 (Proc.devRef .tc main_arg4)))) (V0 (Proc.devRef .tc main_arg5)) (V0 (Proc.devRef .tc main_arg6)))) (V0 (Proc.devRef .tc main_arg7)) (V0 (Proc.devRef .tc main_arg8))) := by
  unfold val7
  simp only [W6]
  after_results_simp
  simp only [val6_main_arg8, val6_main_v29, val6_main_v3, val6_main_arg7, val6_main_v65, val6_main_v6] <;> rfl

/-- The contents after the first 8 windows. -/
def val8 (V0 : Valuation τ sig (Elt F)) : Valuation τ sig (Elt F) := after W7 (val7 V0)
/-- The buffers window 7's operations write. -/
abbrev W7_W : List (Ref sig .tc) := [main_cst_17, main_call3_cst, main_call3_v0, main_call3_v1, main_call3_v2, main_call3_v3, main_call3_v4, main_v83]
theorem W7_writes : (W7 : List (HloOp τ sig (Elt F))).Forall fun op => op.writes ⊆ (W7_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer window 7 does not write keeps its contents through it. -/
theorem val8_keep (V0 : Valuation τ sig (Elt F)) (r : Ref sig .tc) (h : r ∉ W7_W) :
    val8 V0 (Proc.devRef .tc r) = val7 V0 (Proc.devRef .tc r) :=
  after_of_writes_sub W7 _ W7_writes h
theorem val8_args (V0 : Valuation τ sig (Elt F)) : ∀ r ∈ argRefs, val8 V0 (Proc.devRef .tc r) = V0 (Proc.devRef .tc r) := fun r hr =>
  (val8_keep V0 r ((by decide : ∀ r ∈ argRefs, r ∉ W7_W) r hr)).trans (val7_args V0 r hr)
theorem val8_main_arg9 (V0 : Valuation τ sig (Elt F)) : val8 V0 (no_index (Proc.devRef .tc main_arg9)) = V0 (Proc.devRef .tc main_arg9) :=
  val8_args V0 main_arg9 (by decide)
theorem val8_main_v3 (V0 : Valuation τ sig (Elt F)) : val8 V0 (no_index (Proc.devRef .tc main_v3)) = srcIdx (V0 (Proc.devRef .tc main_arg1)) :=
  (val8_keep V0 main_v3 (by decide)).trans (val7_main_v3 V0)
theorem val8_main_v6 (V0 : Valuation τ sig (Elt F)) : val8 V0 (no_index (Proc.devRef .tc main_v6)) = dstIdx (V0 (Proc.devRef .tc main_arg1)) :=
  (val8_keep V0 main_v6 (by decide)).trans (val7_main_v6 V0)
theorem val8_main_v29 (V0 : Valuation τ sig (Elt F)) : val8 V0 (no_index (Proc.devRef .tc main_v29)) = normE (V0 (Proc.devRef .tc main_arg1)) :=
  (val8_keep V0 main_v29 (by decide)).trans (val7_main_v29 V0)
set_option maxRecDepth 8192 in
set_option maxHeartbeats 2000000 in
theorem val8_main_v83 (V0 : Valuation τ sig (Elt F)) : val8 V0 (no_index (Proc.devRef .tc main_v83)) = (leaky (conv64 (V0 (Proc.devRef .tc main_arg1)) (leaky (conv64 (V0 (Proc.devRef .tc main_arg1)) (leaky (conv12 (V0 (Proc.devRef .tc main_arg1)) (V0 (Proc.devRef .tc main_arg0)) (V0 (Proc.devRef .tc main_arg3)) (V0 (Proc.devRef .tc main_arg4)))) (V0 (Proc.devRef .tc main_arg5)) (V0 (Proc.devRef .tc main_arg6)))) (V0 (Proc.devRef .tc main_arg7)) (V0 (Proc.devRef .tc main_arg8)))) := by
  unfold val8
  simp only [W7]
  after_results_simp
  simp only [val7_main_v82] <;> rfl

/-- The contents after the first 9 windows. -/
def val9 (V0 : Valuation τ sig (Elt F)) : Valuation τ sig (Elt F) := after W8 (val8 V0)
/-- The buffers window 8's operations write. -/
abbrev W8_W : List (Ref sig .tc) := [main_v84, main_c_18, main_v85, main_v86, main_c_19, main_v87, main_v88, main_v89, main_v90, main_v91, main_v92, main_v93, main_v94, main_cst_20, main_v95, main_v96]
theorem W8_writes : (W8 : List (HloOp τ sig (Elt F))).Forall fun op => op.writes ⊆ (W8_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer window 8 does not write keeps its contents through it. -/
theorem val9_keep (V0 : Valuation τ sig (Elt F)) (r : Ref sig .tc) (h : r ∉ W8_W) :
    val9 V0 (Proc.devRef .tc r) = val8 V0 (Proc.devRef .tc r) :=
  after_of_writes_sub W8 _ W8_writes h
theorem val9_args (V0 : Valuation τ sig (Elt F)) : ∀ r ∈ argRefs, val9 V0 (Proc.devRef .tc r) = V0 (Proc.devRef .tc r) := fun r hr =>
  (val9_keep V0 r ((by decide : ∀ r ∈ argRefs, r ∉ W8_W) r hr)).trans (val8_args V0 r hr)
theorem val9_main_arg10 (V0 : Valuation τ sig (Elt F)) : val9 V0 (no_index (Proc.devRef .tc main_arg10)) = V0 (Proc.devRef .tc main_arg10) :=
  val9_args V0 main_arg10 (by decide)
set_option maxRecDepth 8192 in
set_option maxHeartbeats 2000000 in
theorem val9_main_v94 (V0 : Valuation τ sig (Elt F)) : val9 V0 (no_index (Proc.devRef .tc main_v94)) = messages (V0 (Proc.devRef .tc main_arg1)) (Host.dotGeneral dot_S100000x64_S64x64_S100000x64_1_0_0_1_n_n none (leaky (conv64 (V0 (Proc.devRef .tc main_arg1)) (leaky (conv64 (V0 (Proc.devRef .tc main_arg1)) (leaky (conv12 (V0 (Proc.devRef .tc main_arg1)) (V0 (Proc.devRef .tc main_arg0)) (V0 (Proc.devRef .tc main_arg3)) (V0 (Proc.devRef .tc main_arg4)))) (V0 (Proc.devRef .tc main_arg5)) (V0 (Proc.devRef .tc main_arg6)))) (V0 (Proc.devRef .tc main_arg7)) (V0 (Proc.devRef .tc main_arg8)))) (V0 (Proc.devRef .tc main_arg9))) := by
  unfold val9
  simp only [W8]
  after_results_simp
  simp only [val8_main_v29, val8_main_v3, val8_main_arg9, val8_main_v83] <;> rfl
set_option maxRecDepth 8192 in
set_option maxHeartbeats 2000000 in
theorem val9_main_v95 (V0 : Valuation τ sig (Elt F)) : val9 V0 (no_index (Proc.devRef .tc main_v95)) = (broadcastInDim S100000x64 ![] bcast_S_S100000x64 (constant S_ .f32 0x00000000#32 : 𝔸[S_, .f32]) : 𝔸[S100000x64, .f32]) := by
  unfold val9
  simp only [W8]
  after_results_simp
  all_goals rfl
set_option maxRecDepth 8192 in
set_option maxHeartbeats 2000000 in
theorem val9_main_v96 (V0 : Valuation τ sig (Elt F)) : val9 V0 (no_index (Proc.devRef .tc main_v96)) = col (dstIdx (V0 (Proc.devRef .tc main_arg1))) := by
  unfold val9
  simp only [W8]
  after_results_simp
  simp only [val8_main_v6] <;> rfl

/-- The contents after the first 10 windows. -/
def val10 (V0 : Valuation τ sig (Elt F)) : Valuation τ sig (Elt F) := after W9 (val9 V0)
/-- The buffers window 9's operations write. -/
abbrev W9_W : List (Ref sig .tc) := [main_v97, main_v98, main_v99, main_v100]
theorem W9_writes : (W9 : List (HloOp τ sig (Elt F))).Forall fun op => op.writes ⊆ (W9_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer window 9 does not write keeps its contents through it. -/
theorem val10_keep (V0 : Valuation τ sig (Elt F)) (r : Ref sig .tc) (h : r ∉ W9_W) :
    val10 V0 (Proc.devRef .tc r) = val9 V0 (Proc.devRef .tc r) :=
  after_of_writes_sub W9 _ W9_writes h
theorem val10_args (V0 : Valuation τ sig (Elt F)) : ∀ r ∈ argRefs, val10 V0 (Proc.devRef .tc r) = V0 (Proc.devRef .tc r) := fun r hr =>
  (val10_keep V0 r ((by decide : ∀ r ∈ argRefs, r ∉ W9_W) r hr)).trans (val9_args V0 r hr)
set_option maxRecDepth 8192 in
set_option maxHeartbeats 2000000 in
theorem val10_main_v100 (V0 : Valuation τ sig (Elt F)) : val10 V0 (no_index (Proc.devRef .tc main_v100)) = (conv64 (V0 (Proc.devRef .tc main_arg1)) (leaky (conv64 (V0 (Proc.devRef .tc main_arg1)) (leaky (conv64 (V0 (Proc.devRef .tc main_arg1)) (leaky (conv12 (V0 (Proc.devRef .tc main_arg1)) (V0 (Proc.devRef .tc main_arg0)) (V0 (Proc.devRef .tc main_arg3)) (V0 (Proc.devRef .tc main_arg4)))) (V0 (Proc.devRef .tc main_arg5)) (V0 (Proc.devRef .tc main_arg6)))) (V0 (Proc.devRef .tc main_arg7)) (V0 (Proc.devRef .tc main_arg8)))) (V0 (Proc.devRef .tc main_arg9)) (V0 (Proc.devRef .tc main_arg10))) := by
  unfold val10
  simp only [W9]
  after_results_simp
  simp only [val9_main_arg10, val9_main_v94, val9_main_v96, val9_main_v95] <;> rfl

/-- The contents after the first 11 windows. -/
def val11 (V0 : Valuation τ sig (Elt F)) : Valuation τ sig (Elt F) := after W10 (val10 V0)
/-- The buffers window 10's operations write. -/
abbrev W10_W : List (Ref sig .tc) := [main_call4_cst, main_call4_v0, main_v101]
theorem W10_writes : (W10 : List (HloOp τ sig (Elt F))).Forall fun op => op.writes ⊆ (W10_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer window 10 does not write keeps its contents through it. -/
theorem val11_keep (V0 : Valuation τ sig (Elt F)) (r : Ref sig .tc) (h : r ∉ W10_W) :
    val11 V0 (Proc.devRef .tc r) = val10 V0 (Proc.devRef .tc r) :=
  after_of_writes_sub W10 _ W10_writes h
theorem val11_args (V0 : Valuation τ sig (Elt F)) : ∀ r ∈ argRefs, val11 V0 (Proc.devRef .tc r) = V0 (Proc.devRef .tc r) := fun r hr =>
  (val11_keep V0 r ((by decide : ∀ r ∈ argRefs, r ∉ W10_W) r hr)).trans (val10_args V0 r hr)
theorem val11_main_arg12 (V0 : Valuation τ sig (Elt F)) : val11 V0 (no_index (Proc.devRef .tc main_arg12)) = V0 (Proc.devRef .tc main_arg12) :=
  val11_args V0 main_arg12 (by decide)
theorem val11_main_arg11 (V0 : Valuation τ sig (Elt F)) : val11 V0 (no_index (Proc.devRef .tc main_arg11)) = V0 (Proc.devRef .tc main_arg11) :=
  val11_args V0 main_arg11 (by decide)
theorem val11_main_arg2 (V0 : Valuation τ sig (Elt F)) : val11 V0 (no_index (Proc.devRef .tc main_arg2)) = V0 (Proc.devRef .tc main_arg2) :=
  val11_args V0 main_arg2 (by decide)
set_option maxRecDepth 8192 in
set_option maxHeartbeats 2000000 in
theorem val11_main_v101 (V0 : Valuation τ sig (Elt F)) : val11 V0 (no_index (Proc.devRef .tc main_v101)) = (relu (conv64 (V0 (Proc.devRef .tc main_arg1)) (leaky (conv64 (V0 (Proc.devRef .tc main_arg1)) (leaky (conv64 (V0 (Proc.devRef .tc main_arg1)) (leaky (conv12 (V0 (Proc.devRef .tc main_arg1)) (V0 (Proc.devRef .tc main_arg0)) (V0 (Proc.devRef .tc main_arg3)) (V0 (Proc.devRef .tc main_arg4)))) (V0 (Proc.devRef .tc main_arg5)) (V0 (Proc.devRef .tc main_arg6)))) (V0 (Proc.devRef .tc main_arg7)) (V0 (Proc.devRef .tc main_arg8)))) (V0 (Proc.devRef .tc main_arg9)) (V0 (Proc.devRef .tc main_arg10)))) := by
  unfold val11
  simp only [W10]
  after_results_simp
  simp only [val10_main_v100] <;> rfl

/-- The contents after the first 12 windows. -/
def val12 (V0 : Valuation τ sig (Elt F)) : Valuation τ sig (Elt F) := after W11 (val11 V0)
/-- The buffers window 11's operations write. -/
abbrev W11_W : List (Ref sig .tc) := [main_cst_21, main_v102, main_v103, main_v104, main_cst_22, main_v105, main_cst_23, main_v106, main_v107, main_v108, main_cst_24, main_v109, main_v110, main_v111, main_v112, main_v113, main_v114, main_v115, main_v116, main_v117, main_v118, main_v119, main_cst_25, main_v120, main_v121, main_cst_26, main_v122, main_v123]
theorem W11_writes : (W11 : List (HloOp τ sig (Elt F))).Forall fun op => op.writes ⊆ (W11_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer window 11 does not write keeps its contents through it. -/
theorem val12_keep (V0 : Valuation τ sig (Elt F)) (r : Ref sig .tc) (h : r ∉ W11_W) :
    val12 V0 (Proc.devRef .tc r) = val11 V0 (Proc.devRef .tc r) :=
  after_of_writes_sub W11 _ W11_writes h
theorem val12_args (V0 : Valuation τ sig (Elt F)) : ∀ r ∈ argRefs, val12 V0 (Proc.devRef .tc r) = V0 (Proc.devRef .tc r) := fun r hr =>
  (val12_keep V0 r ((by decide : ∀ r ∈ argRefs, r ∉ W11_W) r hr)).trans (val11_args V0 r hr)
set_option maxRecDepth 8192 in
set_option maxHeartbeats 2000000 in
theorem val12_main_v123 (V0 : Valuation τ sig (Elt F)) : val12 V0 (no_index (Proc.devRef .tc main_v123)) = out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  unfold val12
  simp only [W11]
  after_results_simp
  simp only [val11_main_arg12, val11_main_arg11, val11_main_arg2, val11_main_v101] <;> rfl

/-- The whole list's fold is the last window's contents. -/
theorem after_ops (V0 : Valuation τ sig (Elt F)) : after ops V0 = val12 V0 := by
  simp only [ops, ops0, ops1, ops2, after_append]
  rfl

/-- On every device, for any float values, from any memory with zero counters: every weakly fair execution of
    @main terminates with the result at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v123) = out (m ((c.tc : Thread nD τ).loc main_arg0)) (m ((c.tc : Thread nD τ).loc main_arg1)) (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v123).trans (by simp only [after_ops]; exact val12_main_v123 (launchContents m c)),
      (h c main_arg0).trans (by simp only [after_ops]; exact val12_args (launchContents m c) main_arg0 (by decide)),
      (h c main_arg1).trans (by simp only [after_ops]; exact val12_args (launchContents m c) main_arg1 (by decide)),
      (h c main_arg2).trans (by simp only [after_ops]; exact val12_args (launchContents m c) main_arg2 (by decide)),
      (h c main_arg3).trans (by simp only [after_ops]; exact val12_args (launchContents m c) main_arg3 (by decide)),
      (h c main_arg4).trans (by simp only [after_ops]; exact val12_args (launchContents m c) main_arg4 (by decide)),
      (h c main_arg5).trans (by simp only [after_ops]; exact val12_args (launchContents m c) main_arg5 (by decide)),
      (h c main_arg6).trans (by simp only [after_ops]; exact val12_args (launchContents m c) main_arg6 (by decide)),
      (h c main_arg7).trans (by simp only [after_ops]; exact val12_args (launchContents m c) main_arg7 (by decide)),
      (h c main_arg8).trans (by simp only [after_ops]; exact val12_args (launchContents m c) main_arg8 (by decide)),
      (h c main_arg9).trans (by simp only [after_ops]; exact val12_args (launchContents m c) main_arg9 (by decide)),
      (h c main_arg10).trans (by simp only [after_ops]; exact val12_args (launchContents m c) main_arg10 (by decide)),
      (h c main_arg11).trans (by simp only [after_ops]; exact val12_args (launchContents m c) main_arg11 (by decide)),
      (h c main_arg12).trans (by simp only [after_ops]; exact val12_args (launchContents m c) main_arg12 (by decide))⟩)
    (run_main m ρ)

end Cert.ReferenceIdeal.RefRun

end
-- ==== Proof.KHost.lean ====
/-
  What each stretch of host operations between the kernel regions computes, as a function of the buffer contents it
  starts from: the two index vectors of the edges with the self loops appended, the symmetric normalisation column,
  the per-graph node counts, and per layer the gather of the product's rows along the edges' sources, the scatter-add
  of the normalised rows into the edges' destinations, and the bias as a row.  The operations are the reference's own
  (gathers, scatter-adds, compares and selects on index vectors); they are never opened here.
-/
import proofs.«143214_j32667521254002_2_alg».proof.Proof.Gen.KernelIdeal.Frame
import proofs.«143214_j32667521254002_2_alg».proof.Proof.RefRun
import Idealize.ShloMosaic.Lib.StableHlo.Run
import Idealize.ShloMosaic.PureOps.Ideal

set_option maxRecDepth 16384

noncomputable section

namespace Cert.KernelIdeal.KFold

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Cert.ReferenceIdeal (RefRun.srcIdx RefRun.dstIdx RefRun.deg RefRun.dinv RefRun.col RefRun.wrapIdx RefRun.cnt RefRun.normE)

abbrev CF (s : Shape) := (⟨s, .f32⟩ : BufTy).Contents (Elt Ideal)
abbrev CI (s : Shape) := (⟨s, .i32⟩ : BufTy).Contents (Elt Ideal)

/-- Rows of `h` taken at the (wrapped) source index of every edge. -/
def gathK (h : CF S100000x64) (s : CI S3300000) : CF S3300000x64 :=
  Host.gather gather_S100000x64_S3300000x1_S3300000x64_1_0_n_n_0_1_164 h
    (broadcastInDim S3300000x1 ![0] bcast_S3300000_S3300000x1_0
      (select (cmpi .slt s (broadcastInDim S3300000 ![] bcast_S_S3300000 (constantI S_ 32 0#32)))
        (addi s (broadcastInDim S3300000 ![] bcast_S_S3300000 (constantI S_ 32 100000#32))) s))
/-- The per-edge rows `u` added into the rows of a zero array named by the destination index of every edge. -/
def scatK (d : CI S3300000) (u : CF S3300000x64) : CF S100000x64 :=
  Host.scatterAdd (F := Ideal) scatter_S100000x64_S3300000x1_S3300000x64_1_0_0_1
    (broadcastInDim S100000x64 ![] bcast_S_S100000x64 (constant (F := Ideal) S_ .f32 0x00000000#32))
    (broadcastInDim S3300000x1 ![0] bcast_S3300000_S3300000x1_0 d) u
/-- A bias vector as a one-row array. -/
def rs64 (b : CF S64) : CF S1x64 := shapeCast S1x64 b shapeCasts_S64_S1x64
/-- The node rows `h` added into the rows of a zero [512, 64] array named by each node's graph. -/
def scat512K (bi : CI S100000) (h : CF S100000x64) : CF S512x64 :=
  Host.scatterAdd (F := Ideal) scatter_S512x64_S100000x1_S100000x64_1_0_0_1
    (broadcastInDim S512x64 ![] bcast_S_S512x64 (constant (F := Ideal) S_ .f32 0x00000000#32))
    (broadcastInDim S100000x1 ![0] bcast_S100000_S100000x1_0 bi) h
/-- The last bias as a one-by-one array. -/
def rs1 (b : CF S1) : CF S1x1 := shapeCast S1x1 b shapeCasts_S1_S1x1

/-! ### What each host stretch computes, from any contents `X` of the buffers when it starts -/

theorem h0_v5 (X : Valuation τ sig (Elt Ideal)) : StableHlo.after hostOps0 X (Proc.devRef .tc main_v5) = RefRun.srcIdx (F := Ideal) (X (Proc.devRef .tc main_arg1)) := by
  after_results; try rfl

theorem h0_v6 (X : Valuation τ sig (Elt Ideal)) : StableHlo.after hostOps0 X (Proc.devRef .tc main_v6) = RefRun.dstIdx (F := Ideal) (X (Proc.devRef .tc main_arg1)) := by
  after_results; try rfl

theorem h0_v12 (X : Valuation τ sig (Elt Ideal)) : StableHlo.after hostOps0 X (Proc.devRef .tc main_v12) = cmpf .ogt (RefRun.deg (F := Ideal) (X (Proc.devRef .tc main_arg1))) (broadcastInDim S100000 ![] bcast_S_S100000 (constant (F := Ideal) S_ .f32 0x00000000#32)) := by
  after_results; try rfl

theorem h0_v13 (X : Valuation τ sig (Elt Ideal)) : StableHlo.after hostOps0 X (Proc.devRef .tc main_v13) = Host.rsqrt (F := Ideal) (φ := .f32) (RefRun.deg (F := Ideal) (X (Proc.devRef .tc main_arg1))) := by
  after_results; try rfl

theorem h0_cst2 (X : Valuation τ sig (Elt Ideal)) : StableHlo.after hostOps0 X (Proc.devRef .tc main_cst_2) = constant (F := Ideal) S_ .f32 0x00000000#32 := by
  after_results; try rfl

theorem h01_v14 (X : Valuation τ sig (Elt Ideal)) : StableHlo.after hostOps0_1 X (Proc.devRef .tc main_v14) = select (X (Proc.devRef .tc main_v12)) (X (Proc.devRef .tc main_v13)) (broadcastInDim S100000 ![] bcast_S_S100000 (X (Proc.devRef .tc main_cst_2))) := by
  after_results; try rfl

set_option maxHeartbeats 8000000 in
theorem h02_v30 (X : Valuation τ sig (Elt Ideal)) : StableHlo.after hostOps0_2 X (Proc.devRef .tc main_v30) = shapeCast S3300000x1 (mulf (F := Ideal) (φ := .f32) (Host.gather gather_S100000_S3300000x1_S3300000_n_0_n_n_0_1_1 (X (Proc.devRef .tc main_v14)) (RefRun.col (RefRun.wrapIdx (F := Ideal) (X (Proc.devRef .tc main_v5))))) (Host.gather gather_S100000_S3300000x1_S3300000_n_0_n_n_0_1_1 (X (Proc.devRef .tc main_v14)) (RefRun.col (RefRun.wrapIdx (F := Ideal) (X (Proc.devRef .tc main_v6)))))) shapeCasts_S3300000_S3300000x1 := by
  after_results; try rfl

theorem h02_v35 (X : Valuation τ sig (Elt Ideal)) : StableHlo.after hostOps0_2 X (Proc.devRef .tc main_v35) = shapeCast S512x1 (RefRun.cnt (F := Ideal) (X (Proc.devRef .tc main_arg2))) shapeCasts_S512_S512x1 := by
  after_results; try rfl

theorem h_main_v43 (X : Valuation τ sig (Elt Ideal)) : StableHlo.after hostOps1 X (Proc.devRef .tc main_v43) = gathK (X (Proc.devRef .tc main_v36)) (X (Proc.devRef .tc main_v5)) := by
  after_results; try rfl

theorem h_main_v47 (X : Valuation τ sig (Elt Ideal)) : StableHlo.after hostOps2 X (Proc.devRef .tc main_v47) = scatK (X (Proc.devRef .tc main_v6)) (X (Proc.devRef .tc main_v44)) := by
  after_results; try rfl

theorem h_main_v48 (X : Valuation τ sig (Elt Ideal)) : StableHlo.after hostOps2 X (Proc.devRef .tc main_v48) = rs64 (X (Proc.devRef .tc main_arg4)) := by
  after_results; try rfl

theorem h_main_v57 (X : Valuation τ sig (Elt Ideal)) : StableHlo.after hostOps4 X (Proc.devRef .tc main_v57) = gathK (X (Proc.devRef .tc main_v50)) (X (Proc.devRef .tc main_v5)) := by
  after_results; try rfl

theorem h_main_v61 (X : Valuation τ sig (Elt Ideal)) : StableHlo.after hostOps5 X (Proc.devRef .tc main_v61) = scatK (X (Proc.devRef .tc main_v6)) (X (Proc.devRef .tc main_v58)) := by
  after_results; try rfl

theorem h_main_v62 (X : Valuation τ sig (Elt Ideal)) : StableHlo.after hostOps5 X (Proc.devRef .tc main_v62) = rs64 (X (Proc.devRef .tc main_arg6)) := by
  after_results; try rfl

theorem h_main_v71 (X : Valuation τ sig (Elt Ideal)) : StableHlo.after hostOps7 X (Proc.devRef .tc main_v71) = gathK (X (Proc.devRef .tc main_v64)) (X (Proc.devRef .tc main_v5)) := by
  after_results; try rfl

theorem h_main_v75 (X : Valuation τ sig (Elt Ideal)) : StableHlo.after hostOps8 X (Proc.devRef .tc main_v75) = scatK (X (Proc.devRef .tc main_v6)) (X (Proc.devRef .tc main_v72)) := by
  after_results; try rfl

theorem h_main_v76 (X : Valuation τ sig (Elt Ideal)) : StableHlo.after hostOps8 X (Proc.devRef .tc main_v76) = rs64 (X (Proc.devRef .tc main_arg8)) := by
  after_results; try rfl

theorem h_main_v85 (X : Valuation τ sig (Elt Ideal)) : StableHlo.after hostOps10 X (Proc.devRef .tc main_v85) = gathK (X (Proc.devRef .tc main_v78)) (X (Proc.devRef .tc main_v5)) := by
  after_results; try rfl

theorem h_main_v89 (X : Valuation τ sig (Elt Ideal)) : StableHlo.after hostOps11 X (Proc.devRef .tc main_v89) = scatK (X (Proc.devRef .tc main_v6)) (X (Proc.devRef .tc main_v86)) := by
  after_results; try rfl

theorem h_main_v90 (X : Valuation τ sig (Elt Ideal)) : StableHlo.after hostOps11 X (Proc.devRef .tc main_v90) = rs64 (X (Proc.devRef .tc main_arg10)) := by
  after_results; try rfl

theorem h_main_v94 (X : Valuation τ sig (Elt Ideal)) : StableHlo.after hostOps12 X (Proc.devRef .tc main_v94) = scat512K (X (Proc.devRef .tc main_arg2)) (X (Proc.devRef .tc main_v91)) := by
  after_results; try rfl

theorem h_main_v95 (X : Valuation τ sig (Elt Ideal)) : StableHlo.after hostOps12 X (Proc.devRef .tc main_v95) = rs1 (X (Proc.devRef .tc main_arg12)) := by
  after_results; try rfl

end Cert.KernelIdeal.KFold

end
-- ==== Proof.GcnSpec.lean ====
/-
  The dense product every layer of the network starts with, as one function of whole arrays over the extended reals:
  entry (r, c) of the product of a [100000, K] array with a [K, 64] array is the sum over k of x(r, k) · w(k, c).
  The sum is a finite sum in a commutative monoid, so neither its order nor its grouping matters.
-/
import Idealize.ShloMosaic.PureOps.Ideal
import Idealize.ShloMosaic.Lib.ValueIdx

noncomputable section

open scoped BigOperators

namespace Cert.GcnSpec

open Idealize.ShloMosaic Idealize.ShloMosaic.ValueIdx

/-- Rows of `x` against columns of `w`: entry (r, c) is the sum over the `K` inner positions. -/
def mmG {R K C : Nat} (x : (⟨2, ![R, K]⟩ : Shape).Idx → EReal) (w : (⟨2, ![K, C]⟩ : Shape).Idx → EReal) :
    (⟨2, ![R, C]⟩ : Shape).Idx → EReal :=
  fun i => ∑ k : Fin K, x (ix2 (i 0) k) * w (ix2 k (i 1))

theorem mmG_apply {R K C : Nat} (x : (⟨2, ![R, K]⟩ : Shape).Idx → EReal) (w : (⟨2, ![K, C]⟩ : Shape).Idx → EReal)
    (r : Fin R) (c : Fin C) : mmG x w (ix2 r c) = ∑ k : Fin K, x (ix2 r k) * w (ix2 k c) := rfl

end Cert.GcnSpec

end
-- ==== Proof.RegNormalize.lean ====
/- The normalization regions (1, 4, 7, 10): after each, the output array is the messages scaled row by row by the one-column norm array, index by index. -/
import proofs.«143214_j32667521254002_2_alg».proof.Proof.Gen.KernelIdeal.Frame
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- The zero offsets of a whole-buffer access, as a constant function. -/
theorem zero_offsets : (![0, 0] : Fin 2 → Nat) = fun _ => 0 := funext fun a => by fin_cases a <;> rfl

/-- ROW NORMALIZATION of a whole array: element (r, k) of the messages times the norm of row r,
    the norm array having one column. -/
def nrmG (msg : S3300000x64.Idx → Elt F .f32) (n : S3300000x1.Idx → Elt F .f32) : S3300000x64.Idx → Elt F .f32 :=
  fun i => FloatOps.mulf (msg i) (n (ix2 (i 0) (0 : Fin 1)))

/-! ## Region 1: the rows of block t are rows 5000 t … 5000 t + 4999 of the array -/

/-- The block's payload at an index: the message element times its row's norm (the one-column
    block broadcast along the columns). -/
theorem pay1 (x0 : Vec F S5000x64 .f32) (x1 : Vec F S5000x1 .f32) :
    k1_pay1 x0 x1 = fun j => FloatOps.mulf (x0 j) (x1 (ix2 (j 0) (0 : Fin 1))) := by
  funext j
  unfold k1_pay1
  simp only [shapeCast_self]
  show FloatOps.mulf (x0 j) (broadcastTo S5000x64 x1 broadcasts_S5000x1_S5000x64 j) = _
  rw [broadcastTo_apply x1 broadcasts_S5000x1_S5000x64 j (ix2 (j 0) (0 : Fin 1))
    (fun a => by match a with | ⟨0, _⟩ => rfl | ⟨1, _⟩ => rfl)]

/-- The three index maps over the grid: both inputs' row blocks move with the output's, which
    is the grid point itself; every column block index is zero. -/
theorem idx1 : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = 0
    ∧ win1_2.index t (0 : Fin 2) = t.val
    ∧ win1_2.index t (1 : Fin 2) = 0 :=
  (by decide +kernel : ∀ t : Fin grid1.N, _)

set_option maxHeartbeats 1000000 in
/-- What point t writes back is block t of the normalized array. -/
theorem flushed1 (c : Dev nD) (t : Fin cfg1.N) :
    (dat1 V c).flushed 2 t = ((cfg1.win 2).blk t).view.read (Elt F)
      (nrmG (V c (Pipeline.arrRef spec1 0)) (V c (Pipeline.arrRef spec1 1))) := by
  show (cfg1.win 2).cut (grid1.coords t) ((dat1 V c).after 2 t) = _
  rw [after1_2]
  unfold out1_2
  rw [View.canon_unit_zero zero_offsets]
  simp only [View.ld_unit_zero (S := S5000x64) zero_offsets, View.ld_unit_zero (S := S5000x1) zero_offsets]
  rw [pay1]
  obtain ⟨e0, e1, e2, e3, e4, e5⟩ := idx1 t
  refine funext fun (j : S5000x64.Idx) => ?_
  show FloatOps.mulf (V c (Pipeline.arrRef spec1 0) (((cfg1.win 0).blk t).view.emb j))
      (V c (Pipeline.arrRef spec1 1) (((cfg1.win 1).blk t).view.emb (ix2 (j 0) (0 : Fin 1))))
    = FloatOps.mulf (V c (Pipeline.arrRef spec1 0) (((cfg1.win 2).blk t).view.emb j))
      (V c (Pipeline.arrRef spec1 1) (ix2 ((((cfg1.win 2).blk t).view.emb j) 0) (0 : Fin 1)))
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (j 0) (0 : Fin 1)) = ix2 ((((cfg1.win 2).blk t).view.emb j) 0) (0 : Fin 1) := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 1 + 1 * 0 = 0; omega
  exact congrArg₂ (fun x y : Elt F .f32 => FloatOps.mulf x y)
    (congrArg (V c (Pipeline.arrRef spec1 0)) h0) (congrArg (V c (Pipeline.arrRef spec1 1)) h1)

/-- An index of the array is in point t's block iff each coordinate is in the block's range. -/
theorem mem_blk1 (t : Fin cfg1.N) (i : S3300000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v44).slice (win1_2.rect t)).set ↔ _
  rw [View.set_slice_whole, Rect.mem_set_unit]
  exact Iff.rfl

/-- Row r lies in the block of point r / 5000: the 660 blocks cover the array. -/
theorem cover1 (i : S3300000x64.Idx) :
    ∃ t : Fin cfg1.N, (cfg1.win 2).flush t = true ∧ i ∈ ((cfg1.win 2).blk t).view.set := by
  have hi0 : (i 0).val < 3300000 := (i 0).isLt
  have hi1 : (i 1).val < 64 := (i 1).isLt
  have hN : cfg1.N = 660 := N_1
  let t : Fin cfg1.N := ⟨(i 0).val / 5000, by rw [hN]; omega⟩
  obtain ⟨e0, e1, e2, e3, e4, e5⟩ := idx1 t
  have ht : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- After region 1 the output array is the normalized array of the two inputs as the region finds them. -/
theorem arr1 (c : Dev nD) : (dat1 V c).arrAt 2 cfg1.N
    = nrmG (V c (Pipeline.arrRef spec1 0)) (V c (Pipeline.arrRef spec1 1)) :=
  (dat1 V c).arrAt_eq_of_cover 2 _ (fun t _ => flushed1 V c t) cover1

/-! ## Region 4: the rows of block t are rows 5000 t … 5000 t + 4999 of the array -/

/-- The block's payload at an index: the message element times its row's norm (the one-column
    block broadcast along the columns). -/
theorem pay4 (x0 : Vec F S5000x64 .f32) (x1 : Vec F S5000x1 .f32) :
    k4_pay1 x0 x1 = fun j => FloatOps.mulf (x0 j) (x1 (ix2 (j 0) (0 : Fin 1))) := by
  funext j
  unfold k4_pay1
  simp only [shapeCast_self]
  show FloatOps.mulf (x0 j) (broadcastTo S5000x64 x1 broadcasts_S5000x1_S5000x64 j) = _
  rw [broadcastTo_apply x1 broadcasts_S5000x1_S5000x64 j (ix2 (j 0) (0 : Fin 1))
    (fun a => by match a with | ⟨0, _⟩ => rfl | ⟨1, _⟩ => rfl)]

/-- The three index maps over the grid: both inputs' row blocks move with the output's, which
    is the grid point itself; every column block index is zero. -/
theorem idx4 : ∀ t : Fin cfg4.N, win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = 0
    ∧ win4_2.index t (0 : Fin 2) = t.val
    ∧ win4_2.index t (1 : Fin 2) = 0 :=
  (by decide +kernel : ∀ t : Fin grid4.N, _)

set_option maxHeartbeats 1000000 in
/-- What point t writes back is block t of the normalized array. -/
theorem flushed4 (c : Dev nD) (t : Fin cfg4.N) :
    (dat4 V c).flushed 2 t = ((cfg4.win 2).blk t).view.read (Elt F)
      (nrmG (V c (Pipeline.arrRef spec4 0)) (V c (Pipeline.arrRef spec4 1))) := by
  show (cfg4.win 2).cut (grid4.coords t) ((dat4 V c).after 2 t) = _
  rw [after4_2]
  unfold out4_2
  rw [View.canon_unit_zero zero_offsets]
  simp only [View.ld_unit_zero (S := S5000x64) zero_offsets, View.ld_unit_zero (S := S5000x1) zero_offsets]
  rw [pay4]
  obtain ⟨e0, e1, e2, e3, e4, e5⟩ := idx4 t
  refine funext fun (j : S5000x64.Idx) => ?_
  show FloatOps.mulf (V c (Pipeline.arrRef spec4 0) (((cfg4.win 0).blk t).view.emb j))
      (V c (Pipeline.arrRef spec4 1) (((cfg4.win 1).blk t).view.emb (ix2 (j 0) (0 : Fin 1))))
    = FloatOps.mulf (V c (Pipeline.arrRef spec4 0) (((cfg4.win 2).blk t).view.emb j))
      (V c (Pipeline.arrRef spec4 1) (ix2 ((((cfg4.win 2).blk t).view.emb j) 0) (0 : Fin 1)))
  have h0 : ((cfg4.win 0).blk t).view.emb j = ((cfg4.win 2).blk t).view.emb j := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb (ix2 (j 0) (0 : Fin 1)) = ix2 ((((cfg4.win 2).blk t).view.emb j) 0) (0 : Fin 1) := by
    funext a; apply Fin.ext
    match a with
    | ⟨0, _⟩ => show win4_1.index t (0 : Fin 2) * 5000 + 1 * (j 0).val = win4_2.index t (0 : Fin 2) * 5000 + 1 * (j 0).val; omega
    | ⟨1, _⟩ => show win4_1.index t (1 : Fin 2) * 1 + 1 * 0 = 0; omega
  exact congrArg₂ (fun x y : Elt F .f32 => FloatOps.mulf x y)
    (congrArg (V c (Pipeline.arrRef spec4 0)) h0) (congrArg (V c (Pipeline.arrRef spec4 1)) h1)

/-- An index of the array is in point t's block iff each coordinate is in the block's range. -/
theorem mem_blk4 (t : Fin cfg4.N) (i : S3300000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v58).slice (win4_2.rect t)).set ↔ _
  rw [View.set_slice_whole, Rect.mem_set_unit]
  exact Iff.rfl

/-- Row r lies in the block of point r / 5000: the 660 blocks cover the array. -/
theorem cover4 (i : S3300000x64.Idx) :
    ∃ t : Fin cfg4.N, (cfg4.win 2).flush t = true ∧ i ∈ ((cfg4.win 2).blk t).view.set := by
  have hi0 : (i 0).val < 3300000 := (i 0).isLt
  have hi1 : (i 1).val < 64 := (i 1).isLt
  have hN : cfg4.N = 660 := N_4
  let t : Fin cfg4.N := ⟨(i 0).val / 5000, by rw [hN]; omega⟩
  obtain ⟨e0, e1, e2, e3, e4, e5⟩ := idx4 t
  have ht : t.val = (i 0).val / 5000 := rfl
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- After region 4 the output array is the normalized array of the two inputs as the region finds them. -/
theorem arr4 (c : Dev nD) : (dat4 V c).arrAt 2 cfg4.N
    = nrmG (V c (Pipeline.arrRef spec4 0)) (V c (Pipeline.arrRef spec4 1)) :=
  (dat4 V c).arrAt_eq_of_cover 2 _ (fun t _ => flushed4 V c t) cover4

/-! ## Region 7: the rows of block t are rows 5000 t … 5000 t + 4999 of the array -/

/-- The block's payload at an index: the message element times its row's norm (the one-column
    block broadcast along the columns). -/
theorem pay7 (x0 : Vec F S5000x64 .f32) (x1 : Vec F S5000x1 .f32) :
    k7_pay1 x0 x1 = fun j => FloatOps.mulf (x0 j) (x1 (ix2 (j 0) (0 : Fin 1))) := by
  funext j
  unfold k7_pay1
  simp only [shapeCast_self]
  show FloatOps.mulf (x0 j) (broadcastTo S5000x64 x1 broadcasts_S5000x1_S5000x64 j) = _
  rw [broadcastTo_apply x1 broadcasts_S5000x1_S5000x64 j (ix2 (j 0) (0 : Fin 1))
    (fun a => by match a with | ⟨0, _⟩ => rfl | ⟨1, _⟩ => rfl)]

/-- The three index maps over the grid: both inputs' row blocks move with the output's, which
    is the grid point itself; every column block index is zero. -/
theorem idx7 : ∀ t : Fin cfg7.N, win7_0.index t (0 : Fin 2) = win7_2.index t (0 : Fin 2)
    ∧ win7_0.index t (1 : Fin 2) = win7_2.index t (1 : Fin 2)
    ∧ win7_1.index t (0 : Fin 2) = win7_2.index t (0 : Fin 2)
    ∧ win7_1.index t (1 : Fin 2) = 0
    ∧ win7_2.index t (0 : Fin 2) = t.val
    ∧ win7_2.index t (1 : Fin 2) = 0 :=
  (by decide +kernel : ∀ t : Fin grid7.N, _)

set_option maxHeartbeats 1000000 in
/-- What point t writes back is block t of the normalized array. -/
theorem flushed7 (c : Dev nD) (t : Fin cfg7.N) :
    (dat7 V c).flushed 2 t = ((cfg7.win 2).blk t).view.read (Elt F)
      (nrmG (V c (Pipeline.arrRef spec7 0)) (V c (Pipeline.arrRef spec7 1))) := by
  show (cfg7.win 2).cut (grid7.coords t) ((dat7 V c).after 2 t) = _
  rw [after7_2]
  unfold out7_2
  rw [View.canon_unit_zero zero_offsets]
  simp only [View.ld_unit_zero (S := S5000x64) zero_offsets, View.ld_unit_zero (S := S5000x1) zero_offsets]
  rw [pay7]
  obtain ⟨e0, e1, e2, e3, e4, e5⟩ := idx7 t
  refine funext fun (j : S5000x64.Idx) => ?_
  show FloatOps.mulf (V c (Pipeline.arrRef spec7 0) (((cfg7.win 0).blk t).view.emb j))
      (V c (Pipeline.arrRef spec7 1) (((cfg7.win 1).blk t).view.emb (ix2 (j 0) (0 : Fin 1))))
    = FloatOps.mulf (V c (Pipeline.arrRef spec7 0) (((cfg7.win 2).blk t).view.emb j))
      (V c (Pipeline.arrRef spec7 1) (ix2 ((((cfg7.win 2).blk t).view.emb j) 0) (0 : Fin 1)))
  have h0 : ((cfg7.win 0).blk t).view.emb j = ((cfg7.win 2).blk t).view.emb j := by
    funext a; apply Fin.ext
    match a with
    | ⟨0, _⟩ => show win7_0.index t (0 : Fin 2) * 5000 + 1 * (j 0).val = win7_2.index t (0 : Fin 2) * 5000 + 1 * (j 0).val; omega
    | ⟨1, _⟩ => show win7_0.index t (1 : Fin 2) * 64 + 1 * (j 1).val = win7_2.index t (1 : Fin 2) * 64 + 1 * (j 1).val; omega
  have h1 : ((cfg7.win 1).blk t).view.emb (ix2 (j 0) (0 : Fin 1)) = ix2 ((((cfg7.win 2).blk t).view.emb j) 0) (0 : Fin 1) := by
    funext a; apply Fin.ext
    match a with
    | ⟨0, _⟩ => show win7_1.index t (0 : Fin 2) * 5000 + 1 * (j 0).val = win7_2.index t (0 : Fin 2) * 5000 + 1 * (j 0).val; omega
    | ⟨1, _⟩ => show win7_1.index t (1 : Fin 2) * 1 + 1 * 0 = 0; omega
  exact congrArg₂ (fun x y : Elt F .f32 => FloatOps.mulf x y)
    (congrArg (V c (Pipeline.arrRef spec7 0)) h0) (congrArg (V c (Pipeline.arrRef spec7 1)) h1)

/-- An index of the array is in point t's block iff each coordinate is in the block's range. -/
theorem mem_blk7 (t : Fin cfg7.N) (i : S3300000x64.Idx) :
    i ∈ ((cfg7.win 2).blk t).view.set ↔ ∀ a : Fin 2, win7_2.index t a * S5000x64.size a ≤ (i a).val
      ∧ (i a).val < win7_2.index t a * S5000x64.size a + S5000x64.size a := by
  show i ∈ ((View.whole main_v72).slice (win7_2.rect t)).set ↔ _
  rw [View.set_slice_whole, Rect.mem_set_unit]
  exact Iff.rfl

/-- Row r lies in the block of point r / 5000: the 660 blocks cover the array. -/
theorem cover7 (i : S3300000x64.Idx) :
    ∃ t : Fin cfg7.N, (cfg7.win 2).flush t = true ∧ i ∈ ((cfg7.win 2).blk t).view.set := by
  have hi0 : (i 0).val < 3300000 := (i 0).isLt
  have hi1 : (i 1).val < 64 := (i 1).isLt
  have hN : cfg7.N = 660 := N_7
  let t : Fin cfg7.N := ⟨(i 0).val / 5000, by rw [hN]; omega⟩
  obtain ⟨e0, e1, e2, e3, e4, e5⟩ := idx7 t
  have ht : t.val = (i 0).val / 5000 := rfl
  refine ⟨t, flush7_2 t, ?_⟩
  rw [mem_blk7]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 64 ≤ (i 1).val ∧ (i 1).val < win7_2.index t (1 : Fin 2) * 64 + 64; omega

/-- After region 7 the output array is the normalized array of the two inputs as the region finds them. -/
theorem arr7 (c : Dev nD) : (dat7 V c).arrAt 2 cfg7.N
    = nrmG (V c (Pipeline.arrRef spec7 0)) (V c (Pipeline.arrRef spec7 1)) :=
  (dat7 V c).arrAt_eq_of_cover 2 _ (fun t _ => flushed7 V c t) cover7

/-! ## Region 10: the rows of block t are rows 5000 t … 5000 t + 4999 of the array -/

/-- The block's payload at an index: the message element times its row's norm (the one-column
    block broadcast along the columns). -/
theorem pay10 (x0 : Vec F S5000x64 .f32) (x1 : Vec F S5000x1 .f32) :
    k10_pay1 x0 x1 = fun j => FloatOps.mulf (x0 j) (x1 (ix2 (j 0) (0 : Fin 1))) := by
  funext j
  unfold k10_pay1
  simp only [shapeCast_self]
  show FloatOps.mulf (x0 j) (broadcastTo S5000x64 x1 broadcasts_S5000x1_S5000x64 j) = _
  rw [broadcastTo_apply x1 broadcasts_S5000x1_S5000x64 j (ix2 (j 0) (0 : Fin 1))
    (fun a => by match a with | ⟨0, _⟩ => rfl | ⟨1, _⟩ => rfl)]

/-- The three index maps over the grid: both inputs' row blocks move with the output's, which
    is the grid point itself; every column block index is zero. -/
theorem idx10 : ∀ t : Fin cfg10.N, win10_0.index t (0 : Fin 2) = win10_2.index t (0 : Fin 2)
    ∧ win10_0.index t (1 : Fin 2) = win10_2.index t (1 : Fin 2)
    ∧ win10_1.index t (0 : Fin 2) = win10_2.index t (0 : Fin 2)
    ∧ win10_1.index t (1 : Fin 2) = 0
    ∧ win10_2.index t (0 : Fin 2) = t.val
    ∧ win10_2.index t (1 : Fin 2) = 0 :=
  (by decide +kernel : ∀ t : Fin grid10.N, _)

set_option maxHeartbeats 1000000 in
/-- What point t writes back is block t of the normalized array. -/
theorem flushed10 (c : Dev nD) (t : Fin cfg10.N) :
    (dat10 V c).flushed 2 t = ((cfg10.win 2).blk t).view.read (Elt F)
      (nrmG (V c (Pipeline.arrRef spec10 0)) (V c (Pipeline.arrRef spec10 1))) := by
  show (cfg10.win 2).cut (grid10.coords t) ((dat10 V c).after 2 t) = _
  rw [after10_2]
  unfold out10_2
  rw [View.canon_unit_zero zero_offsets]
  simp only [View.ld_unit_zero (S := S5000x64) zero_offsets, View.ld_unit_zero (S := S5000x1) zero_offsets]
  rw [pay10]
  obtain ⟨e0, e1, e2, e3, e4, e5⟩ := idx10 t
  refine funext fun (j : S5000x64.Idx) => ?_
  show FloatOps.mulf (V c (Pipeline.arrRef spec10 0) (((cfg10.win 0).blk t).view.emb j))
      (V c (Pipeline.arrRef spec10 1) (((cfg10.win 1).blk t).view.emb (ix2 (j 0) (0 : Fin 1))))
    = FloatOps.mulf (V c (Pipeline.arrRef spec10 0) (((cfg10.win 2).blk t).view.emb j))
      (V c (Pipeline.arrRef spec10 1) (ix2 ((((cfg10.win 2).blk t).view.emb j) 0) (0 : Fin 1)))
  have h0 : ((cfg10.win 0).blk t).view.emb j = ((cfg10.win 2).blk t).view.emb j := by
    funext a; apply Fin.ext
    match a with
    | ⟨0, _⟩ => show win10_0.index t (0 : Fin 2) * 5000 + 1 * (j 0).val = win10_2.index t (0 : Fin 2) * 5000 + 1 * (j 0).val; omega
    | ⟨1, _⟩ => show win10_0.index t (1 : Fin 2) * 64 + 1 * (j 1).val = win10_2.index t (1 : Fin 2) * 64 + 1 * (j 1).val; omega
  have h1 : ((cfg10.win 1).blk t).view.emb (ix2 (j 0) (0 : Fin 1)) = ix2 ((((cfg10.win 2).blk t).view.emb j) 0) (0 : Fin 1) := by
    funext a; apply Fin.ext
    match a with
    | ⟨0, _⟩ => show win10_1.index t (0 : Fin 2) * 5000 + 1 * (j 0).val = win10_2.index t (0 : Fin 2) * 5000 + 1 * (j 0).val; omega
    | ⟨1, _⟩ => show win10_1.index t (1 : Fin 2) * 1 + 1 * 0 = 0; omega
  exact congrArg₂ (fun x y : Elt F .f32 => FloatOps.mulf x y)
    (congrArg (V c (Pipeline.arrRef spec10 0)) h0) (congrArg (V c (Pipeline.arrRef spec10 1)) h1)

/-- An index of the array is in point t's block iff each coordinate is in the block's range. -/
theorem mem_blk10 (t : Fin cfg10.N) (i : S3300000x64.Idx) :
    i ∈ ((cfg10.win 2).blk t).view.set ↔ ∀ a : Fin 2, win10_2.index t a * S5000x64.size a ≤ (i a).val
      ∧ (i a).val < win10_2.index t a * S5000x64.size a + S5000x64.size a := by
  show i ∈ ((View.whole main_v86).slice (win10_2.rect t)).set ↔ _
  rw [View.set_slice_whole, Rect.mem_set_unit]
  exact Iff.rfl

/-- Row r lies in the block of point r / 5000: the 660 blocks cover the array. -/
theorem cover10 (i : S3300000x64.Idx) :
    ∃ t : Fin cfg10.N, (cfg10.win 2).flush t = true ∧ i ∈ ((cfg10.win 2).blk t).view.set := by
  have hi0 : (i 0).val < 3300000 := (i 0).isLt
  have hi1 : (i 1).val < 64 := (i 1).isLt
  have hN : cfg10.N = 660 := N_10
  let t : Fin cfg10.N := ⟨(i 0).val / 5000, by rw [hN]; omega⟩
  obtain ⟨e0, e1, e2, e3, e4, e5⟩ := idx10 t
  have ht : t.val = (i 0).val / 5000 := rfl
  refine ⟨t, flush10_2 t, ?_⟩
  rw [mem_blk10]
  intro a
  match a with
  | ⟨0, _⟩ => show win10_2.index t (0 : Fin 2) * 5000 ≤ (i 0).val ∧ (i 0).val < win10_2.index t (0 : Fin 2) * 5000 + 5000; omega
  | ⟨1, _⟩ => show win10_2.index t (1 : Fin 2) * 64 ≤ (i 1).val ∧ (i 1).val < win10_2.index t (1 : Fin 2) * 64 + 64; omega

/-- After region 10 the output array is the normalized array of the two inputs as the region finds them. -/
theorem arr10 (c : Dev nD) : (dat10 V c).arrAt 2 cfg10.N
    = nrmG (V c (Pipeline.arrRef spec10 0)) (V c (Pipeline.arrRef spec10 1)) :=
  (dat10 V c).arrAt_eq_of_cover 2 _ (fun t _ => flushed10 V c t) cover10

end Cert.KernelIdeal.Regions

end
-- ==== Proof.RegBiasAct.lean ====
/- The bias-and-activation regions (2, 5, 8: leaky rectifier; 11: rectifier): after each, the output array is the input with the one-row bias added column by column and the activation applied, index by index. -/
import proofs.«143214_j32667521254002_2_alg».proof.Proof.Gen.KernelIdeal.Frame
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- The zero offsets of a whole-buffer access, as a constant function. -/
theorem zero_offsets' : (![0, 0] : Fin 2 → Nat) = fun _ => 0 := funext fun a => by fin_cases a <;> rfl

/-- Bias then leaky rectifier of one element: v = x + b; v where v > 0, and 0.01 · v elsewhere. -/
abbrev leakyS (x b : Elt F .f32) : Elt F .f32 :=
  Scalar.select (FloatOps.cmpf .ogt (FloatOps.addf x b) (Scalar.ofBits .f32 0x00000000#32))
    (FloatOps.addf x b) (FloatOps.mulf (Scalar.ofBits .f32 0x3C23D70A#32) (FloatOps.addf x b))

/-- Bias then rectifier of one element: the maximum of x + b and 0. -/
abbrev reluS (x b : Elt F .f32) : Elt F .f32 :=
  FloatOps.maximumf (FloatOps.addf x b) (Scalar.ofBits .f32 0x00000000#32)

/-- BIAS THEN LEAKY RECTIFIER of a whole array: element (r, k) with the bias of column k, the bias
    array having one row. -/
def leakyG (a : S100000x64.Idx → Elt F .f32) (b : S1x64.Idx → Elt F .f32) : S100000x64.Idx → Elt F .f32 :=
  fun i => leakyS (a i) (b (ix2 (0 : Fin 1) (i 1)))

/-- BIAS THEN RECTIFIER of a whole array: element (r, k) with the bias of column k. -/
def reluG (a : S100000x64.Idx → Elt F .f32) (b : S1x64.Idx → Elt F .f32) : S100000x64.Idx → Elt F .f32 :=
  fun i => reluS (a i) (b (ix2 (0 : Fin 1) (i 1)))

/-- The one-row bias block broadcast along the rows, read at an index. -/
theorem bias_at (x1 : Vec F S1x64 .f32) (j : S10000x64.Idx) :
    broadcastTo S10000x64 x1 broadcasts_S1x64_S10000x64 j = x1 (ix2 (0 : Fin 1) (j 1)) :=
  broadcastTo_apply x1 broadcasts_S1x64_S10000x64 j (ix2 (0 : Fin 1) (j 1))
    (fun a => by match a with | ⟨0, _⟩ => rfl | ⟨1, _⟩ => rfl)

/-! ## Region 2: the rows of block t are rows 10000 t … 10000 t + 9999 of the array; the bias block is the whole bias array -/

/-- The block's payload at an index: the element with its column's bias. -/
theorem pay2 (x0 : Vec F S10000x64 .f32) (x1 : Vec F S1x64 .f32) :
    k2_pay1 x0 x1 = fun j => leakyS (x0 j) (x1 (ix2 (0 : Fin 1) (j 1))) := by
  funext j
  unfold k2_pay1
  simp only [shapeCast_self]
  simp only [select, cmpf, addf, mulf, maximumf, broadcast]
  rw [bias_at x1 j]

/-- The three index maps over the grid: the input's row block moves with the output's, which is
    the grid point itself; the bias block index and every column block index are zero. -/
theorem idx2 : ∀ t : Fin cfg2.N, win2_0.index t (0 : Fin 2) = win2_2.index t (0 : Fin 2)
    ∧ win2_0.index t (1 : Fin 2) = win2_2.index t (1 : Fin 2)
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

set_option maxHeartbeats 1000000 in
/-- What point t writes back is block t of the biased and leaky-rectified array. -/
theorem flushed2 (c : Dev nD) (t : Fin cfg2.N) :
    (dat2 V c).flushed 2 t = ((cfg2.win 2).blk t).view.read (Elt F)
      (leakyG (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets']
  simp only [View.ld_unit_zero (S := S10000x64) zero_offsets', View.ld_unit_zero (S := S1x64) zero_offsets']
  rw [pay2]
  obtain ⟨e0, e1, e2, e3, e4, e5⟩ := idx2 t
  refine funext fun (j : S10000x64.Idx) => ?_
  show leakyS (V c (Pipeline.arrRef spec2 0) (((cfg2.win 0).blk t).view.emb j))
      (V c (Pipeline.arrRef spec2 1) (((cfg2.win 1).blk t).view.emb (ix2 (0 : Fin 1) (j 1))))
    = leakyS (V c (Pipeline.arrRef spec2 0) (((cfg2.win 2).blk t).view.emb j))
      (V c (Pipeline.arrRef spec2 1) (ix2 (0 : Fin 1) ((((cfg2.win 2).blk t).view.emb j) 1)))
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ix2 (0 : Fin 1) (j 1)) = ix2 (0 : Fin 1) ((((cfg2.win 2).blk t).view.emb j) 1) := by
    funext a; apply Fin.ext
    match a with
    | ⟨0, _⟩ => show win2_1.index t (0 : Fin 2) * 1 + 1 * 0 = 0; omega
    | ⟨1, _⟩ => show win2_1.index t (1 : Fin 2) * 64 + 1 * (j 1).val = win2_2.index t (1 : Fin 2) * 64 + 1 * (j 1).val; omega
  exact congrArg₂ (fun x y : Elt F .f32 => leakyS x y)
    (congrArg (V c (Pipeline.arrRef spec2 0)) h0) (congrArg (V c (Pipeline.arrRef spec2 1)) h1)

/-- An index of the array is in point t's block iff each coordinate is in the block's range. -/
theorem mem_blk2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v49).slice (win2_2.rect t)).set ↔ _
  rw [View.set_slice_whole, Rect.mem_set_unit]
  exact Iff.rfl

/-- Row r lies in the block of point r / 10000: the 10 blocks cover the array. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨e0, e1, e2, e3, e4, e5⟩ := idx2 t
  have ht : t.val = (i 0).val / 10000 := rfl
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After region 2 the output array is the biased and leaky-rectified array of the two inputs as the region finds them. -/
theorem arr2 (c : Dev nD) : (dat2 V c).arrAt 2 cfg2.N
    = leakyG (V c (Pipeline.arrRef spec2 0)) (V c (Pipeline.arrRef spec2 1)) :=
  (dat2 V c).arrAt_eq_of_cover 2 _ (fun t _ => flushed2 V c t) cover2

/-! ## Region 5: the rows of block t are rows 10000 t … 10000 t + 9999 of the array; the bias block is the whole bias array -/

/-- The block's payload at an index: the element with its column's bias. -/
theorem pay5 (x0 : Vec F S10000x64 .f32) (x1 : Vec F S1x64 .f32) :
    k5_pay1 x0 x1 = fun j => leakyS (x0 j) (x1 (ix2 (0 : Fin 1) (j 1))) := by
  funext j
  unfold k5_pay1
  simp only [shapeCast_self]
  simp only [select, cmpf, addf, mulf, maximumf, broadcast]
  rw [bias_at x1 j]

/-- The three index maps over the grid: the input's row block moves with the output's, which is
    the grid point itself; the bias block index and every column block index are zero. -/
theorem idx5 : ∀ t : Fin cfg5.N, win5_0.index t (0 : Fin 2) = win5_2.index t (0 : Fin 2)
    ∧ win5_0.index t (1 : Fin 2) = win5_2.index t (1 : Fin 2)
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

set_option maxHeartbeats 1000000 in
/-- What point t writes back is block t of the biased and leaky-rectified array. -/
theorem flushed5 (c : Dev nD) (t : Fin cfg5.N) :
    (dat5 V c).flushed 2 t = ((cfg5.win 2).blk t).view.read (Elt F)
      (leakyG (V c (Pipeline.arrRef spec5 0)) (V c (Pipeline.arrRef spec5 1))) := by
  show (cfg5.win 2).cut (grid5.coords t) ((dat5 V c).after 2 t) = _
  rw [after5_2]
  unfold out5_2
  rw [View.canon_unit_zero zero_offsets']
  simp only [View.ld_unit_zero (S := S10000x64) zero_offsets', View.ld_unit_zero (S := S1x64) zero_offsets']
  rw [pay5]
  obtain ⟨e0, e1, e2, e3, e4, e5⟩ := idx5 t
  refine funext fun (j : S10000x64.Idx) => ?_
  show leakyS (V c (Pipeline.arrRef spec5 0) (((cfg5.win 0).blk t).view.emb j))
      (V c (Pipeline.arrRef spec5 1) (((cfg5.win 1).blk t).view.emb (ix2 (0 : Fin 1) (j 1))))
    = leakyS (V c (Pipeline.arrRef spec5 0) (((cfg5.win 2).blk t).view.emb j))
      (V c (Pipeline.arrRef spec5 1) (ix2 (0 : Fin 1) ((((cfg5.win 2).blk t).view.emb j) 1)))
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb (ix2 (0 : Fin 1) (j 1)) = ix2 (0 : Fin 1) ((((cfg5.win 2).blk t).view.emb j) 1) := by
    funext a; apply Fin.ext
    match a with
    | ⟨0, _⟩ => show win5_1.index t (0 : Fin 2) * 1 + 1 * 0 = 0; omega
    | ⟨1, _⟩ => show win5_1.index t (1 : Fin 2) * 64 + 1 * (j 1).val = win5_2.index t (1 : Fin 2) * 64 + 1 * (j 1).val; omega
  exact congrArg₂ (fun x y : Elt F .f32 => leakyS x y)
    (congrArg (V c (Pipeline.arrRef spec5 0)) h0) (congrArg (V c (Pipeline.arrRef spec5 1)) h1)

/-- An index of the array is in point t's block iff each coordinate is in the block's range. -/
theorem mem_blk5 (t : Fin cfg5.N) (i : S100000x64.Idx) :
    i ∈ ((cfg5.win 2).blk t).view.set ↔ ∀ a : Fin 2, win5_2.index t a * S10000x64.size a ≤ (i a).val
      ∧ (i a).val < win5_2.index t a * S10000x64.size a + S10000x64.size a := by
  show i ∈ ((View.whole main_v63).slice (win5_2.rect t)).set ↔ _
  rw [View.set_slice_whole, Rect.mem_set_unit]
  exact Iff.rfl

/-- Row r lies in the block of point r / 10000: the 10 blocks cover the array. -/
theorem cover5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 10 := N_5
  let t : Fin cfg5.N := ⟨(i 0).val / 10000, by rw [hN]; omega⟩
  obtain ⟨e0, e1, e2, e3, e4, e5⟩ := idx5 t
  have ht : t.val = (i 0).val / 10000 := rfl
  refine ⟨t, flush5_2 t, ?_⟩
  rw [mem_blk5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- After region 5 the output array is the biased and leaky-rectified array of the two inputs as the region finds them. -/
theorem arr5 (c : Dev nD) : (dat5 V c).arrAt 2 cfg5.N
    = leakyG (V c (Pipeline.arrRef spec5 0)) (V c (Pipeline.arrRef spec5 1)) :=
  (dat5 V c).arrAt_eq_of_cover 2 _ (fun t _ => flushed5 V c t) cover5

/-! ## Region 8: the rows of block t are rows 10000 t … 10000 t + 9999 of the array; the bias block is the whole bias array -/

/-- The block's payload at an index: the element with its column's bias. -/
theorem pay8 (x0 : Vec F S10000x64 .f32) (x1 : Vec F S1x64 .f32) :
    k8_pay1 x0 x1 = fun j => leakyS (x0 j) (x1 (ix2 (0 : Fin 1) (j 1))) := by
  funext j
  unfold k8_pay1
  simp only [shapeCast_self]
  simp only [select, cmpf, addf, mulf, maximumf, broadcast]
  rw [bias_at x1 j]

/-- The three index maps over the grid: the input's row block moves with the output's, which is
    the grid point itself; the bias block index and every column block index are zero. -/
theorem idx8 : ∀ t : Fin cfg8.N, win8_0.index t (0 : Fin 2) = win8_2.index t (0 : Fin 2)
    ∧ win8_0.index t (1 : Fin 2) = win8_2.index t (1 : Fin 2)
    ∧ win8_1.index t (0 : Fin 2) = 0
    ∧ win8_1.index t (1 : Fin 2) = 0
    ∧ win8_2.index t (0 : Fin 2) = t.val
    ∧ win8_2.index t (1 : Fin 2) = 0 :=
  (by decide +kernel : ∀ t : Fin grid8.N, _)

set_option maxHeartbeats 1000000 in
/-- What point t writes back is block t of the biased and leaky-rectified array. -/
theorem flushed8 (c : Dev nD) (t : Fin cfg8.N) :
    (dat8 V c).flushed 2 t = ((cfg8.win 2).blk t).view.read (Elt F)
      (leakyG (V c (Pipeline.arrRef spec8 0)) (V c (Pipeline.arrRef spec8 1))) := by
  show (cfg8.win 2).cut (grid8.coords t) ((dat8 V c).after 2 t) = _
  rw [after8_2]
  unfold out8_2
  rw [View.canon_unit_zero zero_offsets']
  simp only [View.ld_unit_zero (S := S10000x64) zero_offsets', View.ld_unit_zero (S := S1x64) zero_offsets']
  rw [pay8]
  obtain ⟨e0, e1, e2, e3, e4, e5⟩ := idx8 t
  refine funext fun (j : S10000x64.Idx) => ?_
  show leakyS (V c (Pipeline.arrRef spec8 0) (((cfg8.win 0).blk t).view.emb j))
      (V c (Pipeline.arrRef spec8 1) (((cfg8.win 1).blk t).view.emb (ix2 (0 : Fin 1) (j 1))))
    = leakyS (V c (Pipeline.arrRef spec8 0) (((cfg8.win 2).blk t).view.emb j))
      (V c (Pipeline.arrRef spec8 1) (ix2 (0 : Fin 1) ((((cfg8.win 2).blk t).view.emb j) 1)))
  have h0 : ((cfg8.win 0).blk t).view.emb j = ((cfg8.win 2).blk t).view.emb j := by
    funext a; apply Fin.ext
    match a with
    | ⟨0, _⟩ => show win8_0.index t (0 : Fin 2) * 10000 + 1 * (j 0).val = win8_2.index t (0 : Fin 2) * 10000 + 1 * (j 0).val; omega
    | ⟨1, _⟩ => show win8_0.index t (1 : Fin 2) * 64 + 1 * (j 1).val = win8_2.index t (1 : Fin 2) * 64 + 1 * (j 1).val; omega
  have h1 : ((cfg8.win 1).blk t).view.emb (ix2 (0 : Fin 1) (j 1)) = ix2 (0 : Fin 1) ((((cfg8.win 2).blk t).view.emb j) 1) := by
    funext a; apply Fin.ext
    match a with
    | ⟨0, _⟩ => show win8_1.index t (0 : Fin 2) * 1 + 1 * 0 = 0; omega
    | ⟨1, _⟩ => show win8_1.index t (1 : Fin 2) * 64 + 1 * (j 1).val = win8_2.index t (1 : Fin 2) * 64 + 1 * (j 1).val; omega
  exact congrArg₂ (fun x y : Elt F .f32 => leakyS x y)
    (congrArg (V c (Pipeline.arrRef spec8 0)) h0) (congrArg (V c (Pipeline.arrRef spec8 1)) h1)

/-- An index of the array is in point t's block iff each coordinate is in the block's range. -/
theorem mem_blk8 (t : Fin cfg8.N) (i : S100000x64.Idx) :
    i ∈ ((cfg8.win 2).blk t).view.set ↔ ∀ a : Fin 2, win8_2.index t a * S10000x64.size a ≤ (i a).val
      ∧ (i a).val < win8_2.index t a * S10000x64.size a + S10000x64.size a := by
  show i ∈ ((View.whole main_v77).slice (win8_2.rect t)).set ↔ _
  rw [View.set_slice_whole, Rect.mem_set_unit]
  exact Iff.rfl

/-- Row r lies in the block of point r / 10000: the 10 blocks cover the array. -/
theorem cover8 (i : S100000x64.Idx) :
    ∃ t : Fin cfg8.N, (cfg8.win 2).flush t = true ∧ i ∈ ((cfg8.win 2).blk t).view.set := by
  have hi0 : (i 0).val < 100000 := (i 0).isLt
  have hi1 : (i 1).val < 64 := (i 1).isLt
  have hN : cfg8.N = 10 := N_8
  let t : Fin cfg8.N := ⟨(i 0).val / 10000, by rw [hN]; omega⟩
  obtain ⟨e0, e1, e2, e3, e4, e5⟩ := idx8 t
  have ht : t.val = (i 0).val / 10000 := rfl
  refine ⟨t, flush8_2 t, ?_⟩
  rw [mem_blk8]
  intro a
  match a with
  | ⟨0, _⟩ => show win8_2.index t (0 : Fin 2) * 10000 ≤ (i 0).val ∧ (i 0).val < win8_2.index t (0 : Fin 2) * 10000 + 10000; omega
  | ⟨1, _⟩ => show win8_2.index t (1 : Fin 2) * 64 ≤ (i 1).val ∧ (i 1).val < win8_2.index t (1 : Fin 2) * 64 + 64; omega

/-- After region 8 the output array is the biased and leaky-rectified array of the two inputs as the region finds them. -/
theorem arr8 (c : Dev nD) : (dat8 V c).arrAt 2 cfg8.N
    = leakyG (V c (Pipeline.arrRef spec8 0)) (V c (Pipeline.arrRef spec8 1)) :=
  (dat8 V c).arrAt_eq_of_cover 2 _ (fun t _ => flushed8 V c t) cover8

/-! ## Region 11: the rows of block t are rows 10000 t … 10000 t + 9999 of the array; the bias block is the whole bias array -/

/-- The block's payload at an index: the element with its column's bias. -/
theorem pay11 (x0 : Vec F S10000x64 .f32) (x1 : Vec F S1x64 .f32) :
    k11_pay1 x0 x1 = fun j => reluS (x0 j) (x1 (ix2 (0 : Fin 1) (j 1))) := by
  funext j
  unfold k11_pay1
  simp only [shapeCast_self]
  simp only [select, cmpf, addf, mulf, maximumf, broadcast]
  rw [bias_at x1 j]

/-- The three index maps over the grid: the input's row block moves with the output's, which is
    the grid point itself; the bias block index and every column block index are zero. -/
theorem idx11 : ∀ t : Fin cfg11.N, win11_0.index t (0 : Fin 2) = win11_2.index t (0 : Fin 2)
    ∧ win11_0.index t (1 : Fin 2) = win11_2.index t (1 : Fin 2)
    ∧ win11_1.index t (0 : Fin 2) = 0
    ∧ win11_1.index t (1 : Fin 2) = 0
    ∧ win11_2.index t (0 : Fin 2) = t.val
    ∧ win11_2.index t (1 : Fin 2) = 0 :=
  (by decide +kernel : ∀ t : Fin grid11.N, _)

set_option maxHeartbeats 1000000 in
/-- What point t writes back is block t of the biased and rectified array. -/
theorem flushed11 (c : Dev nD) (t : Fin cfg11.N) :
    (dat11 V c).flushed 2 t = ((cfg11.win 2).blk t).view.read (Elt F)
      (reluG (V c (Pipeline.arrRef spec11 0)) (V c (Pipeline.arrRef spec11 1))) := by
  show (cfg11.win 2).cut (grid11.coords t) ((dat11 V c).after 2 t) = _
  rw [after11_2]
  unfold out11_2
  rw [View.canon_unit_zero zero_offsets']
  simp only [View.ld_unit_zero (S := S10000x64) zero_offsets', View.ld_unit_zero (S := S1x64) zero_offsets']
  rw [pay11]
  obtain ⟨e0, e1, e2, e3, e4, e5⟩ := idx11 t
  refine funext fun (j : S10000x64.Idx) => ?_
  show reluS (V c (Pipeline.arrRef spec11 0) (((cfg11.win 0).blk t).view.emb j))
      (V c (Pipeline.arrRef spec11 1) (((cfg11.win 1).blk t).view.emb (ix2 (0 : Fin 1) (j 1))))
    = reluS (V c (Pipeline.arrRef spec11 0) (((cfg11.win 2).blk t).view.emb j))
      (V c (Pipeline.arrRef spec11 1) (ix2 (0 : Fin 1) ((((cfg11.win 2).blk t).view.emb j) 1)))
  have h0 : ((cfg11.win 0).blk t).view.emb j = ((cfg11.win 2).blk t).view.emb j := by
    funext a; apply Fin.ext
    match a with
    | ⟨0, _⟩ => show win11_0.index t (0 : Fin 2) * 10000 + 1 * (j 0).val = win11_2.index t (0 : Fin 2) * 10000 + 1 * (j 0).val; omega
    | ⟨1, _⟩ => show win11_0.index t (1 : Fin 2) * 64 + 1 * (j 1).val = win11_2.index t (1 : Fin 2) * 64 + 1 * (j 1).val; omega
  have h1 : ((cfg11.win 1).blk t).view.emb (ix2 (0 : Fin 1) (j 1)) = ix2 (0 : Fin 1) ((((cfg11.win 2).blk t).view.emb j) 1) := by
    funext a; apply Fin.ext
    match a with
    | ⟨0, _⟩ => show win11_1.index t (0 : Fin 2) * 1 + 1 * 0 = 0; omega
    | ⟨1, _⟩ => show win11_1.index t (1 : Fin 2) * 64 + 1 * (j 1).val = win11_2.index t (1 : Fin 2) * 64 + 1 * (j 1).val; omega
  exact congrArg₂ (fun x y : Elt F .f32 => reluS x y)
    (congrArg (V c (Pipeline.arrRef spec11 0)) h0) (congrArg (V c (Pipeline.arrRef spec11 1)) h1)

/-- An index of the array is in point t's block iff each coordinate is in the block's range. -/
theorem mem_blk11 (t : Fin cfg11.N) (i : S100000x64.Idx) :
    i ∈ ((cfg11.win 2).blk t).view.set ↔ ∀ a : Fin 2, win11_2.index t a * S10000x64.size a ≤ (i a).val
      ∧ (i a).val < win11_2.index t a * S10000x64.size a + S10000x64.size a := by
  show i ∈ ((View.whole main_v91).slice (win11_2.rect t)).set ↔ _
  rw [View.set_slice_whole, Rect.mem_set_unit]
  exact Iff.rfl

/-- Row r lies in the block of point r / 10000: the 10 blocks cover the array. -/
theorem cover11 (i : S100000x64.Idx) :
    ∃ t : Fin cfg11.N, (cfg11.win 2).flush t = true ∧ i ∈ ((cfg11.win 2).blk t).view.set := by
  have hi0 : (i 0).val < 100000 := (i 0).isLt
  have hi1 : (i 1).val < 64 := (i 1).isLt
  have hN : cfg11.N = 10 := N_11
  let t : Fin cfg11.N := ⟨(i 0).val / 10000, by rw [hN]; omega⟩
  obtain ⟨e0, e1, e2, e3, e4, e5⟩ := idx11 t
  have ht : t.val = (i 0).val / 10000 := rfl
  refine ⟨t, flush11_2 t, ?_⟩
  rw [mem_blk11]
  intro a
  match a with
  | ⟨0, _⟩ => show win11_2.index t (0 : Fin 2) * 10000 ≤ (i 0).val ∧ (i 0).val < win11_2.index t (0 : Fin 2) * 10000 + 10000; omega
  | ⟨1, _⟩ => show win11_2.index t (1 : Fin 2) * 64 ≤ (i 1).val ∧ (i 1).val < win11_2.index t (1 : Fin 2) * 64 + 64; omega

/-- After region 11 the output array is the biased and rectified array of the two inputs as the region finds them. -/
theorem arr11 (c : Dev nD) : (dat11 V c).arrAt 2 cfg11.N
    = reluG (V c (Pipeline.arrRef spec11 0)) (V c (Pipeline.arrRef spec11 1)) :=
  (dat11 V c).arrAt_eq_of_cover 2 _ (fun t _ => flushed11 V c t) cover11

end Cert.KernelIdeal.Regions

end
-- ==== Proof.KOut.lean ====
/-
  The idealized kernel program's result as one function of its thirteen argument arrays, written over the whole-array
  functions of the kernel regions (the dense product, the normalisation, the two activations, the pool body) and the
  host operations between them (gather along sources, scatter-add into destinations, reshapes of the biases).
-/
import proofs.«143214_j32667521254002_2_alg».proof.Proof.KHost
import proofs.«143214_j32667521254002_2_alg».proof.Proof.GcnSpec
import proofs.«143214_j32667521254002_2_alg».proof.Proof.RegNormalize
import proofs.«143214_j32667521254002_2_alg».proof.Proof.RegBiasAct

set_option maxRecDepth 16384

noncomputable section

namespace Cert.KernelIdeal.KFold

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.GcnSpec
open Cert.ReferenceIdeal (RefRun.srcIdx RefRun.dstIdx RefRun.deg RefRun.dinv RefRun.col RefRun.wrapIdx RefRun.cnt RefRun.normE)

/-- One layer's aggregation of per-node rows `p`: gather along the edges' sources, scale every edge's row by the
    edge's normalisation factor, add into the edges' destinations. -/
def aggK (e : CI S2x3200000) (p : CF S100000x64) : CF S100000x64 :=
  scatK (RefRun.dstIdx (F := Ideal) e) (Regions.nrmG (F := Ideal) (gathK p (RefRun.srcIdx (F := Ideal) e)) (shapeCast S3300000x1 (RefRun.normE (F := Ideal) e) shapeCasts_S3300000_S3300000x1))

/-- The idealized kernel program's result, from its thirteen argument arrays. -/
def outK (x : CF S100000x12) (e : CI S2x3200000) (bi : CI S100000) (W0 : CF S12x64) (b0 : CF S64) (W1 : CF S64x64) (b1 : CF S64)
    (W2 : CF S64x64) (b2 : CF S64) (W3 : CF S64x64) (b3 : CF S64) (Wfc : CF S64x1) (bfc : CF S1) : CF S512x1 :=
  k12_pay1 (F := Ideal)
    (scat512K bi (Regions.reluG (F := Ideal) (aggK e (mmG (R := 100000) (K := 64) (C := 64)
      (Regions.leakyG (F := Ideal) (aggK e (mmG (R := 100000) (K := 64) (C := 64)
        (Regions.leakyG (F := Ideal) (aggK e (mmG (R := 100000) (K := 64) (C := 64)
          (Regions.leakyG (F := Ideal) (aggK e (mmG (R := 100000) (K := 12) (C := 64) x W0)) (rs64 b0)) W1)) (rs64 b1)) W2)) (rs64 b2)) W3)) (rs64 b3)))
    (shapeCast S512x1 (RefRun.cnt (F := Ideal) bi) shapeCasts_S512_S512x1) Wfc (rs1 bfc)

end Cert.KernelIdeal.KFold

end
-- ==== Proof.RegMatmul.lean ====
/-
  The four dense products of the network, each computed by a kernel region block by block: the region's grid has ten
  points, point t multiplies rows 10000·t … 10000·t + 9999 of the left array by the whole weight array and writes the
  result to the same rows of the output.  Each written block is the restriction of ONE whole-array function, the
  product of the two arrays the region finds, and the ten blocks cover the output; so the output array ends as that
  product.
-/
import proofs.«143214_j32667521254002_2_alg».proof.Proof.Gen.KernelIdeal.Frame
import proofs.«143214_j32667521254002_2_alg».proof.Proof.GcnSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Regions

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GcnSpec

theorem hz2 : (![0, 0] : Fin 2 → Nat) = fun _ => 0 := funext fun a => by fin_cases a <;> rfl

/-! ## Region 0: a block of 10000 rows of a [100000, 12] array times the whole [12, 64] weight array -/

theorem lhs0_0 (j : S10000x64.Idx) (k : dot_S10000x12_S12x64_S10000x64_1_0_0_1_n_n.contr.Idx) : ((dot_S10000x12_S12x64_S10000x64_1_0_0_1_n_n.lhsIdx j k 0 : Fin _) : ℕ) = j 0 := by
  simp [DotDims.lhsIdx, dot_S10000x12_S12x64_S10000x64_1_0_0_1_n_n]; rfl
theorem lhs0_1 (j : S10000x64.Idx) (k : dot_S10000x12_S12x64_S10000x64_1_0_0_1_n_n.contr.Idx) : ((dot_S10000x12_S12x64_S10000x64_1_0_0_1_n_n.lhsIdx j k 1 : Fin _) : ℕ) = k ⟨0, by decide⟩ := by
  simp [DotDims.lhsIdx, dot_S10000x12_S12x64_S10000x64_1_0_0_1_n_n]; rfl
theorem rhs0_0 (j : S10000x64.Idx) (k : dot_S10000x12_S12x64_S10000x64_1_0_0_1_n_n.contr.Idx) : ((dot_S10000x12_S12x64_S10000x64_1_0_0_1_n_n.rhsIdx j k 0 : Fin _) : ℕ) = k ⟨0, by decide⟩ := by
  simp [DotDims.rhsIdx, dot_S10000x12_S12x64_S10000x64_1_0_0_1_n_n]; rfl
theorem rhs0_1 (j : S10000x64.Idx) (k : dot_S10000x12_S12x64_S10000x64_1_0_0_1_n_n.contr.Idx) : ((dot_S10000x12_S12x64_S10000x64_1_0_0_1_n_n.rhsIdx j k 1 : Fin _) : ℕ) = j 1 := by
  simp [DotDims.rhsIdx, dot_S10000x12_S12x64_S10000x64_1_0_0_1_n_n]; rfl

/-- The body's product of a row block with the weights, read at an entry of the block: when the block's rows are rows
    `off + r` of the whole array `x` and the weight block is the whole of `w`, the entry is the entry of the whole
    product at the row the output block puts it at.  The conversion to the narrow format is the identity on the
    extended reals and the accumulator the product is added to is zero. -/
theorem mm_block0 (x : S100000x12.Idx → Elt Ideal .f32) (w : S12x64.Idx → Elt Ideal .f32)
    (e0 : S10000x12.Idx → S100000x12.Idx) (e1 : S12x64.Idx → S12x64.Idx) (e2 : S10000x64.Idx → S100000x64.Idx) (off : Nat)
    (h0r : ∀ y, ((e0 y) 0).val = off + (y 0).val) (h0c : ∀ y, ((e0 y) 1).val = (y 1).val)
    (h1r : ∀ y, ((e1 y) 0).val = (y 0).val) (h1c : ∀ y, ((e1 y) 1).val = (y 1).val)
    (h2r : ∀ y, ((e2 y) 0).val = off + (y 0).val) (h2c : ∀ y, ((e2 y) 1).val = (y 1).val) (j : S10000x64.Idx) :
    k0_pay1 (F := Ideal) (fun y => x (e0 y)) (fun y => w (e1 y)) j = mmG (R := 100000) (K := 12) (C := 64) x w (e2 j) := by
  unfold k0_pay1
  refine (Ideal.matmul_constant_zero_apply dot_S10000x12_S12x64_S10000x64_1_0_0_1_n_n none _ _ j).trans ?_
  unfold mmG
  rw [← Equiv.sum_comp (contrEquiv1 dot_S10000x12_S12x64_S10000x64_1_0_0_1_n_n 12 rfl rfl).symm]
  refine Finset.sum_congr rfl fun k _ => ?_
  show x (e0 (dot_S10000x12_S12x64_S10000x64_1_0_0_1_n_n.lhsIdx j ((contrEquiv1 dot_S10000x12_S12x64_S10000x64_1_0_0_1_n_n 12 rfl rfl).symm k))) * w (e1 (dot_S10000x12_S12x64_S10000x64_1_0_0_1_n_n.rhsIdx j ((contrEquiv1 dot_S10000x12_S12x64_S10000x64_1_0_0_1_n_n 12 rfl rfl).symm k))) = _
  congr 1
  · congr 1; funext a; apply Fin.ext
    match a with
    | ⟨0, _⟩ => exact (h0r _).trans ((congrArg (fun n => off + n) (lhs0_0 j _)).trans (h2r j).symm)
    | ⟨1, _⟩ => exact (h0c _).trans ((lhs0_1 j _).trans (contrEquiv1_symm_val dot_S10000x12_S12x64_S10000x64_1_0_0_1_n_n 12 rfl rfl k))
  · congr 1; funext a; apply Fin.ext
    match a with
    | ⟨0, _⟩ => exact (h1r _).trans ((rhs0_0 j _).trans (contrEquiv1_symm_val dot_S10000x12_S12x64_S10000x64_1_0_0_1_n_n 12 rfl rfl k))
    | ⟨1, _⟩ => exact (h1c _).trans ((rhs0_1 j _).trans (h2c j).symm)

/-- The printed index maps over the grid: the row-block window and the output window move together, block `t` at
    point `t`; the weight window stays at its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the two arrays the region finds. -/
theorem flushed0_eq (V : (c : Dev nD) → (b : Ref sig .tc) → Buf (Elt Ideal) ((c : Thread nD τ).loc b)) (c : Dev nD) (t : Fin cfg0.N) :
    (dat0 V c).flushed 2 t = ((cfg0.win 2).blk t).view.read (Elt Ideal)
      (mmG (R := 100000) (K := 12) (C := 64) (V c (Pipeline.arrRef spec0 0)) (V c (Pipeline.arrRef spec0 1))) := by
  show (cfg0.win 2).cut (grid0.coords t) ((dat0 V c).after 2 t) = _
  rw [after0_2]
  unfold out0_2
  rw [View.canon_unit_zero hz2]
  simp only [View.ld_unit_zero (S := S10000x12) hz2, View.ld_unit_zero (S := S12x64) hz2]
  obtain ⟨e0, e1, e2, e3, e4, e5⟩ := idx_facts0 t
  funext j
  exact mm_block0 (V c (Pipeline.arrRef spec0 0)) (V c (Pipeline.arrRef spec0 1))
    ((cfg0.win 0).blk t).view.emb ((cfg0.win 1).blk t).view.emb ((cfg0.win 2).blk t).view.emb (t.val * 10000)
    (fun y => by show win0_0.index t (0 : Fin 2) * 10000 + 1 * (y 0).val = _; omega)
    (fun y => by show win0_0.index t (1 : Fin 2) * 12 + 1 * (y 1).val = _; omega)
    (fun y => by show win0_1.index t (0 : Fin 2) * 12 + 1 * (y 0).val = _; omega)
    (fun y => by show win0_1.index t (1 : Fin 2) * 64 + 1 * (y 1).val = _; omega)
    (fun y => by show win0_2.index t (0 : Fin 2) * 10000 + 1 * (y 0).val = _; omega)
    (fun y => by show win0_2.index t (1 : Fin 2) * 64 + 1 * (y 1).val = _; omega) j

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v36).slice (win0_2.rect t)).set ↔ _
  rw [View.set_slice_whole, Rect.mem_set_unit]
  exact Iff.rfl

/-- Every row lies in the block of the point numbered by its row divided by 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_2 _, ?_⟩
  rw [mem_blk0]
  obtain ⟨e0, e1, e2, e3, e4, e5⟩ := idx_facts0 ⟨(i 0).val / 10000, by rw [hN]; omega⟩
  intro a
  match a with
  | ⟨0, _⟩ => show win0_2.index _ (0 : Fin 2) * 10000 ≤ (i 0).val ∧ (i 0).val < win0_2.index _ (0 : Fin 2) * 10000 + 10000; rw [e4]; show (i 0).val / 10000 * 10000 ≤ (i 0).val ∧ (i 0).val < (i 0).val / 10000 * 10000 + 10000; omega
  | ⟨1, _⟩ => show win0_2.index _ (1 : Fin 2) * 64 ≤ (i 1).val ∧ (i 1).val < win0_2.index _ (1 : Fin 2) * 64 + 64; rw [e5]; omega

/-- The region's output array, once every point has written back, is the whole product. -/
theorem arr0 (V : (c : Dev nD) → (b : Ref sig .tc) → Buf (Elt Ideal) ((c : Thread nD τ).loc b)) (c : Dev nD) :
    (dat0 V c).arrAt 2 cfg0.N = mmG (R := 100000) (K := 12) (C := 64) (V c (Pipeline.arrRef spec0 0)) (V c (Pipeline.arrRef spec0 1)) :=
  (dat0 V c).arrAt_eq_of_cover 2 _ (fun t _ => flushed0_eq V c t) (cover0)

/-! ## Region 3: a block of 10000 rows of a [100000, 64] array times the whole [64, 64] weight array -/

theorem lhs3_0 (j : S10000x64.Idx) (k : dot_S10000x64_S64x64_S10000x64_1_0_0_1_n_n.contr.Idx) : ((dot_S10000x64_S64x64_S10000x64_1_0_0_1_n_n.lhsIdx j k 0 : Fin _) : ℕ) = j 0 := by
  simp [DotDims.lhsIdx, dot_S10000x64_S64x64_S10000x64_1_0_0_1_n_n]; rfl
theorem lhs3_1 (j : S10000x64.Idx) (k : dot_S10000x64_S64x64_S10000x64_1_0_0_1_n_n.contr.Idx) : ((dot_S10000x64_S64x64_S10000x64_1_0_0_1_n_n.lhsIdx j k 1 : Fin _) : ℕ) = k ⟨0, by decide⟩ := by
  simp [DotDims.lhsIdx, dot_S10000x64_S64x64_S10000x64_1_0_0_1_n_n]; rfl
theorem rhs3_0 (j : S10000x64.Idx) (k : dot_S10000x64_S64x64_S10000x64_1_0_0_1_n_n.contr.Idx) : ((dot_S10000x64_S64x64_S10000x64_1_0_0_1_n_n.rhsIdx j k 0 : Fin _) : ℕ) = k ⟨0, by decide⟩ := by
  simp [DotDims.rhsIdx, dot_S10000x64_S64x64_S10000x64_1_0_0_1_n_n]; rfl
theorem rhs3_1 (j : S10000x64.Idx) (k : dot_S10000x64_S64x64_S10000x64_1_0_0_1_n_n.contr.Idx) : ((dot_S10000x64_S64x64_S10000x64_1_0_0_1_n_n.rhsIdx j k 1 : Fin _) : ℕ) = j 1 := by
  simp [DotDims.rhsIdx, dot_S10000x64_S64x64_S10000x64_1_0_0_1_n_n]; rfl

/-- The body's product of a row block with the weights, read at an entry of the block: when the block's rows are rows
    `off + r` of the whole array `x` and the weight block is the whole of `w`, the entry is the entry of the whole
    product at the row the output block puts it at.  The conversion to the narrow format is the identity on the
    extended reals and the accumulator the product is added to is zero. -/
theorem mm_block3 (x : S100000x64.Idx → Elt Ideal .f32) (w : S64x64.Idx → Elt Ideal .f32)
    (e0 : S10000x64.Idx → S100000x64.Idx) (e1 : S64x64.Idx → S64x64.Idx) (e2 : S10000x64.Idx → S100000x64.Idx) (off : Nat)
    (h0r : ∀ y, ((e0 y) 0).val = off + (y 0).val) (h0c : ∀ y, ((e0 y) 1).val = (y 1).val)
    (h1r : ∀ y, ((e1 y) 0).val = (y 0).val) (h1c : ∀ y, ((e1 y) 1).val = (y 1).val)
    (h2r : ∀ y, ((e2 y) 0).val = off + (y 0).val) (h2c : ∀ y, ((e2 y) 1).val = (y 1).val) (j : S10000x64.Idx) :
    k3_pay1 (F := Ideal) (fun y => x (e0 y)) (fun y => w (e1 y)) j = mmG (R := 100000) (K := 64) (C := 64) x w (e2 j) := by
  unfold k3_pay1
  rw [shapeCast_self]
  refine (Ideal.matmul_constant_zero_apply dot_S10000x64_S64x64_S10000x64_1_0_0_1_n_n none _ _ j).trans ?_
  unfold mmG
  rw [← Equiv.sum_comp (contrEquiv1 dot_S10000x64_S64x64_S10000x64_1_0_0_1_n_n 64 rfl rfl).symm]
  refine Finset.sum_congr rfl fun k _ => ?_
  show x (e0 (dot_S10000x64_S64x64_S10000x64_1_0_0_1_n_n.lhsIdx j ((contrEquiv1 dot_S10000x64_S64x64_S10000x64_1_0_0_1_n_n 64 rfl rfl).symm k))) * w (e1 (dot_S10000x64_S64x64_S10000x64_1_0_0_1_n_n.rhsIdx j ((contrEquiv1 dot_S10000x64_S64x64_S10000x64_1_0_0_1_n_n 64 rfl rfl).symm k))) = _
  congr 1
  · congr 1; funext a; apply Fin.ext
    match a with
    | ⟨0, _⟩ => exact (h0r _).trans ((congrArg (fun n => off + n) (lhs3_0 j _)).trans (h2r j).symm)
    | ⟨1, _⟩ => exact (h0c _).trans ((lhs3_1 j _).trans (contrEquiv1_symm_val dot_S10000x64_S64x64_S10000x64_1_0_0_1_n_n 64 rfl rfl k))
  · congr 1; funext a; apply Fin.ext
    match a with
    | ⟨0, _⟩ => exact (h1r _).trans ((rhs3_0 j _).trans (contrEquiv1_symm_val dot_S10000x64_S64x64_S10000x64_1_0_0_1_n_n 64 rfl rfl k))
    | ⟨1, _⟩ => exact (h1c _).trans ((rhs3_1 j _).trans (h2c j).symm)

/-- The printed index maps over the grid: the row-block window and the output window move together, block `t` at
    point `t`; the weight window stays at its one block. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole product of the two arrays the region finds. -/
theorem flushed3_eq (V : (c : Dev nD) → (b : Ref sig .tc) → Buf (Elt Ideal) ((c : Thread nD τ).loc b)) (c : Dev nD) (t : Fin cfg3.N) :
    (dat3 V c).flushed 2 t = ((cfg3.win 2).blk t).view.read (Elt Ideal)
      (mmG (R := 100000) (K := 64) (C := 64) (V c (Pipeline.arrRef spec3 0)) (V c (Pipeline.arrRef spec3 1))) := by
  show (cfg3.win 2).cut (grid3.coords t) ((dat3 V c).after 2 t) = _
  rw [after3_2]
  unfold out3_2
  rw [View.canon_unit_zero hz2]
  simp only [View.ld_unit_zero (S := S10000x64) hz2, View.ld_unit_zero (S := S64x64) hz2]
  obtain ⟨e0, e1, e2, e3, e4, e5⟩ := idx_facts3 t
  funext j
  exact mm_block3 (V c (Pipeline.arrRef spec3 0)) (V c (Pipeline.arrRef spec3 1))
    ((cfg3.win 0).blk t).view.emb ((cfg3.win 1).blk t).view.emb ((cfg3.win 2).blk t).view.emb (t.val * 10000)
    (fun y => by show win3_0.index t (0 : Fin 2) * 10000 + 1 * (y 0).val = _; omega)
    (fun y => by show win3_0.index t (1 : Fin 2) * 64 + 1 * (y 1).val = _; omega)
    (fun y => by show win3_1.index t (0 : Fin 2) * 64 + 1 * (y 0).val = _; omega)
    (fun y => by show win3_1.index t (1 : Fin 2) * 64 + 1 * (y 1).val = _; omega)
    (fun y => by show win3_2.index t (0 : Fin 2) * 10000 + 1 * (y 0).val = _; omega)
    (fun y => by show win3_2.index t (1 : Fin 2) * 64 + 1 * (y 1).val = _; omega) j

/-- An index of the output array is in point `t`'s block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v50).slice (win3_2.rect t)).set ↔ _
  rw [View.set_slice_whole, Rect.mem_set_unit]
  exact Iff.rfl

/-- Every row lies in the block of the point numbered by its row divided by 10000. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  refine ⟨⟨(i 0).val / 10000, by rw [hN]; omega⟩, flush3_2 _, ?_⟩
  rw [mem_blk3]
  obtain ⟨e0, e1, e2, e3, e4, e5⟩ := idx_facts3 ⟨(i 0).val / 10000, by rw [hN]; omega⟩
  intro a
  match a with
  | ⟨0, _⟩ => show win3_2.index _ (0 : Fin 2) * 10000 ≤ (i 0).val ∧ (i 0).val < win3_2.index _ (0 : Fin 2) * 10000 + 10000; rw [e4]; show (i 0).val / 10000 * 10000 ≤ (i 0).val ∧ (i 0).val < (i 0).val / 10000 * 10000 + 10000; omega
  | ⟨1, _⟩ => show win3_2.index _ (1 : Fin 2) * 64 ≤ (i 1).val ∧ (i 1).val < win3_2.index _ (1 : Fin 2) * 64 + 64; rw [e5]; omega

/-- The region's output array, once every point has written back, is the whole product. -/
theorem arr3 (V : (c : Dev nD) → (b : Ref sig .tc) → Buf (Elt Ideal) ((c : Thread nD τ).loc b)) (c : Dev nD) :
    (dat3 V c).arrAt 2 cfg3.N = mmG (R := 100000) (K := 64) (C := 64) (V c (Pipeline.arrRef spec3 0)) (V c (Pipeline.arrRef spec3 1)) :=
  (dat3 V c).arrAt_eq_of_cover 2 _ (fun t _ => flushed3_eq V c t) (cover3)

/-! ## Region 6: a block of 10000 rows of a [100000, 64] array times the whole [64, 64] weight array -/

theorem lhs6_0 (j : S10000x64.Idx) (k : dot_S10000x64_S64x64_S10000x64_1_0_0_1_n_n.contr.Idx) : ((dot_S10000x64_S64x64_S10000x64_1_0_0_1_n_n.lhsIdx j k 0 : Fin _) : ℕ) = j 0 := by
  simp [DotDims.lhsIdx, dot_S10000x64_S64x64_S10000x64_1_0_0_1_n_n]; rfl
theorem lhs6_1 (j : S10000x64.Idx) (k : dot_S10000x64_S64x64_S10000x64_1_0_0_1_n_n.contr.Idx) : ((dot_S10000x64_S64x64_S10000x64_1_0_0_1_n_n.lhsIdx j k 1 : Fin _) : ℕ) = k ⟨0, by decide⟩ := by
  simp [DotDims.lhsIdx, dot_S10000x64_S64x64_S10000x64_1_0_0_1_n_n]; rfl
theorem rhs6_0 (j : S10000x64.Idx) (k : dot_S10000x64_S64x64_S10000x64_1_0_0_1_n_n.contr.Idx) : ((dot_S10000x64_S64x64_S10000x64_1_0_0_1_n_n.rhsIdx j k 0 : Fin _) : ℕ) = k ⟨0, by decide⟩ := by
  simp [DotDims.rhsIdx, dot_S10000x64_S64x64_S10000x64_1_0_0_1_n_n]; rfl
theorem rhs6_1 (j : S10000x64.Idx) (k : dot_S10000x64_S64x64_S10000x64_1_0_0_1_n_n.contr.Idx) : ((dot_S10000x64_S64x64_S10000x64_1_0_0_1_n_n.rhsIdx j k 1 : Fin _) : ℕ) = j 1 := by
  simp [DotDims.rhsIdx, dot_S10000x64_S64x64_S10000x64_1_0_0_1_n_n]; rfl

/-- The body's product of a row block with the weights, read at an entry of the block: when the block's rows are rows
    `off + r` of the whole array `x` and the weight block is the whole of `w`, the entry is the entry of the whole
    product at the row the output block puts it at.  The conversion to the narrow format is the identity on the
    extended reals and the accumulator the product is added to is zero. -/
theorem mm_block6 (x : S100000x64.Idx → Elt Ideal .f32) (w : S64x64.Idx → Elt Ideal .f32)
    (e0 : S10000x64.Idx → S100000x64.Idx) (e1 : S64x64.Idx → S64x64.Idx) (e2 : S10000x64.Idx → S100000x64.Idx) (off : Nat)
    (h0r : ∀ y, ((e0 y) 0).val = off + (y 0).val) (h0c : ∀ y, ((e0 y) 1).val = (y 1).val)
    (h1r : ∀ y, ((e1 y) 0).val = (y 0).val) (h1c : ∀ y, ((e1 y) 1).val = (y 1).val)
    (h2r : ∀ y, ((e2 y) 0).val = off + (y 0).val) (h2c : ∀ y, ((e2 y) 1).val = (y 1).val) (j : S10000x64.Idx) :
    k6_pay1 (F := Ideal) (fun y => x (e0 y)) (fun y => w (e1 y)) j = mmG (R := 100000) (K := 64) (C := 64) x w (e2 j) := by
  unfold k6_pay1
  rw [shapeCast_self]
  refine (Ideal.matmul_constant_zero_apply dot_S10000x64_S64x64_S10000x64_1_0_0_1_n_n none _ _ j).trans ?_
  unfold mmG
  rw [← Equiv.sum_comp (contrEquiv1 dot_S10000x64_S64x64_S10000x64_1_0_0_1_n_n 64 rfl rfl).symm]
  refine Finset.sum_congr rfl fun k _ => ?_
  show x (e0 (dot_S10000x64_S64x64_S10000x64_1_0_0_1_n_n.lhsIdx j ((contrEquiv1 dot_S10000x64_S64x64_S10000x64_1_0_0_1_n_n 64 rfl rfl).symm k))) * w (e1 (dot_S10000x64_S64x64_S10000x64_1_0_0_1_n_n.rhsIdx j ((contrEquiv1 dot_S10000x64_S64x64_S10000x64_1_0_0_1_n_n 64 rfl rfl).symm k))) = _
  congr 1
  · congr 1; funext a; apply Fin.ext
    match a with
    | ⟨0, _⟩ => exact (h0r _).trans ((congrArg (fun n => off + n) (lhs6_0 j _)).trans (h2r j).symm)
    | ⟨1, _⟩ => exact (h0c _).trans ((lhs6_1 j _).trans (contrEquiv1_symm_val dot_S10000x64_S64x64_S10000x64_1_0_0_1_n_n 64 rfl rfl k))
  · congr 1; funext a; apply Fin.ext
    match a with
    | ⟨0, _⟩ => exact (h1r _).trans ((rhs6_0 j _).trans (contrEquiv1_symm_val dot_S10000x64_S64x64_S10000x64_1_0_0_1_n_n 64 rfl rfl k))
    | ⟨1, _⟩ => exact (h1c _).trans ((rhs6_1 j _).trans (h2c j).symm)

/-- The printed index maps over the grid: the row-block window and the output window move together, block `t` at
    point `t`; the weight window stays at its one block. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point `t` writes back is block `t` of the whole product of the two arrays the region finds. -/
theorem flushed6_eq (V : (c : Dev nD) → (b : Ref sig .tc) → Buf (Elt Ideal) ((c : Thread nD τ).loc b)) (c : Dev nD) (t : Fin cfg6.N) :
    (dat6 V c).flushed 2 t = ((cfg6.win 2).blk t).view.read (Elt Ideal)
      (mmG (R := 100000) (K := 64) (C := 64) (V c (Pipeline.arrRef spec6 0)) (V c (Pipeline.arrRef spec6 1))) := by
  show (cfg6.win 2).cut (grid6.coords t) ((dat6 V c).after 2 t) = _
  rw [after6_2]
  unfold out6_2
  rw [View.canon_unit_zero hz2]
  simp only [View.ld_unit_zero (S := S10000x64) hz2, View.ld_unit_zero (S := S64x64) hz2]
  obtain ⟨e0, e1, e2, e3, e4, e5⟩ := idx_facts6 t
  funext j
  exact mm_block6 (V c (Pipeline.arrRef spec6 0)) (V c (Pipeline.arrRef spec6 1))
    ((cfg6.win 0).blk t).view.emb ((cfg6.win 1).blk t).view.emb ((cfg6.win 2).blk t).view.emb (t.val * 10000)
    (fun y => by show win6_0.index t (0 : Fin 2) * 10000 + 1 * (y 0).val = _; omega)
    (fun y => by show win6_0.index t (1 : Fin 2) * 64 + 1 * (y 1).val = _; omega)
    (fun y => by show win6_1.index t (0 : Fin 2) * 64 + 1 * (y 0).val = _; omega)
    (fun y => by show win6_1.index t (1 : Fin 2) * 64 + 1 * (y 1).val = _; omega)
    (fun y => by show win6_2.index t (0 : Fin 2) * 10000 + 1 * (y 0).val = _; omega)
    (fun y => by show win6_2.index t (1 : Fin 2) * 64 + 1 * (y 1).val = _; omega) j

/-- An index of the output array is in point `t`'s block iff each coordinate is in the block's range on its axis. -/
theorem mem_blk6 (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v64).slice (win6_2.rect t)).set ↔ _
  rw [View.set_slice_whole, Rect.mem_set_unit]
  exact Iff.rfl

/-- Every row lies in the block of the point numbered by its row divided by 10000. -/
theorem cover6 (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  have hN : cfg6.N = 10 := N_6
  refine ⟨⟨(i 0).val / 10000, by rw [hN]; omega⟩, flush6_2 _, ?_⟩
  rw [mem_blk6]
  obtain ⟨e0, e1, e2, e3, e4, e5⟩ := idx_facts6 ⟨(i 0).val / 10000, by rw [hN]; omega⟩
  intro a
  match a with
  | ⟨0, _⟩ => show win6_2.index _ (0 : Fin 2) * 10000 ≤ (i 0).val ∧ (i 0).val < win6_2.index _ (0 : Fin 2) * 10000 + 10000; rw [e4]; show (i 0).val / 10000 * 10000 ≤ (i 0).val ∧ (i 0).val < (i 0).val / 10000 * 10000 + 10000; omega
  | ⟨1, _⟩ => show win6_2.index _ (1 : Fin 2) * 64 ≤ (i 1).val ∧ (i 1).val < win6_2.index _ (1 : Fin 2) * 64 + 64; rw [e5]; omega

/-- The region's output array, once every point has written back, is the whole product. -/
theorem arr6 (V : (c : Dev nD) → (b : Ref sig .tc) → Buf (Elt Ideal) ((c : Thread nD τ).loc b)) (c : Dev nD) :
    (dat6 V c).arrAt 2 cfg6.N = mmG (R := 100000) (K := 64) (C := 64) (V c (Pipeline.arrRef spec6 0)) (V c (Pipeline.arrRef spec6 1)) :=
  (dat6 V c).arrAt_eq_of_cover 2 _ (fun t _ => flushed6_eq V c t) (cover6)

/-! ## Region 9: a block of 10000 rows of a [100000, 64] array times the whole [64, 64] weight array -/

theorem lhs9_0 (j : S10000x64.Idx) (k : dot_S10000x64_S64x64_S10000x64_1_0_0_1_n_n.contr.Idx) : ((dot_S10000x64_S64x64_S10000x64_1_0_0_1_n_n.lhsIdx j k 0 : Fin _) : ℕ) = j 0 := by
  simp [DotDims.lhsIdx, dot_S10000x64_S64x64_S10000x64_1_0_0_1_n_n]; rfl
theorem lhs9_1 (j : S10000x64.Idx) (k : dot_S10000x64_S64x64_S10000x64_1_0_0_1_n_n.contr.Idx) : ((dot_S10000x64_S64x64_S10000x64_1_0_0_1_n_n.lhsIdx j k 1 : Fin _) : ℕ) = k ⟨0, by decide⟩ := by
  simp [DotDims.lhsIdx, dot_S10000x64_S64x64_S10000x64_1_0_0_1_n_n]; rfl
theorem rhs9_0 (j : S10000x64.Idx) (k : dot_S10000x64_S64x64_S10000x64_1_0_0_1_n_n.contr.Idx) : ((dot_S10000x64_S64x64_S10000x64_1_0_0_1_n_n.rhsIdx j k 0 : Fin _) : ℕ) = k ⟨0, by decide⟩ := by
  simp [DotDims.rhsIdx, dot_S10000x64_S64x64_S10000x64_1_0_0_1_n_n]; rfl
theorem rhs9_1 (j : S10000x64.Idx) (k : dot_S10000x64_S64x64_S10000x64_1_0_0_1_n_n.contr.Idx) : ((dot_S10000x64_S64x64_S10000x64_1_0_0_1_n_n.rhsIdx j k 1 : Fin _) : ℕ) = j 1 := by
  simp [DotDims.rhsIdx, dot_S10000x64_S64x64_S10000x64_1_0_0_1_n_n]; rfl

/-- The body's product of a row block with the weights, read at an entry of the block: when the block's rows are rows
    `off + r` of the whole array `x` and the weight block is the whole of `w`, the entry is the entry of the whole
    product at the row the output block puts it at.  The conversion to the narrow format is the identity on the
    extended reals and the accumulator the product is added to is zero. -/
theorem mm_block9 (x : S100000x64.Idx → Elt Ideal .f32) (w : S64x64.Idx → Elt Ideal .f32)
    (e0 : S10000x64.Idx → S100000x64.Idx) (e1 : S64x64.Idx → S64x64.Idx) (e2 : S10000x64.Idx → S100000x64.Idx) (off : Nat)
    (h0r : ∀ y, ((e0 y) 0).val = off + (y 0).val) (h0c : ∀ y, ((e0 y) 1).val = (y 1).val)
    (h1r : ∀ y, ((e1 y) 0).val = (y 0).val) (h1c : ∀ y, ((e1 y) 1).val = (y 1).val)
    (h2r : ∀ y, ((e2 y) 0).val = off + (y 0).val) (h2c : ∀ y, ((e2 y) 1).val = (y 1).val) (j : S10000x64.Idx) :
    k9_pay1 (F := Ideal) (fun y => x (e0 y)) (fun y => w (e1 y)) j = mmG (R := 100000) (K := 64) (C := 64) x w (e2 j) := by
  unfold k9_pay1
  rw [shapeCast_self]
  refine (Ideal.matmul_constant_zero_apply dot_S10000x64_S64x64_S10000x64_1_0_0_1_n_n none _ _ j).trans ?_
  unfold mmG
  rw [← Equiv.sum_comp (contrEquiv1 dot_S10000x64_S64x64_S10000x64_1_0_0_1_n_n 64 rfl rfl).symm]
  refine Finset.sum_congr rfl fun k _ => ?_
  show x (e0 (dot_S10000x64_S64x64_S10000x64_1_0_0_1_n_n.lhsIdx j ((contrEquiv1 dot_S10000x64_S64x64_S10000x64_1_0_0_1_n_n 64 rfl rfl).symm k))) * w (e1 (dot_S10000x64_S64x64_S10000x64_1_0_0_1_n_n.rhsIdx j ((contrEquiv1 dot_S10000x64_S64x64_S10000x64_1_0_0_1_n_n 64 rfl rfl).symm k))) = _
  congr 1
  · congr 1; funext a; apply Fin.ext
    match a with
    | ⟨0, _⟩ => exact (h0r _).trans ((congrArg (fun n => off + n) (lhs9_0 j _)).trans (h2r j).symm)
    | ⟨1, _⟩ => exact (h0c _).trans ((lhs9_1 j _).trans (contrEquiv1_symm_val dot_S10000x64_S64x64_S10000x64_1_0_0_1_n_n 64 rfl rfl k))
  · congr 1; funext a; apply Fin.ext
    match a with
    | ⟨0, _⟩ => exact (h1r _).trans ((rhs9_0 j _).trans (contrEquiv1_symm_val dot_S10000x64_S64x64_S10000x64_1_0_0_1_n_n 64 rfl rfl k))
    | ⟨1, _⟩ => exact (h1c _).trans ((rhs9_1 j _).trans (h2c j).symm)

/-- The printed index maps over the grid: the row-block window and the output window move together, block `t` at
    point `t`; the weight window stays at its one block. -/
theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- What point `t` writes back is block `t` of the whole product of the two arrays the region finds. -/
theorem flushed9_eq (V : (c : Dev nD) → (b : Ref sig .tc) → Buf (Elt Ideal) ((c : Thread nD τ).loc b)) (c : Dev nD) (t : Fin cfg9.N) :
    (dat9 V c).flushed 2 t = ((cfg9.win 2).blk t).view.read (Elt Ideal)
      (mmG (R := 100000) (K := 64) (C := 64) (V c (Pipeline.arrRef spec9 0)) (V c (Pipeline.arrRef spec9 1))) := by
  show (cfg9.win 2).cut (grid9.coords t) ((dat9 V c).after 2 t) = _
  rw [after9_2]
  unfold out9_2
  rw [View.canon_unit_zero hz2]
  simp only [View.ld_unit_zero (S := S10000x64) hz2, View.ld_unit_zero (S := S64x64) hz2]
  obtain ⟨e0, e1, e2, e3, e4, e5⟩ := idx_facts9 t
  funext j
  exact mm_block9 (V c (Pipeline.arrRef spec9 0)) (V c (Pipeline.arrRef spec9 1))
    ((cfg9.win 0).blk t).view.emb ((cfg9.win 1).blk t).view.emb ((cfg9.win 2).blk t).view.emb (t.val * 10000)
    (fun y => by show win9_0.index t (0 : Fin 2) * 10000 + 1 * (y 0).val = _; omega)
    (fun y => by show win9_0.index t (1 : Fin 2) * 64 + 1 * (y 1).val = _; omega)
    (fun y => by show win9_1.index t (0 : Fin 2) * 64 + 1 * (y 0).val = _; omega)
    (fun y => by show win9_1.index t (1 : Fin 2) * 64 + 1 * (y 1).val = _; omega)
    (fun y => by show win9_2.index t (0 : Fin 2) * 10000 + 1 * (y 0).val = _; omega)
    (fun y => by show win9_2.index t (1 : Fin 2) * 64 + 1 * (y 1).val = _; omega) j

/-- An index of the output array is in point `t`'s block iff each coordinate is in the block's range on its axis. -/
theorem mem_blk9 (t : Fin cfg9.N) (i : S100000x64.Idx) :
    i ∈ ((cfg9.win 2).blk t).view.set ↔ ∀ a : Fin 2, win9_2.index t a * S10000x64.size a ≤ (i a).val ∧ (i a).val < win9_2.index t a * S10000x64.size a + S10000x64.size a := by
  show i ∈ ((View.whole main_v78).slice (win9_2.rect t)).set ↔ _
  rw [View.set_slice_whole, Rect.mem_set_unit]
  exact Iff.rfl

/-- Every row lies in the block of the point numbered by its row divided by 10000. -/
theorem cover9 (i : S100000x64.Idx) : ∃ t : Fin cfg9.N, (cfg9.win 2).flush t = true ∧ i ∈ ((cfg9.win 2).blk t).view.set := by
  have hi0 : (i 0).val < 100000 := (i 0).isLt
  have hi1 : (i 1).val < 64 := (i 1).isLt
  have hN : cfg9.N = 10 := N_9
  refine ⟨⟨(i 0).val / 10000, by rw [hN]; omega⟩, flush9_2 _, ?_⟩
  rw [mem_blk9]
  obtain ⟨e0, e1, e2, e3, e4, e5⟩ := idx_facts9 ⟨(i 0).val / 10000, by rw [hN]; omega⟩
  intro a
  match a with
  | ⟨0, _⟩ => show win9_2.index _ (0 : Fin 2) * 10000 ≤ (i 0).val ∧ (i 0).val < win9_2.index _ (0 : Fin 2) * 10000 + 10000; rw [e4]; show (i 0).val / 10000 * 10000 ≤ (i 0).val ∧ (i 0).val < (i 0).val / 10000 * 10000 + 10000; omega
  | ⟨1, _⟩ => show win9_2.index _ (1 : Fin 2) * 64 ≤ (i 1).val ∧ (i 1).val < win9_2.index _ (1 : Fin 2) * 64 + 64; rw [e5]; omega

/-- The region's output array, once every point has written back, is the whole product. -/
theorem arr9 (V : (c : Dev nD) → (b : Ref sig .tc) → Buf (Elt Ideal) ((c : Thread nD τ).loc b)) (c : Dev nD) :
    (dat9 V c).arrAt 2 cfg9.N = mmG (R := 100000) (K := 64) (C := 64) (V c (Pipeline.arrRef spec9 0)) (V c (Pipeline.arrRef spec9 1)) :=
  (dat9 V c).arrAt_eq_of_cover 2 _ (fun t _ => flushed9_eq V c t) (cover9)

end Cert.KernelIdeal.Regions

end
-- ==== Proof.RegPool.lean ====
/-
  The last region: the mean pool over graphs, the final linear map and the logistic function, in ONE grid point whose
  five windows are whole arrays.  Every window's one block is its whole array, so the block the point writes back is
  the body's function of the four whole input arrays, and it covers the output array.
-/
import proofs.«143214_j32667521254002_2_alg».proof.Proof.Gen.KernelIdeal.Frame
import Idealize.ShloMosaic.Lib.Pipeline.Value
import Idealize.ShloMosaic.Lib.ValueIdx

set_option maxRecDepth 16384

noncomputable section

open scoped BigOperators

namespace Cert.KernelIdeal.Regions

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

theorem hz2p : (![0, 0] : Fin 2 → Nat) = fun _ => 0 := funext fun a => by fin_cases a <;> rfl

/-- Every window of the region sits at its one block, block (0, 0). -/
theorem idx_facts12 : ∀ t : Fin cfg12.N, win12_0.index t (0 : Fin 2) = 0 ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0 :=
  (by decide +kernel : ∀ t : Fin grid12.N, _)

/-- The body's function of blocks that are the whole arrays read through identity index maps is its function of the
    arrays. -/
theorem pool_block (a0 : S512x64.Idx → Elt F .f32) (a1 : S512x1.Idx → Elt F .f32) (a2 : S64x1.Idx → Elt F .f32) (a3 : S1x1.Idx → Elt F .f32)
    (e0 : S512x64.Idx → S512x64.Idx) (e1 : S512x1.Idx → S512x1.Idx) (e2 : S64x1.Idx → S64x1.Idx) (e3 : S1x1.Idx → S1x1.Idx)
    (e4 : S512x1.Idx → S512x1.Idx) (h0 : ∀ y, e0 y = y) (h1 : ∀ y, e1 y = y) (h2 : ∀ y, e2 y = y) (h3 : ∀ y, e3 y = y) (h4 : ∀ y, e4 y = y)
    (j : S512x1.Idx) :
    k12_pay1 (fun y => a0 (e0 y)) (fun y => a1 (e1 y)) (fun y => a2 (e2 y)) (fun y => a3 (e3 y)) j = k12_pay1 a0 a1 a2 a3 (e4 j) := by
  have E0 : (fun y => a0 (e0 y)) = a0 := funext fun y => congrArg a0 (h0 y)
  have E1 : (fun y => a1 (e1 y)) = a1 := funext fun y => congrArg a1 (h1 y)
  have E2 : (fun y => a2 (e2 y)) = a2 := funext fun y => congrArg a2 (h2 y)
  have E3 : (fun y => a3 (e3 y)) = a3 := funext fun y => congrArg a3 (h3 y)
  rw [E0, E1, E2, E3, h4 j]

/-- What the one point writes back is the body's function of the four arrays the region finds. -/
theorem flushed12_eq (c : Dev nD) (t : Fin cfg12.N) :
    (dat12 V c).flushed 4 t = ((cfg12.win 4).blk t).view.read (Elt F)
      (k12_pay1 (V c (Pipeline.arrRef spec12 0)) (V c (Pipeline.arrRef spec12 1)) (V c (Pipeline.arrRef spec12 2)) (V c (Pipeline.arrRef spec12 3))) := by
  show (cfg12.win 4).cut (grid12.coords t) ((dat12 V c).after 4 t) = _
  rw [after12_4]
  unfold out12_4
  rw [View.canon_unit_zero hz2p]
  simp only [View.ld_unit_zero (S := S512x64) hz2p, View.ld_unit_zero (S := S512x1) hz2p, View.ld_unit_zero (S := S64x1) hz2p, View.ld_unit_zero (S := S1x1) hz2p]
  obtain ⟨e00, e01, e10, e11, e20, e21, e30, e31, e40, e41⟩ := idx_facts12 t
  funext j
  exact pool_block (V c (Pipeline.arrRef spec12 0)) (V c (Pipeline.arrRef spec12 1)) (V c (Pipeline.arrRef spec12 2)) (V c (Pipeline.arrRef spec12 3))
    ((cfg12.win 0).blk t).view.emb ((cfg12.win 1).blk t).view.emb ((cfg12.win 2).blk t).view.emb ((cfg12.win 3).blk t).view.emb ((cfg12.win 4).blk t).view.emb
    (fun y => funext fun a => Fin.ext (by
      match a with
      | ⟨0, _⟩ => show win12_0.index t (0 : Fin 2) * 512 + 1 * (y 0).val = (y 0).val; omega
      | ⟨1, _⟩ => show win12_0.index t (1 : Fin 2) * 64 + 1 * (y 1).val = (y 1).val; omega))
    (fun y => funext fun a => Fin.ext (by
      match a with
      | ⟨0, _⟩ => show win12_1.index t (0 : Fin 2) * 512 + 1 * (y 0).val = (y 0).val; omega
      | ⟨1, _⟩ => show win12_1.index t (1 : Fin 2) * 1 + 1 * (y 1).val = (y 1).val; omega))
    (fun y => funext fun a => Fin.ext (by
      match a with
      | ⟨0, _⟩ => show win12_2.index t (0 : Fin 2) * 64 + 1 * (y 0).val = (y 0).val; omega
      | ⟨1, _⟩ => show win12_2.index t (1 : Fin 2) * 1 + 1 * (y 1).val = (y 1).val; omega))
    (fun y => funext fun a => Fin.ext (by
      match a with
      | ⟨0, _⟩ => show win12_3.index t (0 : Fin 2) * 1 + 1 * (y 0).val = (y 0).val; omega
      | ⟨1, _⟩ => show win12_3.index t (1 : Fin 2) * 1 + 1 * (y 1).val = (y 1).val; omega))
    (fun y => funext fun a => Fin.ext (by
      match a with
      | ⟨0, _⟩ => show win12_4.index t (0 : Fin 2) * 512 + 1 * (y 0).val = (y 0).val; omega
      | ⟨1, _⟩ => show win12_4.index t (1 : Fin 2) * 1 + 1 * (y 1).val = (y 1).val; omega)) j

/-- An index of the output array is in the point's block iff each coordinate is in the block's range on its axis. -/
theorem mem_blk12 (t : Fin cfg12.N) (i : S512x1.Idx) :
    i ∈ ((cfg12.win 4).blk t).view.set ↔ ∀ a : Fin 2, win12_4.index t a * S512x1.size a ≤ (i a).val ∧ (i a).val < win12_4.index t a * S512x1.size a + S512x1.size a := by
  show i ∈ ((View.whole main_v96).slice (win12_4.rect t)).set ↔ _
  rw [View.set_slice_whole, Rect.mem_set_unit]
  exact Iff.rfl

/-- The one block is the whole output array. -/
theorem cover12 (i : S512x1.Idx) : ∃ t : Fin cfg12.N, (cfg12.win 4).flush t = true ∧ i ∈ ((cfg12.win 4).blk t).view.set := by
  have hi0 : (i 0).val < 512 := (i 0).isLt
  have hi1 : (i 1).val < 1 := (i 1).isLt
  have hN : cfg12.N = 1 := N_12
  refine ⟨⟨0, by rw [hN]; omega⟩, flush12_4 _, ?_⟩
  rw [mem_blk12]
  obtain ⟨e00, e01, e10, e11, e20, e21, e30, e31, e40, e41⟩ := idx_facts12 ⟨0, by rw [hN]; omega⟩
  intro a
  match a with
  | ⟨0, _⟩ => show win12_4.index _ (0 : Fin 2) * 512 ≤ (i 0).val ∧ (i 0).val < win12_4.index _ (0 : Fin 2) * 512 + 512; rw [e40]; omega
  | ⟨1, _⟩ => show win12_4.index _ (1 : Fin 2) * 1 ≤ (i 1).val ∧ (i 1).val < win12_4.index _ (1 : Fin 2) * 1 + 1; rw [e41]; omega

/-- The region's output array ends as the body's function of the four arrays the region finds. -/
theorem arr12 (c : Dev nD) :
    (dat12 V c).arrAt 4 cfg12.N = k12_pay1 (V c (Pipeline.arrRef spec12 0)) (V c (Pipeline.arrRef spec12 1)) (V c (Pipeline.arrRef spec12 2)) (V c (Pipeline.arrRef spec12 3)) :=
  (dat12 V c).arrAt_eq_of_cover 4 _ (fun t _ => flushed12_eq V c t) (cover12)

end Cert.KernelIdeal.Regions

end
-- ==== Proof.KFold.lean ====
/-
  The idealized kernel program's result as ONE function of its argument arrays.  Walking the boundaries back from the
  return: the last region's output is the pool body's function of the scattered node rows, the per-graph counts, the
  last weights and bias; each activation region's output is its pointwise function of the scatter-add and the bias
  row; each normalisation region's output is the gathered rows times the normalisation column; each product region's
  output is the dense product of the previous layer's rows with the layer's weights.  The values the host stretches
  compute and the buffers they leave alone are read through the boundaries by the two preceding modules.
-/
import proofs.«143214_j32667521254002_2_alg».proof.Proof.KCarry
import proofs.«143214_j32667521254002_2_alg».proof.Proof.KHost
import proofs.«143214_j32667521254002_2_alg».proof.Proof.KOut
import proofs.«143214_j32667521254002_2_alg».proof.Proof.RegMatmul
import proofs.«143214_j32667521254002_2_alg».proof.Proof.RegNormalize
import proofs.«143214_j32667521254002_2_alg».proof.Proof.RegBiasAct
import proofs.«143214_j32667521254002_2_alg».proof.Proof.RegPool

set_option maxRecDepth 16384

noncomputable section

namespace Cert.KernelIdeal.KFold

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.GcnSpec
open Cert.ReferenceIdeal (RefRun.srcIdx RefRun.dstIdx RefRun.deg RefRun.dinv RefRun.col RefRun.wrapIdx RefRun.cnt RefRun.normE)

variable (m : (ℓ : Loc nD τ sig) → Buf (Elt Ideal) ℓ) (ρ : Dev nD → PrngReg) (c : Dev nD)

theorem keep_main_v5_3_1 : W3 m ρ c (Proc.devRef .tc main_v5) = W1 m ρ c (Proc.devRef .tc main_v5) :=
  calc W3 m ρ c (Proc.devRef .tc main_v5)
    _ = W2 m ρ c (Proc.devRef .tc main_v5) := by host_keep hostOps0_2
    _ = W1 m ρ c (Proc.devRef .tc main_v5) := by host_keep hostOps0_1

theorem keep_main_v6_3_1 : W3 m ρ c (Proc.devRef .tc main_v6) = W1 m ρ c (Proc.devRef .tc main_v6) :=
  calc W3 m ρ c (Proc.devRef .tc main_v6)
    _ = W2 m ρ c (Proc.devRef .tc main_v6) := by host_keep hostOps0_2
    _ = W1 m ρ c (Proc.devRef .tc main_v6) := by host_keep hostOps0_1

theorem keep_main_v5_2_1 : W2 m ρ c (Proc.devRef .tc main_v5) = W1 m ρ c (Proc.devRef .tc main_v5) :=
  calc W2 m ρ c (Proc.devRef .tc main_v5)
    _ = W1 m ρ c (Proc.devRef .tc main_v5) := by host_keep hostOps0_1

theorem keep_main_v6_2_1 : W2 m ρ c (Proc.devRef .tc main_v6) = W1 m ρ c (Proc.devRef .tc main_v6) :=
  calc W2 m ρ c (Proc.devRef .tc main_v6)
    _ = W1 m ρ c (Proc.devRef .tc main_v6) := by host_keep hostOps0_1

theorem keep_main_arg2_2_0 : W2 m ρ c (Proc.devRef .tc main_arg2) = W0 m ρ c (Proc.devRef .tc main_arg2) :=
  calc W2 m ρ c (Proc.devRef .tc main_arg2)
    _ = W1 m ρ c (Proc.devRef .tc main_arg2) := by host_keep hostOps0_1
    _ = W0 m ρ c (Proc.devRef .tc main_arg2) := by host_keep hostOps0

/-! ### Before the first region -/

theorem W1_main_v5 : W1 m ρ c (Proc.devRef .tc main_v5) = RefRun.srcIdx (F := Ideal) (W0 m ρ c (Proc.devRef .tc main_arg1)) := h0_v5 (W0 m ρ c)

theorem W1_main_v6 : W1 m ρ c (Proc.devRef .tc main_v6) = RefRun.dstIdx (F := Ideal) (W0 m ρ c (Proc.devRef .tc main_arg1)) := h0_v6 (W0 m ρ c)

theorem W1_main_v12 : W1 m ρ c (Proc.devRef .tc main_v12) = cmpf .ogt (RefRun.deg (F := Ideal) (W0 m ρ c (Proc.devRef .tc main_arg1))) (broadcastInDim S100000 ![] bcast_S_S100000 (constant (F := Ideal) S_ .f32 0x00000000#32)) := h0_v12 (W0 m ρ c)

theorem W1_main_v13 : W1 m ρ c (Proc.devRef .tc main_v13) = Host.rsqrt (F := Ideal) (φ := .f32) (RefRun.deg (F := Ideal) (W0 m ρ c (Proc.devRef .tc main_arg1))) := h0_v13 (W0 m ρ c)

theorem W1_main_cst_2 : W1 m ρ c (Proc.devRef .tc main_cst_2) = constant (F := Ideal) S_ .f32 0x00000000#32 := h0_cst2 (W0 m ρ c)

theorem W2_main_v14 : W2 m ρ c (Proc.devRef .tc main_v14) = select (W1 m ρ c (Proc.devRef .tc main_v12)) (W1 m ρ c (Proc.devRef .tc main_v13)) (broadcastInDim S100000 ![] bcast_S_S100000 (W1 m ρ c (Proc.devRef .tc main_cst_2))) := h01_v14 (W1 m ρ c)

theorem W3_main_v30 : W3 m ρ c (Proc.devRef .tc main_v30) = shapeCast S3300000x1 (mulf (F := Ideal) (φ := .f32) (Host.gather gather_S100000_S3300000x1_S3300000_n_0_n_n_0_1_1 (W2 m ρ c (Proc.devRef .tc main_v14)) (RefRun.col (RefRun.wrapIdx (F := Ideal) (W2 m ρ c (Proc.devRef .tc main_v5))))) (Host.gather gather_S100000_S3300000x1_S3300000_n_0_n_n_0_1_1 (W2 m ρ c (Proc.devRef .tc main_v14)) (RefRun.col (RefRun.wrapIdx (F := Ideal) (W2 m ρ c (Proc.devRef .tc main_v6)))))) shapeCasts_S3300000_S3300000x1 := h02_v30 (W2 m ρ c)

theorem W3_main_v35 : W3 m ρ c (Proc.devRef .tc main_v35) = shapeCast S512x1 (RefRun.cnt (F := Ideal) (W2 m ρ c (Proc.devRef .tc main_arg2))) shapeCasts_S512_S512x1 := h02_v35 (W2 m ρ c)

/-! ### Layer 1 -/

theorem W4_main_v36 : W4 m ρ c (Proc.devRef .tc main_v36) = mmG (R := 100000) (K := 12) (C := 64) (W3 m ρ c (Proc.devRef .tc main_arg0)) (W3 m ρ c (Proc.devRef .tc main_arg3)) :=
  (W4_arr m ρ c 2).trans (Regions.arr0 (V3 m ρ) c)

theorem W5_main_v43 : W5 m ρ c (Proc.devRef .tc main_v43) = gathK (W4 m ρ c (Proc.devRef .tc main_v36)) (W4 m ρ c (Proc.devRef .tc main_v5)) := h_main_v43 (W4 m ρ c)

theorem W6_main_v44 : W6 m ρ c (Proc.devRef .tc main_v44) = Regions.nrmG (F := Ideal) (W5 m ρ c (Proc.devRef .tc main_v43)) (W5 m ρ c (Proc.devRef .tc main_v30)) :=
  (W6_arr m ρ c 2).trans (Regions.arr1 (V5 m ρ) c)

theorem W7_main_v47 : W7 m ρ c (Proc.devRef .tc main_v47) = scatK (W6 m ρ c (Proc.devRef .tc main_v6)) (W6 m ρ c (Proc.devRef .tc main_v44)) := h_main_v47 (W6 m ρ c)

theorem W7_main_v48 : W7 m ρ c (Proc.devRef .tc main_v48) = rs64 (W6 m ρ c (Proc.devRef .tc main_arg4)) := h_main_v48 (W6 m ρ c)

theorem W8_main_v49 : W8 m ρ c (Proc.devRef .tc main_v49) = Regions.leakyG (F := Ideal) (W7 m ρ c (Proc.devRef .tc main_v47)) (W7 m ρ c (Proc.devRef .tc main_v48)) :=
  (W8_arr m ρ c 2).trans (Regions.arr2 (V7 m ρ) c)

/-! ### Layer 2 -/

theorem W9_main_v50 : W9 m ρ c (Proc.devRef .tc main_v50) = mmG (R := 100000) (K := 64) (C := 64) (W8 m ρ c (Proc.devRef .tc main_v49)) (W8 m ρ c (Proc.devRef .tc main_arg5)) :=
  (W9_arr m ρ c 2).trans (Regions.arr3 (V8 m ρ) c)

theorem W10_main_v57 : W10 m ρ c (Proc.devRef .tc main_v57) = gathK (W9 m ρ c (Proc.devRef .tc main_v50)) (W9 m ρ c (Proc.devRef .tc main_v5)) := h_main_v57 (W9 m ρ c)

theorem W11_main_v58 : W11 m ρ c (Proc.devRef .tc main_v58) = Regions.nrmG (F := Ideal) (W10 m ρ c (Proc.devRef .tc main_v57)) (W10 m ρ c (Proc.devRef .tc main_v30)) :=
  (W11_arr m ρ c 2).trans (Regions.arr4 (V10 m ρ) c)

theorem W12_main_v61 : W12 m ρ c (Proc.devRef .tc main_v61) = scatK (W11 m ρ c (Proc.devRef .tc main_v6)) (W11 m ρ c (Proc.devRef .tc main_v58)) := h_main_v61 (W11 m ρ c)

theorem W12_main_v62 : W12 m ρ c (Proc.devRef .tc main_v62) = rs64 (W11 m ρ c (Proc.devRef .tc main_arg6)) := h_main_v62 (W11 m ρ c)

theorem W13_main_v63 : W13 m ρ c (Proc.devRef .tc main_v63) = Regions.leakyG (F := Ideal) (W12 m ρ c (Proc.devRef .tc main_v61)) (W12 m ρ c (Proc.devRef .tc main_v62)) :=
  (W13_arr m ρ c 2).trans (Regions.arr5 (V12 m ρ) c)

/-! ### Layer 3 -/

theorem W14_main_v64 : W14 m ρ c (Proc.devRef .tc main_v64) = mmG (R := 100000) (K := 64) (C := 64) (W13 m ρ c (Proc.devRef .tc main_v63)) (W13 m ρ c (Proc.devRef .tc main_arg7)) :=
  (W14_arr m ρ c 2).trans (Regions.arr6 (V13 m ρ) c)

theorem W15_main_v71 : W15 m ρ c (Proc.devRef .tc main_v71) = gathK (W14 m ρ c (Proc.devRef .tc main_v64)) (W14 m ρ c (Proc.devRef .tc main_v5)) := h_main_v71 (W14 m ρ c)

theorem W16_main_v72 : W16 m ρ c (Proc.devRef .tc main_v72) = Regions.nrmG (F := Ideal) (W15 m ρ c (Proc.devRef .tc main_v71)) (W15 m ρ c (Proc.devRef .tc main_v30)) :=
  (W16_arr m ρ c 2).trans (Regions.arr7 (V15 m ρ) c)

theorem W17_main_v75 : W17 m ρ c (Proc.devRef .tc main_v75) = scatK (W16 m ρ c (Proc.devRef .tc main_v6)) (W16 m ρ c (Proc.devRef .tc main_v72)) := h_main_v75 (W16 m ρ c)

theorem W17_main_v76 : W17 m ρ c (Proc.devRef .tc main_v76) = rs64 (W16 m ρ c (Proc.devRef .tc main_arg8)) := h_main_v76 (W16 m ρ c)

theorem W18_main_v77 : W18 m ρ c (Proc.devRef .tc main_v77) = Regions.leakyG (F := Ideal) (W17 m ρ c (Proc.devRef .tc main_v75)) (W17 m ρ c (Proc.devRef .tc main_v76)) :=
  (W18_arr m ρ c 2).trans (Regions.arr8 (V17 m ρ) c)

/-! ### Layer 4 -/

theorem W19_main_v78 : W19 m ρ c (Proc.devRef .tc main_v78) = mmG (R := 100000) (K := 64) (C := 64) (W18 m ρ c (Proc.devRef .tc main_v77)) (W18 m ρ c (Proc.devRef .tc main_arg9)) :=
  (W19_arr m ρ c 2).trans (Regions.arr9 (V18 m ρ) c)

theorem W20_main_v85 : W20 m ρ c (Proc.devRef .tc main_v85) = gathK (W19 m ρ c (Proc.devRef .tc main_v78)) (W19 m ρ c (Proc.devRef .tc main_v5)) := h_main_v85 (W19 m ρ c)

theorem W21_main_v86 : W21 m ρ c (Proc.devRef .tc main_v86) = Regions.nrmG (F := Ideal) (W20 m ρ c (Proc.devRef .tc main_v85)) (W20 m ρ c (Proc.devRef .tc main_v30)) :=
  (W21_arr m ρ c 2).trans (Regions.arr10 (V20 m ρ) c)

theorem W22_main_v89 : W22 m ρ c (Proc.devRef .tc main_v89) = scatK (W21 m ρ c (Proc.devRef .tc main_v6)) (W21 m ρ c (Proc.devRef .tc main_v86)) := h_main_v89 (W21 m ρ c)

theorem W22_main_v90 : W22 m ρ c (Proc.devRef .tc main_v90) = rs64 (W21 m ρ c (Proc.devRef .tc main_arg10)) := h_main_v90 (W21 m ρ c)

theorem W23_main_v91 : W23 m ρ c (Proc.devRef .tc main_v91) = Regions.reluG (F := Ideal) (W22 m ρ c (Proc.devRef .tc main_v89)) (W22 m ρ c (Proc.devRef .tc main_v90)) :=
  (W23_arr m ρ c 2).trans (Regions.arr11 (V22 m ρ) c)

/-! ### The pool, the last linear map and the logistic function -/

theorem W24_main_v94 : W24 m ρ c (Proc.devRef .tc main_v94) = scat512K (W23 m ρ c (Proc.devRef .tc main_arg2)) (W23 m ρ c (Proc.devRef .tc main_v91)) := h_main_v94 (W23 m ρ c)

theorem W24_main_v95 : W24 m ρ c (Proc.devRef .tc main_v95) = rs1 (W23 m ρ c (Proc.devRef .tc main_arg12)) := h_main_v95 (W23 m ρ c)

theorem W25_main_v96 : W25 m ρ c (Proc.devRef .tc main_v96) = k12_pay1 (F := Ideal) (W24 m ρ c (Proc.devRef .tc main_v94)) (W24 m ρ c (Proc.devRef .tc main_v35)) (W24 m ρ c (Proc.devRef .tc main_arg11)) (W24 m ρ c (Proc.devRef .tc main_v95)) :=
  (W25_arr m ρ c 4).trans (Regions.arr12 (V24 m ρ) c)

/-! ### The whole function -/

/-- The contents of the result array at the last boundary are that function of the launch contents of the arguments. -/
theorem fold : W25 m ρ c (Proc.devRef .tc main_v96) = outK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) := by
  rw [W25_main_v96,
    W24_main_v94,
    W24_main_v95,
    keep_main_v35_24_3,
    keep_main_arg11_24_0,
    keep_main_arg2_23_0,
    keep_main_arg12_23_0,
    W23_main_v91,
    W22_main_v89,
    W22_main_v90,
    keep_main_v6_21_16,
    keep_main_arg10_21_0,
    W21_main_v86,
    W20_main_v85,
    keep_main_v30_20_15,
    W19_main_v78,
    keep_main_v5_19_14,
    keep_main_arg9_18_0,
    W18_main_v77,
    W17_main_v75,
    W17_main_v76,
    keep_main_v6_16_11,
    keep_main_arg8_16_0,
    W16_main_v72,
    W15_main_v71,
    keep_main_v30_15_10,
    W14_main_v64,
    keep_main_v5_14_9,
    keep_main_arg7_13_0,
    W13_main_v63,
    W12_main_v61,
    W12_main_v62,
    keep_main_v6_11_6,
    keep_main_arg6_11_0,
    W11_main_v58,
    W10_main_v57,
    keep_main_v30_10_5,
    W9_main_v50,
    keep_main_v5_9_4,
    keep_main_arg5_8_0,
    W8_main_v49,
    W7_main_v47,
    W7_main_v48,
    keep_main_v6_6_3,
    keep_main_arg4_6_0,
    W6_main_v44,
    W5_main_v43,
    keep_main_v30_5_3,
    W4_main_v36,
    keep_main_v5_4_3,
    keep_main_arg3_3_0,
    keep_main_arg0_3_0,
    W3_main_v30,
    W3_main_v35,
    keep_main_v5_3_1,
    keep_main_v6_3_1,
    keep_main_v5_2_1,
    keep_main_v6_2_1,
    W2_main_v14,
    W1_main_v12,
    W1_main_v13,
    W1_main_cst_2,
    W1_main_v5,
    W1_main_v6,
    keep_main_arg2_2_0]
  rfl

end Cert.KernelIdeal.KFold

end
-- ==== Proof.BridgeA.lean ====
/-
  The kernel's whole-array functions and the reference's stage functions are the same functions: the dense products
  as sums over the inner index, the scaling of each message by its edge's normalisation, and the read-out.
-/
import proofs.«143214_j32667521254002_2_alg».proof.Proof.Gen.ReferenceIdeal
import proofs.«143214_j32667521254002_2_alg».proof.Proof.Gen.KernelIdeal
import proofs.«143214_j32667521254002_2_alg».proof.Proof.Gen.KernelIdeal.Skeleton
import proofs.«143214_j32667521254002_2_alg».proof.Proof.GcnSpec
import proofs.«143214_j32667521254002_2_alg».proof.Proof.RefRun
import proofs.«143214_j32667521254002_2_alg».proof.Proof.RegNormalize
import Idealize.ShloMosaic.Lib.Pipeline.Value
import Idealize.ShloMosaic.Lib.ValueIdx
import Idealize.ShloMosaic.PureOps.Ideal
import Idealize.ShloMosaic.PureOps.Ideal.Laws
import Idealize.ShloMosaic.PureOps.IdealRules

set_option maxRecDepth 16384

noncomputable section

open scoped BigOperators

namespace Cert.Bridge

open Idealize.ShloMosaic Idealize.ShloMosaic.ValueIdx Cert.GcnSpec
open Cert.ReferenceIdeal.Gen Cert.KernelIdeal.Gen

/-! ## The dense product of a [100000, 12] array with a [12, 64] array -/

theorem lhs12_0 (j : Cert.ReferenceIdeal.S100000x64.Idx) (k : Cert.ReferenceIdeal.dot_S100000x12_S12x64_S100000x64_1_0_0_1_n_n.contr.Idx) : ((Cert.ReferenceIdeal.dot_S100000x12_S12x64_S100000x64_1_0_0_1_n_n.lhsIdx j k 0 : Fin _) : ℕ) = j 0 := by
  simp [DotDims.lhsIdx, Cert.ReferenceIdeal.dot_S100000x12_S12x64_S100000x64_1_0_0_1_n_n]; rfl
theorem lhs12_1 (j : Cert.ReferenceIdeal.S100000x64.Idx) (k : Cert.ReferenceIdeal.dot_S100000x12_S12x64_S100000x64_1_0_0_1_n_n.contr.Idx) : ((Cert.ReferenceIdeal.dot_S100000x12_S12x64_S100000x64_1_0_0_1_n_n.lhsIdx j k 1 : Fin _) : ℕ) = k ⟨0, by decide⟩ := by
  simp [DotDims.lhsIdx, Cert.ReferenceIdeal.dot_S100000x12_S12x64_S100000x64_1_0_0_1_n_n]; rfl
theorem rhs12_0 (j : Cert.ReferenceIdeal.S100000x64.Idx) (k : Cert.ReferenceIdeal.dot_S100000x12_S12x64_S100000x64_1_0_0_1_n_n.contr.Idx) : ((Cert.ReferenceIdeal.dot_S100000x12_S12x64_S100000x64_1_0_0_1_n_n.rhsIdx j k 0 : Fin _) : ℕ) = k ⟨0, by decide⟩ := by
  simp [DotDims.rhsIdx, Cert.ReferenceIdeal.dot_S100000x12_S12x64_S100000x64_1_0_0_1_n_n]; rfl
theorem rhs12_1 (j : Cert.ReferenceIdeal.S100000x64.Idx) (k : Cert.ReferenceIdeal.dot_S100000x12_S12x64_S100000x64_1_0_0_1_n_n.contr.Idx) : ((Cert.ReferenceIdeal.dot_S100000x12_S12x64_S100000x64_1_0_0_1_n_n.rhsIdx j k 1 : Fin _) : ℕ) = j 1 := by
  simp [DotDims.rhsIdx, Cert.ReferenceIdeal.dot_S100000x12_S12x64_S100000x64_1_0_0_1_n_n]; rfl

/-- The host's product read at an entry is the sum over the one contracted axis; renumbering that axis by its one
    coordinate gives the sum over the inner index. -/
theorem mm12_eq (x : Cert.ReferenceIdeal.S100000x12.Idx → Elt Ideal .f32) (w : Cert.ReferenceIdeal.S12x64.Idx → Elt Ideal .f32) :
    mmG (R := 100000) (K := 12) (C := 64) x w = Host.dotGeneral (F := Ideal) (φ₁ := .f32) (φ₂ := .f32) Cert.ReferenceIdeal.dot_S100000x12_S12x64_S100000x64_1_0_0_1_n_n none x w := by
  funext j
  symm
  simp only [Host.dotGeneral]
  refine (Ideal.dotGeneral_apply Cert.ReferenceIdeal.dot_S100000x12_S12x64_S100000x64_1_0_0_1_n_n none _ x w j).trans ?_
  unfold mmG
  rw [← Equiv.sum_comp (contrEquiv1 Cert.ReferenceIdeal.dot_S100000x12_S12x64_S100000x64_1_0_0_1_n_n 12 rfl rfl).symm]
  refine Finset.sum_congr rfl fun k _ => ?_
  show x (Cert.ReferenceIdeal.dot_S100000x12_S12x64_S100000x64_1_0_0_1_n_n.lhsIdx j ((contrEquiv1 Cert.ReferenceIdeal.dot_S100000x12_S12x64_S100000x64_1_0_0_1_n_n 12 rfl rfl).symm k)) * w (Cert.ReferenceIdeal.dot_S100000x12_S12x64_S100000x64_1_0_0_1_n_n.rhsIdx j ((contrEquiv1 Cert.ReferenceIdeal.dot_S100000x12_S12x64_S100000x64_1_0_0_1_n_n 12 rfl rfl).symm k)) = _
  congr 1
  · congr 1; funext a; apply Fin.ext
    match a with
    | ⟨0, _⟩ => exact lhs12_0 j _
    | ⟨1, _⟩ => exact (lhs12_1 j _).trans (contrEquiv1_symm_val Cert.ReferenceIdeal.dot_S100000x12_S12x64_S100000x64_1_0_0_1_n_n 12 rfl rfl k)
  · congr 1; funext a; apply Fin.ext
    match a with
    | ⟨0, _⟩ => exact (rhs12_0 j _).trans (contrEquiv1_symm_val Cert.ReferenceIdeal.dot_S100000x12_S12x64_S100000x64_1_0_0_1_n_n 12 rfl rfl k)
    | ⟨1, _⟩ => exact rhs12_1 j _

/-! ## The dense product of a [100000, 64] array with a [64, 64] array -/

theorem lhs64_0 (j : Cert.ReferenceIdeal.S100000x64.Idx) (k : Cert.ReferenceIdeal.dot_S100000x64_S64x64_S100000x64_1_0_0_1_n_n.contr.Idx) : ((Cert.ReferenceIdeal.dot_S100000x64_S64x64_S100000x64_1_0_0_1_n_n.lhsIdx j k 0 : Fin _) : ℕ) = j 0 := by
  simp [DotDims.lhsIdx, Cert.ReferenceIdeal.dot_S100000x64_S64x64_S100000x64_1_0_0_1_n_n]; rfl
theorem lhs64_1 (j : Cert.ReferenceIdeal.S100000x64.Idx) (k : Cert.ReferenceIdeal.dot_S100000x64_S64x64_S100000x64_1_0_0_1_n_n.contr.Idx) : ((Cert.ReferenceIdeal.dot_S100000x64_S64x64_S100000x64_1_0_0_1_n_n.lhsIdx j k 1 : Fin _) : ℕ) = k ⟨0, by decide⟩ := by
  simp [DotDims.lhsIdx, Cert.ReferenceIdeal.dot_S100000x64_S64x64_S100000x64_1_0_0_1_n_n]; rfl
theorem rhs64_0 (j : Cert.ReferenceIdeal.S100000x64.Idx) (k : Cert.ReferenceIdeal.dot_S100000x64_S64x64_S100000x64_1_0_0_1_n_n.contr.Idx) : ((Cert.ReferenceIdeal.dot_S100000x64_S64x64_S100000x64_1_0_0_1_n_n.rhsIdx j k 0 : Fin _) : ℕ) = k ⟨0, by decide⟩ := by
  simp [DotDims.rhsIdx, Cert.ReferenceIdeal.dot_S100000x64_S64x64_S100000x64_1_0_0_1_n_n]; rfl
theorem rhs64_1 (j : Cert.ReferenceIdeal.S100000x64.Idx) (k : Cert.ReferenceIdeal.dot_S100000x64_S64x64_S100000x64_1_0_0_1_n_n.contr.Idx) : ((Cert.ReferenceIdeal.dot_S100000x64_S64x64_S100000x64_1_0_0_1_n_n.rhsIdx j k 1 : Fin _) : ℕ) = j 1 := by
  simp [DotDims.rhsIdx, Cert.ReferenceIdeal.dot_S100000x64_S64x64_S100000x64_1_0_0_1_n_n]; rfl

/-- The host's product read at an entry is the sum over the one contracted axis; renumbering that axis by its one
    coordinate gives the sum over the inner index. -/
theorem mm64_eq (x : Cert.ReferenceIdeal.S100000x64.Idx → Elt Ideal .f32) (w : Cert.ReferenceIdeal.S64x64.Idx → Elt Ideal .f32) :
    mmG (R := 100000) (K := 64) (C := 64) x w = Host.dotGeneral (F := Ideal) (φ₁ := .f32) (φ₂ := .f32) Cert.ReferenceIdeal.dot_S100000x64_S64x64_S100000x64_1_0_0_1_n_n none x w := by
  funext j
  symm
  simp only [Host.dotGeneral]
  refine (Ideal.dotGeneral_apply Cert.ReferenceIdeal.dot_S100000x64_S64x64_S100000x64_1_0_0_1_n_n none _ x w j).trans ?_
  unfold mmG
  rw [← Equiv.sum_comp (contrEquiv1 Cert.ReferenceIdeal.dot_S100000x64_S64x64_S100000x64_1_0_0_1_n_n 64 rfl rfl).symm]
  refine Finset.sum_congr rfl fun k _ => ?_
  show x (Cert.ReferenceIdeal.dot_S100000x64_S64x64_S100000x64_1_0_0_1_n_n.lhsIdx j ((contrEquiv1 Cert.ReferenceIdeal.dot_S100000x64_S64x64_S100000x64_1_0_0_1_n_n 64 rfl rfl).symm k)) * w (Cert.ReferenceIdeal.dot_S100000x64_S64x64_S100000x64_1_0_0_1_n_n.rhsIdx j ((contrEquiv1 Cert.ReferenceIdeal.dot_S100000x64_S64x64_S100000x64_1_0_0_1_n_n 64 rfl rfl).symm k)) = _
  congr 1
  · congr 1; funext a; apply Fin.ext
    match a with
    | ⟨0, _⟩ => exact lhs64_0 j _
    | ⟨1, _⟩ => exact (lhs64_1 j _).trans (contrEquiv1_symm_val Cert.ReferenceIdeal.dot_S100000x64_S64x64_S100000x64_1_0_0_1_n_n 64 rfl rfl k)
  · congr 1; funext a; apply Fin.ext
    match a with
    | ⟨0, _⟩ => exact (rhs64_0 j _).trans (contrEquiv1_symm_val Cert.ReferenceIdeal.dot_S100000x64_S64x64_S100000x64_1_0_0_1_n_n 64 rfl rfl k)
    | ⟨1, _⟩ => exact rhs64_1 j _

/-! ## The messages scaled by the edges' normalisation -/

/-- Entry (r, c) of either side is the message's entry times the normalisation of edge r: on one side the vector is
    reshaped to one column and read at (r, 0), on the other it is broadcast to one column and then along the rows. -/
theorem nrm_eq (g : Cert.ReferenceIdeal.S3300000x64.Idx → Elt Ideal .f32) (n : Cert.ReferenceIdeal.S3300000.Idx → Elt Ideal .f32) :
    Cert.KernelIdeal.Regions.nrmG (F := Ideal) g (shapeCast Cert.KernelIdeal.S3300000x1 n Cert.KernelIdeal.Facts₀.shapeCasts_S3300000_S3300000x1)
      = mulf (F := Ideal) (φ := .f32) g (broadcastInDim Cert.ReferenceIdeal.S3300000x64 ![0, 1] Cert.ReferenceIdeal.Facts₀.bcast_S3300000x1_S3300000x64_0_1
          (broadcastInDim Cert.ReferenceIdeal.S3300000x1 ![0] Cert.ReferenceIdeal.Facts₀.bcast_S3300000_S3300000x1_0 n)) := by
  funext i
  unfold Cert.KernelIdeal.Regions.nrmG
  refine congrArg (FloatOps.mulf (F := Ideal) (φ := .f32) (g i)) ?_
  refine (shapeCast_apply (t := Cert.KernelIdeal.S3300000x1) n _ (ix2 (n0 := 3300000) (n1 := 1) (i 0) 0) (ix1 (n := 3300000) (i 0)) (by
    rw [Shape.rowMajor_val_one, Shape.rowMajor_val_two]
    show (i 0).val = (i 0).val * 1 + 0
    omega)).trans ?_
  refine Eq.symm ?_
  refine (broadcastInDim_apply (t := Cert.ReferenceIdeal.S3300000x64) ![0, 1] _ _ i (ix2 (n0 := 3300000) (n1 := 1) (i 0) 0) (fun a => by
    match a with
    | ⟨0, _⟩ => rfl
    | ⟨1, _⟩ => rfl)).trans ?_
  exact broadcastInDim_apply (t := Cert.ReferenceIdeal.S3300000x1) ![0] _ n (ix2 (n0 := 3300000) (n1 := 1) (i 0) 0) (ix1 (n := 3300000) (i 0)) (fun a => by
    match a with
    | ⟨0, _⟩ => rfl)

/-! ## The read-out -/

/-- The bit pattern of one denotes one. -/
theorem one_f32 : Ideal.ofBits .f32 0x3F800000#32 = 1 := IdealRules.sign_bit.ideal_onePat .f32

/-- The host's logistic expression `1 / (1 + exp (-z))`, read at an entry, is the logistic function of the entry. -/
theorem sigmoid_apply (z : Cert.ReferenceIdeal.S512x1.Idx → Elt Ideal .f32) (j : Cert.ReferenceIdeal.S512x1.Idx) :
    Cert.ReferenceIdeal.RefRun.sigmoid (F := Ideal) z j = FloatOps.logistic (F := Ideal) (φ := .f32) (z j) := by
  unfold Cert.ReferenceIdeal.RefRun.sigmoid
  show FloatOps.hostDivf (F := Ideal) (φ := .f32) (Ideal.ofBits .f32 0x3F800000#32)
      (FloatOps.addf (F := Ideal) (φ := .f32) (Ideal.ofBits .f32 0x3F800000#32) (FloatOps.hostUnary (F := Ideal) .exp (φ := .f32) (FloatOps.hostNegf (F := Ideal) (φ := .f32) (z j)))) = _
  rw [one_f32]
  rfl

/-- The divisor of the mean at entry (g, c): the larger of graph g's node count and one, on both sides. -/
theorem den_apply (cn : Cert.ReferenceIdeal.S512.Idx → Elt Ideal .f32) (i : Cert.ReferenceIdeal.S512x64.Idx) :
    broadcastTo Cert.KernelIdeal.S512x64
        (maximumf (F := Ideal) (φ := .f32) (shapeCast Cert.KernelIdeal.S512x1 cn Cert.KernelIdeal.Facts₀.shapeCasts_S512_S512x1)
          (broadcast Cert.KernelIdeal.S512x1 (Scalar.ofBits (F := Ideal) .f32 0x3F800000#32)))
        Cert.KernelIdeal.Facts₀.broadcasts_S512x1_S512x64 i
      = broadcastInDim Cert.ReferenceIdeal.S512x64 ![0, 1] Cert.ReferenceIdeal.Facts₀.bcast_S512x1_S512x64_0_1
          (broadcastInDim Cert.ReferenceIdeal.S512x1 ![0] Cert.ReferenceIdeal.Facts₀.bcast_S512_S512x1_0
            (maximumf (F := Ideal) (φ := .f32) cn
              (broadcastInDim Cert.ReferenceIdeal.S512 ![] Cert.ReferenceIdeal.Facts₀.bcast_S_S512 (constant (F := Ideal) Cert.ReferenceIdeal.S_ .f32 0x3F800000#32)))) i := by
  refine (broadcastTo_apply (t := Cert.KernelIdeal.S512x64) _ _ i (ix2 (n0 := 512) (n1 := 1) (i 0) 0) (fun a => by
    match a with
    | ⟨0, _⟩ => rfl
    | ⟨1, _⟩ => rfl)).trans ?_
  refine Eq.symm ?_
  refine (broadcastInDim_apply (t := Cert.ReferenceIdeal.S512x64) ![0, 1] _ _ i (ix2 (n0 := 512) (n1 := 1) (i 0) 0) (fun a => by
    match a with
    | ⟨0, _⟩ => rfl
    | ⟨1, _⟩ => rfl)).trans ?_
  refine (broadcastInDim_apply (t := Cert.ReferenceIdeal.S512x1) ![0] _ _ (ix2 (n0 := 512) (n1 := 1) (i 0) 0) (ix1 (n := 512) (i 0)) (fun a => by
    match a with
    | ⟨0, _⟩ => rfl)).trans ?_
  refine Eq.symm ?_
  show FloatOps.maximumf (F := Ideal) (φ := .f32) (shapeCast Cert.KernelIdeal.S512x1 cn _ (ix2 (n0 := 512) (n1 := 1) (i 0) 0)) _
    = FloatOps.maximumf (F := Ideal) (φ := .f32) (cn (ix1 (n := 512) (i 0))) _
  rw [shapeCast_apply (t := Cert.KernelIdeal.S512x1) cn _ (ix2 (n0 := 512) (n1 := 1) (i 0) 0) (ix1 (n := 512) (i 0)) (by
    rw [Shape.rowMajor_val_one, Shape.rowMajor_val_two]
    show (i 0).val = (i 0).val * 1 + 0
    omega)]
  rfl

/-- The bias at every entry is its one element, on both sides. -/
theorem bias_apply (bfc : Cert.ReferenceIdeal.S1.Idx → Elt Ideal .f32) (j : Cert.ReferenceIdeal.S512x1.Idx) :
    broadcastTo Cert.KernelIdeal.S512x1 (shapeCast Cert.KernelIdeal.S1x1 bfc Cert.KernelIdeal.Facts₀.shapeCasts_S1_S1x1)
        Cert.KernelIdeal.Facts₀.broadcasts_S1x1_S512x1 j
      = broadcastInDim Cert.ReferenceIdeal.S512x1 ![0, 1] Cert.ReferenceIdeal.Facts₀.bcast_S1x1_S512x1_0_1
          (broadcastInDim Cert.ReferenceIdeal.S1x1 ![1] Cert.ReferenceIdeal.Facts₀.bcast_S1_S1x1_1 bfc) j := by
  refine (broadcastTo_apply (t := Cert.KernelIdeal.S512x1) _ _ j (ix2 (n0 := 1) (n1 := 1) 0 0) (fun a => by
    match a with
    | ⟨0, _⟩ => rfl
    | ⟨1, _⟩ => rfl)).trans ?_
  refine Eq.symm ?_
  refine (broadcastInDim_apply (t := Cert.ReferenceIdeal.S512x1) ![0, 1] _ _ j (ix2 (n0 := 1) (n1 := 1) 0 0) (fun a => by
    match a with
    | ⟨0, _⟩ => rfl
    | ⟨1, _⟩ => rfl)).trans ?_
  refine (broadcastInDim_apply (t := Cert.ReferenceIdeal.S1x1) ![1] _ bfc (ix2 (n0 := 1) (n1 := 1) 0 0) (ix1 (n := 1) 0) (fun a => by
    match a with
    | ⟨0, _⟩ => rfl)).trans ?_
  refine Eq.symm ?_
  exact shapeCast_apply (t := Cert.KernelIdeal.S1x1) bfc _ (ix2 (n0 := 1) (n1 := 1) 0 0) (ix1 (n := 1) 0) (by
    rw [Shape.rowMajor_val_one, Shape.rowMajor_val_two]
    rfl)

/-- The kernel's and the reference's dimension records of the final product are the same record. -/
theorem dotfc_eq : Cert.KernelIdeal.dot_S512x64_S64x1_S512x1_1_0_0_1_n_n = Cert.ReferenceIdeal.dot_S512x64_S64x1_S512x1_1_0_0_1_n_n := rfl

/-- The last kernel body is the reference's read-out of the same sums and counts: the mean's divisor, the product
    with the final weights (a sum over the same contraction index on both sides, the conversions to the narrow
    format the identity on the extended reals and the accumulator zero), the bias and the logistic function agree
    entry by entry. -/
theorem pool_eq (s : Cert.ReferenceIdeal.S512x64.Idx → Elt Ideal .f32) (cn : Cert.ReferenceIdeal.S512.Idx → Elt Ideal .f32)
    (Wfc : Cert.ReferenceIdeal.S64x1.Idx → Elt Ideal .f32) (bfc : Cert.ReferenceIdeal.S1.Idx → Elt Ideal .f32) :
    Cert.KernelIdeal.Gen.k12_pay1 (F := Ideal) s (shapeCast Cert.KernelIdeal.S512x1 cn Cert.KernelIdeal.Facts₀.shapeCasts_S512_S512x1) Wfc
        (shapeCast Cert.KernelIdeal.S1x1 bfc Cert.KernelIdeal.Facts₀.shapeCasts_S1_S1x1)
      = Cert.ReferenceIdeal.RefRun.sigmoid (F := Ideal)
          (addf (F := Ideal) (φ := .f32)
            (Host.dotGeneral (F := Ideal) (φ₁ := .f32) (φ₂ := .f32) Cert.ReferenceIdeal.dot_S512x64_S64x1_S512x1_1_0_0_1_n_n none
              (Host.divf (F := Ideal) (φ := .f32) s
                (broadcastInDim Cert.ReferenceIdeal.S512x64 ![0, 1] Cert.ReferenceIdeal.Facts₀.bcast_S512x1_S512x64_0_1
                  (broadcastInDim Cert.ReferenceIdeal.S512x1 ![0] Cert.ReferenceIdeal.Facts₀.bcast_S512_S512x1_0
                    (maximumf (F := Ideal) (φ := .f32) cn
                      (broadcastInDim Cert.ReferenceIdeal.S512 ![] Cert.ReferenceIdeal.Facts₀.bcast_S_S512 (constant (F := Ideal) Cert.ReferenceIdeal.S_ .f32 0x3F800000#32))))))
              Wfc)
            (broadcastInDim Cert.ReferenceIdeal.S512x1 ![0, 1] Cert.ReferenceIdeal.Facts₀.bcast_S1x1_S512x1_0_1
              (broadcastInDim Cert.ReferenceIdeal.S1x1 ![1] Cert.ReferenceIdeal.Facts₀.bcast_S1_S1x1_1 bfc))) := by
  funext j
  rw [sigmoid_apply]
  unfold Cert.KernelIdeal.Gen.k12_pay1
  simp only [shapeCast_self]
  refine congrArg (FloatOps.logistic (F := Ideal) (φ := .f32)) ?_
  refine congrArg₂ (FloatOps.addf (F := Ideal) (φ := .f32)) ?_ (bias_apply bfc j)
  refine (Ideal.matmul_constant_zero_apply Cert.KernelIdeal.dot_S512x64_S64x1_S512x1_1_0_0_1_n_n none _ _ j).trans ?_
  simp only [Host.dotGeneral]
  refine Eq.trans ?_ (Ideal.dotGeneral_apply Cert.ReferenceIdeal.dot_S512x64_S64x1_S512x1_1_0_0_1_n_n none _ _ Wfc j).symm
  rw [dotfc_eq]
  refine Finset.sum_congr rfl fun k _ => ?_
  refine congrArg₂ (· * ·) ?_ rfl
  exact congrArg (FloatOps.divf (F := Ideal) (φ := .f32) (s _)) (den_apply cn _)

/-- The same with the sums and counts the reference computes them from: the last kernel body applied to the node
    features summed by graph and to the graphs' node counts is the reference's read-out stage. -/
theorem pool_stage_eq (bidx : Cert.ReferenceIdeal.S100000.Idx → Elt Ideal .i32) (h : Cert.ReferenceIdeal.S100000x64.Idx → Elt Ideal .f32)
    (Wfc : Cert.ReferenceIdeal.S64x1.Idx → Elt Ideal .f32) (bfc : Cert.ReferenceIdeal.S1.Idx → Elt Ideal .f32) :
    Cert.KernelIdeal.Gen.k12_pay1 (F := Ideal)
        (Host.scatterAdd (F := Ideal) Cert.ReferenceIdeal.scatter_S512x64_S100000x1_S100000x64_1_0_0_1
          (broadcastInDim Cert.ReferenceIdeal.S512x64 ![] Cert.ReferenceIdeal.Facts₀.bcast_S_S512x64 (constant (F := Ideal) Cert.ReferenceIdeal.S_ .f32 0x00000000#32))
          (Cert.ReferenceIdeal.RefRun.colB (F := Ideal) bidx) h)
        (shapeCast Cert.KernelIdeal.S512x1 (Cert.ReferenceIdeal.RefRun.cnt (F := Ideal) bidx) Cert.KernelIdeal.Facts₀.shapeCasts_S512_S512x1) Wfc
        (shapeCast Cert.KernelIdeal.S1x1 bfc Cert.KernelIdeal.Facts₀.shapeCasts_S1_S1x1)
      = Cert.ReferenceIdeal.RefRun.pool (F := Ideal) bidx h Wfc bfc :=
  pool_eq _ _ Wfc bfc

end Cert.Bridge

end
-- ==== Proof.BridgeB.lean ====
/-
  The kernel's bias-and-activation arrays and the reference's activation stages are the same functions: entry (r, c) of
  either side is the activation of a(r, c) + b(c). On the kernel's side the bias vector is reshaped to one row and read
  at (0, c); on the reference's it is broadcast to one row and then along the rows. The kernel's leaky rectifier selects
  on v > 0 and the reference's on v ≥ 0: they differ only at v = 0, where both branches are 0.
-/
import proofs.«143214_j32667521254002_2_alg».proof.Proof.Gen.ReferenceIdeal
import proofs.«143214_j32667521254002_2_alg».proof.Proof.Gen.KernelIdeal
import proofs.«143214_j32667521254002_2_alg».proof.Proof.RefRun
import proofs.«143214_j32667521254002_2_alg».proof.Proof.RegBiasAct
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.Bridge

open Idealize.ShloMosaic Idealize.ShloMosaic.ValueIdx
open Cert.ReferenceIdeal.Gen Cert.KernelIdeal.Gen

/-! ## The bias read at an entry -/

/-- The bias vector reshaped to one row, read at (0, c), is the vector at c. -/
theorem bias_row (b : Cert.ReferenceIdeal.S64.Idx → Elt Ideal .f32) (c : Fin 64) :
    shapeCast Cert.KernelIdeal.S1x64 b Cert.KernelIdeal.Facts₀.shapeCasts_S64_S1x64 (ix2 (n0 := 1) (n1 := 64) 0 c)
      = b (ix1 (n := 64) c) :=
  shapeCast_apply (t := Cert.KernelIdeal.S1x64) b _ (ix2 (n0 := 1) (n1 := 64) 0 c) (ix1 (n := 64) c) (by
    rw [Shape.rowMajor_val_one, Shape.rowMajor_val_two]
    show c.val = 0 * 64 + c.val
    omega)

/-- The bias vector broadcast to one row and then along the rows, read at (r, c), is the vector at c. -/
theorem bias_rows (b : Cert.ReferenceIdeal.S64.Idx → Elt Ideal .f32) (i : Cert.ReferenceIdeal.S100000x64.Idx) :
    broadcastInDim Cert.ReferenceIdeal.S100000x64 ![0, 1] Cert.ReferenceIdeal.Facts₀.bcast_S1x64_S100000x64_0_1
        (broadcastInDim Cert.ReferenceIdeal.S1x64 ![1] Cert.ReferenceIdeal.Facts₀.bcast_S64_S1x64_1 b) i
      = b (ix1 (n := 64) (i 1)) :=
  (broadcastInDim_apply (t := Cert.ReferenceIdeal.S100000x64) ![0, 1] _ _ i (ix2 (n0 := 1) (n1 := 64) 0 (i 1)) (fun a => by
    match a with
    | ⟨0, _⟩ => rfl
    | ⟨1, _⟩ => rfl)).trans
  (broadcastInDim_apply (t := Cert.ReferenceIdeal.S1x64) ![1] _ b (ix2 (n0 := 1) (n1 := 64) 0 (i 1)) (ix1 (n := 64) (i 1)) (fun a => by
    match a with
    | ⟨0, _⟩ => rfl))

/-! ## The leaky rectifier on the extended reals -/

/-- Selecting on v > 0 or on v ≥ 0 between v and c · v gives the same value: at v = 0 both v and c · v are 0. -/
theorem leaky_gt_ge (v c : Ideal .f32) :
    Scalar.select (FloatOps.cmpf .ogt v (FloatOps.ofBits .f32 0x00000000#32)) v (FloatOps.mulf c v)
      = Scalar.select (FloatOps.cmpf .oge v (FloatOps.ofBits .f32 0x00000000#32)) v (FloatOps.mulf c v) := by
  rw [Ideal.cmpf_def, Ideal.cmpf_def, Ideal.ofBits_def, Ideal.ofBits_zero_f32, Ideal.mulf_def]
  rcases lt_trichotomy v (0 : EReal) with h | h | h
  · have h1 : ¬ ((0 : EReal) < v) := not_lt.mpr h.le
    have h2 : ¬ ((0 : EReal) ≤ v) := not_le.mpr h
    simp [Scalar.select, Ideal.cmp, h1, h2]
  · subst h
    simp [Scalar.select, Ideal.cmp]
  · have h2 : (0 : EReal) ≤ v := h.le
    simp [Scalar.select, Ideal.cmp, h, h2]

/-! ## The two activations -/

/-- The kernel's biased, leaky-rectified array is the reference's leaky rectifier of the array plus the bias on every row. -/
theorem leaky_eq (a : Cert.KernelIdeal.S100000x64.Idx → Elt Ideal .f32) (b : Cert.ReferenceIdeal.S64.Idx → Elt Ideal .f32) :
    Cert.KernelIdeal.Regions.leakyG (F := Ideal) a (shapeCast Cert.KernelIdeal.S1x64 b Cert.KernelIdeal.Facts₀.shapeCasts_S64_S1x64)
      = Cert.ReferenceIdeal.RefRun.leaky (F := Ideal) (addf (F := Ideal) (φ := .f32) a
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1 b))) := by
  funext i
  unfold Cert.KernelIdeal.Regions.leakyG Cert.ReferenceIdeal.RefRun.leaky
  refine (congrArg (fun y : Elt Ideal .f32 => Cert.KernelIdeal.Regions.leakyS (F := Ideal) (a i) y) (bias_row b (i 1))).trans ?_
  refine Eq.trans ?_ (congrArg (fun y : Elt Ideal .f32 =>
    Scalar.select (FloatOps.cmpf (F := Ideal) (φ := .f32) .oge (FloatOps.addf (F := Ideal) (φ := .f32) (a i) y) (FloatOps.ofBits (F := Ideal) .f32 0x00000000#32))
      (FloatOps.addf (F := Ideal) (φ := .f32) (a i) y)
      (FloatOps.mulf (F := Ideal) (φ := .f32) (FloatOps.ofBits (F := Ideal) .f32 0x3C23D70A#32) (FloatOps.addf (F := Ideal) (φ := .f32) (a i) y))) (bias_rows b i)).symm
  exact leaky_gt_ge (FloatOps.addf (F := Ideal) (φ := .f32) (a i) (b (ix1 (n := 64) (i 1)))) (FloatOps.ofBits (F := Ideal) .f32 0x3C23D70A#32)

/-- The kernel's biased, rectified array is the reference's rectifier of the array plus the bias on every row. -/
theorem relu_eq (a : Cert.KernelIdeal.S100000x64.Idx → Elt Ideal .f32) (b : Cert.ReferenceIdeal.S64.Idx → Elt Ideal .f32) :
    Cert.KernelIdeal.Regions.reluG (F := Ideal) a (shapeCast Cert.KernelIdeal.S1x64 b Cert.KernelIdeal.Facts₀.shapeCasts_S64_S1x64)
      = Cert.ReferenceIdeal.RefRun.relu (F := Ideal) (addf (F := Ideal) (φ := .f32) a
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1 b))) := by
  funext i
  unfold Cert.KernelIdeal.Regions.reluG Cert.ReferenceIdeal.RefRun.relu
  refine (congrArg (fun y : Elt Ideal .f32 => Cert.KernelIdeal.Regions.reluS (F := Ideal) (a i) y) (bias_row b (i 1))).trans ?_
  exact (congrArg (fun y : Elt Ideal .f32 =>
    FloatOps.maximumf (F := Ideal) (φ := .f32) (FloatOps.addf (F := Ideal) (φ := .f32) (a i) y) (FloatOps.ofBits (F := Ideal) .f32 0x00000000#32)) (bias_rows b i)).symm

end Cert.Bridge

end
-- ==== Proof.BridgeOut.lean ====
/-
  The idealized kernel program's result and the reference's result are the same function of the thirteen argument
  arrays: layer by layer the kernel's whole-array functions are the reference's stages.
-/
import proofs.«143214_j32667521254002_2_alg».proof.Proof.BridgeA
import proofs.«143214_j32667521254002_2_alg».proof.Proof.BridgeB
import proofs.«143214_j32667521254002_2_alg».proof.Proof.KOut

set_option maxRecDepth 16384

noncomputable section

namespace Cert.Bridge

open Idealize.ShloMosaic Idealize.ShloMosaic.ValueIdx Cert.GcnSpec
open Cert.KernelIdeal.KFold

/-- One layer's aggregation on the kernel's side is the reference's sum of the scaled messages at their destinations. -/
theorem agg_eq (e : Cert.ReferenceIdeal.S2x3200000.Idx → Elt Ideal .i32) (xw : Cert.ReferenceIdeal.S100000x64.Idx → Elt Ideal .f32) :
    aggK e xw = Host.scatterAdd (F := Ideal) Cert.ReferenceIdeal.scatter_S100000x64_S3300000x1_S3300000x64_1_0_0_1
      (broadcastInDim Cert.ReferenceIdeal.S100000x64 ![] Cert.ReferenceIdeal.Facts₀.bcast_S_S100000x64 (constant (F := Ideal) Cert.ReferenceIdeal.S_ .f32 0x00000000#32))
      (Cert.ReferenceIdeal.RefRun.col (F := Ideal) (Cert.ReferenceIdeal.RefRun.dstIdx (F := Ideal) e))
      (Cert.ReferenceIdeal.RefRun.messages (F := Ideal) e xw) := by
  unfold aggK
  rw [nrm_eq]
  rfl

/-- The aggregation plus the bias is the reference's propagation stage. -/
theorem propagate_eq (e : Cert.ReferenceIdeal.S2x3200000.Idx → Elt Ideal .i32) (xw : Cert.ReferenceIdeal.S100000x64.Idx → Elt Ideal .f32)
    (b : Cert.ReferenceIdeal.S64.Idx → Elt Ideal .f32) :
    addf (F := Ideal) (φ := .f32) (aggK e xw)
        (broadcastInDim Cert.ReferenceIdeal.S100000x64 ![0, 1] Cert.ReferenceIdeal.Facts₀.bcast_S1x64_S100000x64_0_1
          (broadcastInDim Cert.ReferenceIdeal.S1x64 ![1] Cert.ReferenceIdeal.Facts₀.bcast_S64_S1x64_1 b))
      = Cert.ReferenceIdeal.RefRun.propagate (F := Ideal) e xw b := by
  rw [agg_eq]
  rfl

/-- The first layer with its leaky rectifier. -/
theorem layer12_leaky (e : Cert.ReferenceIdeal.S2x3200000.Idx → Elt Ideal .i32) (x : Cert.ReferenceIdeal.S100000x12.Idx → Elt Ideal .f32)
    (W : Cert.ReferenceIdeal.S12x64.Idx → Elt Ideal .f32) (b : Cert.ReferenceIdeal.S64.Idx → Elt Ideal .f32) :
    Cert.KernelIdeal.Regions.leakyG (F := Ideal) (aggK e (mmG (R := 100000) (K := 12) (C := 64) x W)) (rs64 b)
      = Cert.ReferenceIdeal.RefRun.leaky (F := Ideal) (Cert.ReferenceIdeal.RefRun.conv12 (F := Ideal) e x W b) := by
  unfold rs64
  rw [leaky_eq, propagate_eq, mm12_eq]
  rfl

/-- A later layer with its leaky rectifier. -/
theorem layer64_leaky (e : Cert.ReferenceIdeal.S2x3200000.Idx → Elt Ideal .i32) (h : Cert.ReferenceIdeal.S100000x64.Idx → Elt Ideal .f32)
    (W : Cert.ReferenceIdeal.S64x64.Idx → Elt Ideal .f32) (b : Cert.ReferenceIdeal.S64.Idx → Elt Ideal .f32) :
    Cert.KernelIdeal.Regions.leakyG (F := Ideal) (aggK e (mmG (R := 100000) (K := 64) (C := 64) h W)) (rs64 b)
      = Cert.ReferenceIdeal.RefRun.leaky (F := Ideal) (Cert.ReferenceIdeal.RefRun.conv64 (F := Ideal) e h W b) := by
  unfold rs64
  rw [leaky_eq, propagate_eq, mm64_eq]
  rfl

/-- The last layer with its rectifier. -/
theorem layer64_relu (e : Cert.ReferenceIdeal.S2x3200000.Idx → Elt Ideal .i32) (h : Cert.ReferenceIdeal.S100000x64.Idx → Elt Ideal .f32)
    (W : Cert.ReferenceIdeal.S64x64.Idx → Elt Ideal .f32) (b : Cert.ReferenceIdeal.S64.Idx → Elt Ideal .f32) :
    Cert.KernelIdeal.Regions.reluG (F := Ideal) (aggK e (mmG (R := 100000) (K := 64) (C := 64) h W)) (rs64 b)
      = Cert.ReferenceIdeal.RefRun.relu (F := Ideal) (Cert.ReferenceIdeal.RefRun.conv64 (F := Ideal) e h W b) := by
  unfold rs64
  rw [relu_eq, propagate_eq, mm64_eq]
  rfl

/-- The kernel program's result is the reference's: four layers, then the read-out. -/
theorem outK_eq (x : CF Cert.KernelIdeal.S100000x12) (e : CI Cert.KernelIdeal.S2x3200000) (bi : CI Cert.KernelIdeal.S100000)
    (W0 : CF Cert.KernelIdeal.S12x64) (b0 : CF Cert.KernelIdeal.S64) (W1 : CF Cert.KernelIdeal.S64x64) (b1 : CF Cert.KernelIdeal.S64)
    (W2 : CF Cert.KernelIdeal.S64x64) (b2 : CF Cert.KernelIdeal.S64) (W3 : CF Cert.KernelIdeal.S64x64) (b3 : CF Cert.KernelIdeal.S64)
    (Wfc : CF Cert.KernelIdeal.S64x1) (bfc : CF Cert.KernelIdeal.S1) :
    outK x e bi W0 b0 W1 b1 W2 b2 W3 b3 Wfc bfc
      = Cert.ReferenceIdeal.RefRun.out (F := Ideal) x e bi W0 b0 W1 b1 W2 b2 W3 b3 Wfc bfc := by
  unfold outK
  rw [layer12_leaky, layer64_leaky, layer64_leaky, layer64_relu]
  exact pool_stage_eq bi _ Wfc bfc

end Cert.Bridge

end
-- ==== Proof.lean ====
/-
  The certificate of a four-layer graph convolution network with a mean pool and a logistic output: the kernel program
  computes each layer's dense product, edge normalisation and bias-plus-activation, and the final pool, in thirteen
  kernel regions, with the gathers along the edges' sources and the scatter-adds into their destinations on the host
  between them; the reference computes the same network with host operations only.

  On the extended reals the two results are one function of the arguments.  Each product region's output array is the
  whole dense product (a finite sum, in any order and grouping; the narrow-format conversions are the identity);
  each normalisation region's output is the gathered rows times the normalisation column, which the reference
  writes as a broadcast product; each activation region adds the bias row and applies the activation — the kernel's
  leaky rectifier selects on v > 0 and the reference's on v ≥ 0, which differ only at v = 0 where both branches are 0;
  the last region's logistic function is the reference's 1 / (1 + exp(−z)).  The index vectors, the degree
  normalisation, the gathers and the scatter-adds are the same operations in both programs and are never opened.
  No law used needs the inputs to be finite, so the precondition is not opened.

  The three frames: the two kernel programs' are generated; the reference's is its run with the result dropped.
  The idealization rewrote no operation, so the preservation claim is trivial.
-/
import proofs.«143214_j32667521254002_2_alg».proof.Defs
import proofs.«143214_j32667521254002_2_alg».proof.Proof.Gen.Kernel
import proofs.«143214_j32667521254002_2_alg».proof.Proof.Gen.Kernel.Skeleton
import proofs.«143214_j32667521254002_2_alg».proof.Proof.Gen.Kernel.Launch
import proofs.«143214_j32667521254002_2_alg».proof.Proof.Gen.Kernel.Points
import proofs.«143214_j32667521254002_2_alg».proof.Proof.Gen.Kernel.Frame
import proofs.«143214_j32667521254002_2_alg».proof.Proof.Gen.KernelIdeal
import proofs.«143214_j32667521254002_2_alg».proof.Proof.Gen.KernelIdeal.Skeleton
import proofs.«143214_j32667521254002_2_alg».proof.Proof.Gen.KernelIdeal.Launch
import proofs.«143214_j32667521254002_2_alg».proof.Proof.Gen.KernelIdeal.Points
import proofs.«143214_j32667521254002_2_alg».proof.Proof.Gen.KernelIdeal.Frame
import proofs.«143214_j32667521254002_2_alg».proof.Proof.Gen.ReferenceIdeal
import proofs.«143214_j32667521254002_2_alg».proof.Proof.Gen.Pre_finite_inputs
import proofs.«143214_j32667521254002_2_alg».proof.Proof.KRun
import proofs.«143214_j32667521254002_2_alg».proof.Proof.KFold
import proofs.«143214_j32667521254002_2_alg».proof.Proof.RefRun
import proofs.«143214_j32667521254002_2_alg».proof.Proof.BridgeOut
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- Both idealized programs, from memories agreeing on the arguments, end with the result array at the same function of
    the arguments: the kernel program's run names its result as the last boundary's contents, which the fold reads as
    `outK` of the launch contents; the reference's run ends at `out` of its arguments; and `outK` is `out`. -/
theorem algebraic : Cert.algebraic_KernelIdeal_ReferenceIdeal := by
  intro m ρ m' ρ' _ hagree
  refine ⟨fun c => Cert.KernelIdeal.KFold.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono (fun r h c => ⟨(h c).1.trans (Cert.KernelIdeal.KFold.fold m ρ c), (h c).2⟩)
      (Cert.KernelIdeal.KRun.run_named (F := Ideal) m ρ)
  · refine (θ_run Cert.ReferenceIdeal.defs _ _).mono (fun r h c => ⟨(h c).1.trans ?_, (h c).2⟩) (Cert.ReferenceIdeal.RefRun.run (F := Ideal) m' ρ')
    obtain ⟨a0, a1, a2, a3, a4, a5, a6, a7, a8, a9, a10, a11, a12⟩ := hagree c
    rw [a0, a1, a2, a3, a4, a5, a6, a7, a8, a9, a10, a11, a12]
    exact (Cert.Bridge.outK_eq _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
